-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x640 : Shape := ⟨2, ![4096, 640]⟩
abbrev S640x640 : Shape := ⟨2, ![640, 640]⟩
abbrev S640 : Shape := ⟨1, ![640]⟩
abbrev S_ : Shape := ⟨0, ![]⟩

class Facts : Prop where
  bcast_S_S4096x640 : S_.BroadcastsInDim S4096x640 (![] : Fin 0 → Fin S4096x640.rank)
  reducesTo_S4096x640_S_d0_1 : S4096x640.ReducesTo [0, 1] S_
  h_S_ : 0 < S_.numel
  bcast_S_S640x640 : S_.BroadcastsInDim S640x640 (![] : Fin 0 → Fin S640x640.rank)
  reducesTo_S640x640_S_d0_1 : S640x640.ReducesTo [0, 1] S_
  bcast_S_S640 : S_.BroadcastsInDim S640 (![] : Fin 0 → Fin S640.rank)
  reducesTo_S640_S_d0 : S640.ReducesTo [0] S_

variable [Facts]

def fn_part1 {F : FTy → Type} [FloatOps F] (main_arg4 : FVec F S640 .f32) (main_arg5 : FVec F S640 .f32) (main_v13 : IVec S_ 1) (main_v16 : IVec S640x640 1) : IVec S_ 1 :=
  let main_c_5 : IVec S_ 1 := constantI S_ 1 1#1
  let main_v17 : IVec S_ 1 := (fun x v => Host.reduce IntOp.andi x v reducesTo_S640x640_S_d0_1 h_S_) main_v16 main_c_5
  let main_v18 : IVec S_ 1 := andi main_v13 main_v17
  let main_v19 : FVec F S640 .f32 := Host.absf main_arg4
  let main_cst_6 : FVec F S_ .f32 := constant S_ .f32 0x7F800000#32
  let main_v20 : FVec F S640 .f32 := broadcastInDim S640 ![] bcast_S_S640 main_cst_6
  let main_v21 : IVec S640 1 := cmpf .olt main_v19 main_v20
  let main_c_7 : IVec S_ 1 := constantI S_ 1 1#1
  let main_v22 : IVec S_ 1 := (fun x v => Host.reduce IntOp.andi x v reducesTo_S640_S_d0 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  main_v28

def fn {F : FTy → Type} [FloatOps F] (main_arg0 : FVec F S4096x640 .f32) (main_arg1 : FVec F S640x640 .f32) (main_arg2 : FVec F S640x640 .f32) (main_arg3 : FVec F S640x640 .f32) (main_arg4 : FVec F S640 .f32) (main_arg5 : FVec F S640 .f32) : IVec S_ 1 :=
  let main_v0 : FVec F S4096x640 .f32 := Host.absf main_arg0
  let main_cst : FVec F S_ .f32 := constant S_ .f32 0x7F800000#32
  let main_v1 : FVec F S4096x640 .f32 := broadcastInDim S4096x640 ![] bcast_S_S4096x640 main_cst
  let main_v2 : IVec S4096x640 1 := cmpf .olt main_v0 main_v1
  let main_c : IVec S_ 1 := constantI S_ 1 1#1
  let main_v3 : IVec S_ 1 := (fun x v => Host.reduce IntOp.andi x v reducesTo_S4096x640_S_d0_1 h_S_) main_v2 main_c
  let main_v4 : FVec F S640x640 .f32 := Host.absf main_arg1
  let main_cst_0 : FVec F S_ .f32 := constant S_ .f32 0x7F800000#32
  let main_v5 : FVec F S640x640 .f32 := broadcastInDim S640x640 ![] bcast_S_S640x640 main_cst_0
  let main_v6 : IVec S640x640 1 := cmpf .olt main_v4 main_v5
  let main_c_1 : IVec S_ 1 := constantI S_ 1 1#1
  let main_v7 : IVec S_ 1 := (fun x v => Host.reduce IntOp.andi x v reducesTo_S640x640_S_d0_1 h_S_) main_v6 main_c_1
  let main_v8 : IVec S_ 1 := andi main_v3 main_v7
  let main_v9 : FVec F S640x640 .f32 := Host.absf main_arg2
  let main_cst_2 : FVec F S_ .f32 := constant S_ .f32 0x7F800000#32
  let main_v10 : FVec F S640x640 .f32 := broadcastInDim S640x640 ![] bcast_S_S640x640 main_cst_2
  let main_v11 : IVec S640x640 1 := cmpf .olt main_v9 main_v10
  let main_c_3 : IVec S_ 1 := constantI S_ 1 1#1
  let main_v12 : IVec S_ 1 := (fun x v => Host.reduce IntOp.andi x v reducesTo_S640x640_S_d0_1 h_S_) main_v11 main_c_3
  let main_v13 : IVec S_ 1 := andi main_v8 main_v12
  let main_v14 : FVec F S640x640 .f32 := Host.absf main_arg3
  let main_cst_4 : FVec F S_ .f32 := constant S_ .f32 0x7F800000#32
  let main_v15 : FVec F S640x640 .f32 := broadcastInDim S640x640 ![] bcast_S_S640x640 main_cst_4
  let main_v16 : IVec S640x640 1 := cmpf .olt main_v14 main_v15
  fn_part1 (F := F) main_arg4 main_arg5 main_v13 main_v16
-- ==== Kernel.lean ====
abbrev S4096x640 : Shape := ⟨2, ![4096, 640]⟩
abbrev S640x640 : Shape := ⟨2, ![640, 640]⟩
abbrev S640 : Shape := ⟨1, ![640]⟩
abbrev S1024x640 : Shape := ⟨2, ![1024, 640]⟩
abbrev S10x4096x64 : Shape := ⟨3, ![10, 4096, 64]⟩
abbrev S10x64x4096 : Shape := ⟨3, ![10, 64, 4096]⟩
abbrev S1x4096x64 : Shape := ⟨3, ![1, 4096, 64]⟩
abbrev S1x64x512 : Shape := ⟨3, ![1, 64, 512]⟩
abbrev S1x512x64 : Shape := ⟨3, ![1, 512, 64]⟩
abbrev S4096x1 : Shape := ⟨2, ![4096, 1]⟩
abbrev S4096x64 : Shape := ⟨2, ![4096, 64]⟩
abbrev S64x512 : Shape := ⟨2, ![64, 512]⟩
abbrev S512x64 : Shape := ⟨2, ![512, 64]⟩
abbrev S1x1024x64 : Shape := ⟨3, ![1, 1024, 64]⟩
abbrev S1024x64 : Shape := ⟨2, ![1024, 64]⟩
abbrev S1024x1 : Shape := ⟨2, ![1024, 1]⟩
abbrev S1024x512 : Shape := ⟨2, ![1024, 512]⟩
abbrev S1024 : Shape := ⟨1, ![1024]⟩
abbrev S1x640 : Shape := ⟨2, ![1, 640]⟩

abbrev nBuf : Space → Nat
  | .hbm => 16
  | .vmem => 30
  | .smem => 0
  | _ => 0

abbrev bufTy : (tb : Table) → Fin (tcTables nBuf tb) → BufTy
  | .hbm, ⟨0, _⟩ => ⟨S4096x640, .f32⟩
  | .hbm, ⟨1, _⟩ => ⟨S640x640, .f32⟩
  | .hbm, ⟨2, _⟩ => ⟨S640x640, .f32⟩
  | .hbm, ⟨3, _⟩ => ⟨S640x640, .f32⟩
  | .hbm, ⟨4, _⟩ => ⟨S640, .f32⟩
  | .hbm, ⟨5, _⟩ => ⟨S640, .f32⟩
  | .hbm, ⟨6, _⟩ => ⟨S4096x640, .bf16⟩
  | .hbm, ⟨7, _⟩ => ⟨S4096x640, .bf16⟩
  | .hbm, ⟨8, _⟩ => ⟨S4096x640, .bf16⟩
  | .hbm, ⟨9, _⟩ => ⟨S10x4096x64, .bf16⟩
  | .hbm, ⟨10, _⟩ => ⟨S10x4096x64, .bf16⟩
  | .hbm, ⟨11, _⟩ => ⟨S10x64x4096, .bf16⟩
  | .hbm, ⟨12, _⟩ => ⟨S10x4096x64, .bf16⟩
  | .hbm, ⟨13, _⟩ => ⟨S10x4096x64, .f32⟩
  | .hbm, ⟨14, _⟩ => ⟨S4096x640, .f32⟩
  | .hbm, ⟨15, _⟩ => ⟨S4096x640, .f32⟩
  | .local _ .vmem, ⟨0, _⟩ => ⟨S1024x640, .f32⟩
  | .local _ .vmem, ⟨1, _⟩ => ⟨S1024x640, .f32⟩
  | .local _ .vmem, ⟨2, _⟩ => ⟨S640x640, .f32⟩
  | .local _ .vmem, ⟨3, _⟩ => ⟨S640x640, .f32⟩
  | .local _ .vmem, ⟨4, _⟩ => ⟨S640x640, .f32⟩
  | .local _ .vmem, ⟨5, _⟩ => ⟨S1024x640, .bf16⟩
  | .local _ .vmem, ⟨6, _⟩ => ⟨S1024x640, .bf16⟩
  | .local _ .vmem, ⟨7, _⟩ => ⟨S1024x640, .bf16⟩
  | .local _ .vmem, ⟨8, _⟩ => ⟨S1024x640, .bf16⟩
  | .local _ .vmem, ⟨9, _⟩ => ⟨S1024x640, .bf16⟩
  | .local _ .vmem, ⟨10, _⟩ => ⟨S1024x640, .bf16⟩
  | .local _ .vmem, ⟨11, _⟩ => ⟨S1x4096x64, .bf16⟩
  | .local _ .vmem, ⟨12, _⟩ => ⟨S1x4096x64, .bf16⟩
  | .local _ .vmem, ⟨13, _⟩ => ⟨S1x64x512, .bf16⟩
  | .local _ .vmem, ⟨14, _⟩ => ⟨S1x64x512, .bf16⟩
  | .local _ .vmem, ⟨15, _⟩ => ⟨S1x512x64, .bf16⟩
  | .local _ .vmem, ⟨16, _⟩ => ⟨S1x512x64, .bf16⟩
  | .local _ .vmem, ⟨17, _⟩ => ⟨S1x4096x64, .f32⟩
  | .local _ .vmem, ⟨18, _⟩ => ⟨S1x4096x64, .f32⟩
  | .local _ .vmem, ⟨19, _⟩ => ⟨S4096x1, .f32⟩
  | .local _ .vmem, ⟨20, _⟩ => ⟨S4096x1, .f32⟩
  | .local _ .vmem, ⟨21, _⟩ => ⟨S4096x64, .f32⟩
  | .local _ .vmem, ⟨22, _⟩ => ⟨S1024x640, .f32⟩
  | .local _ .vmem, ⟨23, _⟩ => ⟨S1024x640, .f32⟩
  | .local _ .vmem, ⟨24, _⟩ => ⟨S1024x640, .f32⟩
  | .local _ .vmem, ⟨25, _⟩ => ⟨S1024x640, .f32⟩
  | .local _ .vmem, ⟨26, _⟩ => ⟨S640, .f32⟩
  | .local _ .vmem, ⟨27, _⟩ => ⟨S640, .f32⟩
  | .local _ .vmem, ⟨28, _⟩ => ⟨S1024x640, .f32⟩
  | .local _ .vmem, ⟨29, _⟩ => ⟨S1024x640, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![10, 8], ![false, false]⟩

def k1_mult1 : BitVec 32 :=
  let c0_i32_6 : BitVec 32 := 0#32
  let c1024_i32 : BitVec 32 := 1024#32
  let v7 : BitVec 32 := Scalar.muli c0_i32_6 c1024_i32
  v7
def k1_off1 (c0_i32_6 : BitVec 32) : Fin 3 → Nat :=
  let c0_7 : Index := 0#32
  let c1024_i32 : BitVec 32 := 1024#32
  let v7 : BitVec 32 := Scalar.muli c0_i32_6 c1024_i32
  let v8 : BitVec 32 := v7
  let v9 : Index := Scalar.indexCast v8
  let c0_8 : Index := 0#32
  ![0, v9.toNat, 0]
def k1_off2 (c0_i32_6 : BitVec 32) : Fin 2 → Nat :=
  let c1024_i32 : BitVec 32 := 1024#32
  let v7 : BitVec 32 := Scalar.muli c0_i32_6 c1024_i32
  let v8 : BitVec 32 := v7
  let v12 : Index := Scalar.indexCast v8
  let c0_9 : Index := 0#32
  ![v12.toNat, 0]
def k1_off3 (c0_i32_6 : BitVec 32) : Fin 2 → Nat :=
  let c1024_i32 : BitVec 32 := 1024#32
  let v7 : BitVec 32 := Scalar.muli c0_i32_6 c1024_i32
  let v8 : BitVec 32 := v7
  let v16 : Index := Scalar.indexCast v8
  let c0_11 : Index := 0#32
  ![v16.toNat, 0]
def k1_mult2 : BitVec 32 :=
  let c1_i32 : BitVec 32 := 1#32
  let c1024_i32_18 : BitVec 32 := 1024#32
  let v48 : BitVec 32 := Scalar.muli c1_i32 c1024_i32_18
  v48
def k1_mult3 : BitVec 32 :=
  let c2_i32 : BitVec 32 := 2#32
  let c1024_i32_31 : BitVec 32 := 1024#32
  let v89 : BitVec 32 := Scalar.muli c2_i32 c1024_i32_31
  v89
def k1_mult4 : BitVec 32 :=
  let c3_i32 : BitVec 32 := 3#32
  let c1024_i32_44 : BitVec 32 := 1024#32
  let v130 : BitVec 32 := Scalar.muli c3_i32 c1024_i32_44
  v130
def k1_cond2 (i : grid1.Coords) : BitVec 1 :=
  let arg1 : BitVec 32 := BitVec.ofNat 32 (i 1).val
  let c7_i32 : BitVec 32 := 7#32
  let v171 : BitVec 1 := Scalar.cmpi .eq arg1 c7_i32
  let v172 : BitVec 32 := Scalar.extui v171
  let c0_i32_57 : BitVec 32 := 0#32
  let v173 : BitVec 1 := Scalar.cmpi .ne v172 c0_i32_57
  v173

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x64x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S640 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S640 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x640 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S1024x640_S1024x640_0_0 : ∀ a, (![0, 0] : Fin 2 → Nat) a + S1024x640.size a ≤ S1024x640.size a
  h_S1024x640 : 0 < S1024x640.numel
  bitsLt_bf16_f32 : FTy.bits .bf16 < FTy.bits .f32
  inb_S640x640_S640x640_0_0 : ∀ a, (![0, 0] : Fin 2 → Nat) a + S640x640.size a ≤ S640x640.size a
  h_S640x640 : 0 < S640x640.numel
  packedbf16_S1024x640_S1024x640_0_0 : (Rect.unit (s := S1024x640) ![0, 0] S1024x640.size inb_S1024x640_S1024x640_0_0).PackedRows (EltTy.packing .bf16)
  shapeCasts_S4096x640_S10x4096x64 : S4096x640.ShapeCasts S10x4096x64
  shapeCasts_S10x4096x64_S10x64x4096 : S10x4096x64.ShapeCasts S10x64x4096
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  h_S1x1024x64 : 0 < S1x1024x64.numel
  shapeCasts_S1x1024x64_S1024x64 : S1x1024x64.ShapeCasts S1024x64
  h_S1024x1 : 0 < S1024x1.numel
  h_S1024x64 : 0 < S1024x64.numel
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  shapeCasts_S1024x1_S1024x1 : S1024x1.ShapeCasts S1024x1
  shapeCasts_S1024x64_S1024x64 : S1024x64.ShapeCasts S1024x64
  broadcasts_S4096x1_S4096x64 : S4096x1.Broadcasts S4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  shapeCasts_S10x4096x64_S4096x640 : S10x4096x64.ShapeCasts S4096x640
  shapeCasts_S1024x640_S1024x640 : S1024x640.ShapeCasts S1024x640
  reduces_S1024x640_S1024 : S1024x640.Reduces [1] S1024
  broadcasts_S1024x1_S1024x640 : S1024x1.Broadcasts S1024x640
  inb_S640_S640_0 : ∀ a, (![0] : Fin 1 → Nat) a + S640.size a ≤ S640.size a
  h_S640 : 0 < S640.numel
  shapeCasts_S640_S1x640 : S640.ShapeCasts S1x640
  broadcasts_S1x640_S1024x640 : S1x640.Broadcasts S1024x640
  dot_S1024x640_S640x640_S1024x640_1_1_0_0_n_n_wf : DotDims.WF S1024x640 S640x640 S1024x640 [1] [1] [0] [0] [] []
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x640.size a ≤ S4096x640.size a
  hwx0_0 : ∀ i : grid0.Coords, EltTy.bits .f32 = 32 ∨ (Rect.block (s := S4096x640) S1024x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x640.size a ≤ S640x640.size a
  hwx0_1 : ∀ i : grid0.Coords, EltTy.bits .f32 = 32 ∨ (Rect.block (s := S640x640) S640x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x640.size a ≤ S640x640.size a
  hwx0_2 : ∀ i : grid0.Coords, EltTy.bits .f32 = 32 ∨ (Rect.block (s := S640x640) S640x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x640.size a ≤ S640x640.size a
  hwx0_3 : ∀ i : grid0.Coords, EltTy.bits .f32 = 32 ∨ (Rect.block (s := S640x640) S640x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x640.size a ≤ S4096x640.size a
  hwx0_4 : ∀ i : grid0.Coords, EltTy.bits .bf16 = 32 ∨ (Rect.block (s := S4096x640) S1024x640.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x640.size a ≤ S4096x640.size a
  hwx0_5 : ∀ i : grid0.Coords, EltTy.bits .bf16 = 32 ∨ (Rect.block (s := S4096x640) S1024x640.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x640.size a ≤ S4096x640.size a
  hwx0_6 : ∀ i : grid0.Coords, EltTy.bits .bf16 = 32 ∨ (Rect.block (s := S4096x640) S1024x640.size (cc0_transform_6 i) (hinb0_6 i)).WholeWords (EltTy.packing .bf16)
  hrank1 : 0 < grid1.rank
  k1_mult1_dvd : 1024 ∣ k1_mult1.toNat
  k1_off1_inb : ∀ (r : Fin 4), ∀ a, (k1_off1 (BitVec.ofNat 32 r.val)) a + S1x1024x64.size a ≤ S1x4096x64.size a
  k1_off2_inb : ∀ (r : Fin 4), ∀ a, (k1_off2 (BitVec.ofNat 32 r.val)) a + S1024x1.size a ≤ S4096x1.size a
  k1_off3_inb : ∀ (r : Fin 4), ∀ a, (k1_off3 (BitVec.ofNat 32 r.val)) a + S1024x64.size a ≤ S4096x64.size a
  k1_mult2_dvd : 1024 ∣ k1_mult2.toNat
  k1_mult3_dvd : 1024 ∣ k1_mult3.toNat
  k1_mult4_dvd : 1024 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x64.size a ≤ S10x4096x64.size a
  hwx1_0 : ∀ i : grid1.Coords, EltTy.bits .bf16 = 32 ∨ (Rect.block (s := S10x4096x64) S1x4096x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x512.size a ≤ S10x64x4096.size a
  hwx1_1 : ∀ i : grid1.Coords, EltTy.bits .bf16 = 32 ∨ (Rect.block (s := S10x64x4096) S1x64x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S10x4096x64.size a
  hwx1_2 : ∀ i : grid1.Coords, EltTy.bits .bf16 = 32 ∨ (Rect.block (s := S10x4096x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x64.size a ≤ S10x4096x64.size a
  hwx1_3 : ∀ i : grid1.Coords, EltTy.bits .f32 = 32 ∨ (Rect.block (s := S10x4096x64) S1x4096x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x640.size a ≤ S4096x640.size a
  hwx2_0 : ∀ i : grid2.Coords, EltTy.bits .f32 = 32 ∨ (Rect.block (s := S4096x640) S1024x640.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x640.size a ≤ S4096x640.size a
  hwx2_1 : ∀ i : grid2.Coords, EltTy.bits .f32 = 32 ∨ (Rect.block (s := S4096x640) S1024x640.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S640.size a ≤ S640.size a
  hwx2_2 : ∀ i : grid2.Coords, EltTy.bits .f32 = 32 ∨ (Rect.block (s := S640) S640.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S640.size a ≤ S640.size a
  hwx2_3 : ∀ i : grid2.Coords, EltTy.bits .f32 = 32 ∨ (Rect.block (s := S640) S640.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x640.size a ≤ S4096x640.size a
  hwx2_4 : ∀ i : grid2.Coords, EltTy.bits .f32 = 32 ∨ (Rect.block (s := S4096x640) S1024x640.size (cc2_transform_4 i) (hinb2_4 i)).WholeWords (EltTy.packing .f32)

variable [Facts₀]

def dot_S1024x640_S640x640_S1024x640_1_1_0_0_n_n : DotDims S1024x640 S640x640 S1024x640 where
  lhsContracting := [1]
  rhsContracting := [1]
  lhsNonContracting := [0]
  rhsNonContracting := [0]
  lhsBatch := []
  rhsBatch := []
  wf := dot_S1024x640_S640x640_S1024x640_1_1_0_0_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S640x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x640.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x640.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x640.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v6) S1024x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1024x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S640.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S640.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1024x640.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x640 : Shape := ⟨2, ![4096, 640]⟩
abbrev S640x640 : Shape := ⟨2, ![640, 640]⟩
abbrev S640 : Shape := ⟨1, ![640]⟩
abbrev S10x4096x64 : Shape := ⟨3, ![10, 4096, 64]⟩
abbrev S10x64x4096 : Shape := ⟨3, ![10, 64, 4096]⟩
abbrev S10x4096x4096 : Shape := ⟨3, ![10, 4096, 4096]⟩
abbrev S_ : Shape := ⟨0, ![]⟩
abbrev S10x4096 : Shape := ⟨2, ![10, 4096]⟩
abbrev S10x4096x1 : Shape := ⟨3, ![10, 4096, 1]⟩
abbrev S4096 : Shape := ⟨1, ![4096]⟩
abbrev S4096x1 : Shape := ⟨2, ![4096, 1]⟩
abbrev S1x640 : Shape := ⟨2, ![1, 640]⟩

abbrev nBuf : Space → Nat
  | .hbm => 66
  | .vmem => 0
  | .smem => 0
  | _ => 0

abbrev bufTy : (tb : Table) → Fin (tcTables nBuf tb) → BufTy
  | .hbm, ⟨0, _⟩ => ⟨S4096x640, .f32⟩
  | .hbm, ⟨1, _⟩ => ⟨S640x640, .f32⟩
  | .hbm, ⟨2, _⟩ => ⟨S640x640, .f32⟩
  | .hbm, ⟨3, _⟩ => ⟨S640x640, .f32⟩
  | .hbm, ⟨4, _⟩ => ⟨S640, .f32⟩
  | .hbm, ⟨5, _⟩ => ⟨S640, .f32⟩
  | .hbm, ⟨6, _⟩ => ⟨S640x640, .f32⟩
  | .hbm, ⟨7, _⟩ => ⟨S4096x640, .f32⟩
  | .hbm, ⟨8, _⟩ => ⟨S640x640, .f32⟩
  | .hbm, ⟨9, _⟩ => ⟨S4096x640, .f32⟩
  | .hbm, ⟨10, _⟩ => ⟨S640x640, .f32⟩
  | .hbm, ⟨11, _⟩ => ⟨S4096x640, .f32⟩
  | .hbm, ⟨12, _⟩ => ⟨S10x4096x64, .f32⟩
  | .hbm, ⟨13, _⟩ => ⟨S10x4096x64, .f32⟩
  | .hbm, ⟨14, _⟩ => ⟨S10x64x4096, .f32⟩
  | .hbm, ⟨15, _⟩ => ⟨S10x4096x64, .f32⟩
  | .hbm, ⟨16, _⟩ => ⟨S10x4096x4096, .f32⟩
  | .hbm, ⟨17, _⟩ => ⟨S_, .f32⟩
  | .hbm, ⟨18, _⟩ => ⟨S10x4096x4096, .f32⟩
  | .hbm, ⟨19, _⟩ => ⟨S10x4096x4096, .f32⟩
  | .hbm, ⟨20, _⟩ => ⟨S_, .f32⟩
  | .hbm, ⟨21, _⟩ => ⟨S10x4096, .f32⟩
  | .hbm, ⟨22, _⟩ => ⟨S_, .f32⟩
  | .hbm, ⟨23, _⟩ => ⟨S10x4096, .f32⟩
  | .hbm, ⟨24, _⟩ => ⟨S10x4096, .f32⟩
  | .hbm, ⟨25, _⟩ => ⟨S10x4096x1, .f32⟩
  | .hbm, ⟨26, _⟩ => ⟨S10x4096x4096, .f32⟩
  | .hbm, ⟨27, _⟩ => ⟨S10x4096x4096, .f32⟩
  | .hbm, ⟨28, _⟩ => ⟨S10x4096x4096, .f32⟩
  | .hbm, ⟨29, _⟩ => ⟨S_, .f32⟩
  | .hbm, ⟨30, _⟩ => ⟨S10x4096, .f32⟩
  | .hbm, ⟨31, _⟩ => ⟨S10x4096x1, .f32⟩
  | .hbm, ⟨32, _⟩ => ⟨S10x4096x4096, .f32⟩
  | .hbm, ⟨33, _⟩ => ⟨S10x4096x4096, .f32⟩
  | .hbm, ⟨34, _⟩ => ⟨S10x4096x64, .f32⟩
  | .hbm, ⟨35, _⟩ => ⟨S4096x640, .f32⟩
  | .hbm, ⟨36, _⟩ => ⟨S4096x640, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x640, .f32⟩
  | .hbm, ⟨44, _⟩ => ⟨S4096x640, .f32⟩
  | .hbm, ⟨45, _⟩ => ⟨S4096x640, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x640, .f32⟩
  | .hbm, ⟨53, _⟩ => ⟨S4096x640, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x640, .f32⟩
  | .hbm, ⟨59, _⟩ => ⟨S4096x640, .f32⟩
  | .hbm, ⟨60, _⟩ => ⟨S1x640, .f32⟩
  | .hbm, ⟨61, _⟩ => ⟨S4096x640, .f32⟩
  | .hbm, ⟨62, _⟩ => ⟨S4096x640, .f32⟩
  | .hbm, ⟨63, _⟩ => ⟨S1x640, .f32⟩
  | .hbm, ⟨64, _⟩ => ⟨S4096x640, .f32⟩
  | .hbm, ⟨65, _⟩ => ⟨S4096x640, .f32⟩
  | _, _ => ⟨S4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]

class Facts₀ : Prop where
  transposes_S640x640_S640x640_1_0 : S640x640.Transposes [1, 0] S640x640
  shapeCasts_S4096x640_S10x4096x64 : S4096x640.ShapeCasts S10x4096x64
  shapeCasts_S10x4096x64_S10x64x4096 : S10x4096x64.ShapeCasts S10x64x4096
  bcast_S_S10x4096x4096 : S_.BroadcastsInDim S10x4096x4096 (![] : Fin 0 → Fin S10x4096x4096.rank)
  reducesTo_S10x4096x4096_S10x4096_d2 : S10x4096x4096.ReducesTo [2] S10x4096
  h_S_ : 0 < S_.numel
  bcast_S_S10x4096 : S_.BroadcastsInDim S10x4096 (![] : Fin 0 → Fin S10x4096.rank)
  bcast_S10x4096_S10x4096x1_0_1 : S10x4096.BroadcastsInDim S10x4096x1 (![0, 1] : Fin 2 → Fin S10x4096x1.rank)
  bcast_S10x4096x1_S10x4096x4096_0_1_2 : S10x4096x1.BroadcastsInDim S10x4096x4096 (![0, 1, 2] : Fin 3 → Fin S10x4096x4096.rank)
  shapeCasts_S10x4096x64_S4096x640 : S10x4096x64.ShapeCasts S4096x640
  reducesTo_S4096x640_S4096_d1 : S4096x640.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x640_0_1 : S4096x1.BroadcastsInDim S4096x640 (![0, 1] : Fin 2 → Fin S4096x640.rank)
  bcast_S640_S1x640_1 : S640.BroadcastsInDim S1x640 (![1] : Fin 1 → Fin S1x640.rank)
  bcast_S1x640_S4096x640_0_1 : S1x640.BroadcastsInDim S4096x640 (![0, 1] : Fin 2 → Fin S4096x640.rank)
  dot_S4096x640_S640x640_S4096x640_1_0_0_1_n_n_wf : DotDims.WF S4096x640 S640x640 S4096x640 [1] [0] [0] [1] [] []
  dot_S10x4096x64_S10x64x4096_S10x4096x4096_2_1_1_2_0_0_wf : DotDims.WF S10x4096x64 S10x64x4096 S10x4096x4096 [2] [1] [1] [2] [0] [0]
  dot_S10x4096x4096_S10x4096x64_S10x4096x64_2_1_1_2_0_0_wf : DotDims.WF S10x4096x4096 S10x4096x64 S10x4096x64 [2] [1] [1] [2] [0] [0]

variable [Facts₀]

def dot_S4096x640_S640x640_S4096x640_1_0_0_1_n_n : DotDims S4096x640 S640x640 S4096x640 where
  lhsContracting := [1]
  rhsContracting := [0]
  lhsNonContracting := [0]
  rhsNonContracting := [1]
  lhsBatch := []
  rhsBatch := []
  wf := dot_S4096x640_S640x640_S4096x640_1_0_0_1_n_n_wf
def dot_S10x4096x64_S10x64x4096_S10x4096x4096_2_1_1_2_0_0 : DotDims S10x4096x64 S10x64x4096 S10x4096x4096 where
  lhsContracting := [2]
  rhsContracting := [1]
  lhsNonContracting := [1]
  rhsNonContracting := [2]
  lhsBatch := [0]
  rhsBatch := [0]
  wf := dot_S10x4096x64_S10x64x4096_S10x4096x4096_2_1_1_2_0_0_wf
def dot_S10x4096x4096_S10x4096x64_S10x4096x64_2_1_1_2_0_0 : DotDims S10x4096x4096 S10x4096x64 S10x4096x64 where
  lhsContracting := [2]
  rhsContracting := [1]
  lhsNonContracting := [1]
  rhsNonContracting := [2]
  lhsBatch := [0]
  rhsBatch := [0]
  wf := dot_S10x4096x4096_S10x4096x64_S10x4096x64_2_1_1_2_0_0_wf

class Facts : Prop extends Facts₀ where

variable [Facts]
-- ==== Proof.BFrameR0.lean ====
/-
  The projection kernel (the first of the three kernel regions), at any float instance and at any contents `V` of the
  TensorCore's buffers when the region is entered.

  At a grid point the region stages one block of 1024 rows of the input and the three whole weight matrices, and the body
  stores three blocks of 1024 rows: the scaled query projection, the key projection and the value projection of those rows.
  Stated here: what each staged input buffer holds at a point (its block of the array as the region found it), what the
  body leaves in each output buffer as a function of the input blocks (one covering store each), that the body runs on
  such buffers without fault, and the per-point obligation the pipeline asks of the body.
-/
import proofs.«126686_j77318001263092_2_alg».proof.Proof.Gen.Kernel.Launch
import proofs.«126686_j77318001263092_2_alg».proof.Proof.Gen.Kernel.Skeleton
import proofs.«126686_j77318001263092_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not (a window that is
    not fetched at a point has not moved since it was). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S1024x640 := Rect.unit (s := S1024x640) ![0, 0] S1024x640.size inb_S1024x640_S1024x640_0_0
abbrev r0_w : Rect S640x640 := Rect.unit (s := S640x640) ![0, 0] S640x640.size inb_S640x640_S640x640_0_0

/-! ## What the body leaves in each output window's buffer -/

/-- The query block: the rows' product with the transposed query weight, scaled. -/
def out0_4 (x0 : Vec F S1024x640 .f32) (x1 : Vec F S640x640 .f32) : Vec F S1024x640 .bf16 :=
  View.canon [⟨r0_x, k0_pay2 (View.ld x0 r0_x) (View.ld x1 r0_w)⟩]
/-- The key block: the rows' product with the transposed key weight. -/
def out0_5 (x0 : Vec F S1024x640 .f32) (x2 : Vec F S640x640 .f32) : Vec F S1024x640 .bf16 :=
  View.canon [⟨r0_x, k0_pay3 (View.ld x0 r0_x) (View.ld x2 r0_w)⟩]
/-- The value block: the rows' product with the transposed value weight. -/
def out0_6 (x0 : Vec F S1024x640 .f32) (x3 : Vec F S640x640 .f32) : Vec F S1024x640 .bf16 :=
  View.canon [⟨r0_x, k0_pay4 (View.ld x0 r0_x) (View.ld x3 r0_w)⟩]

/-- One store of the whole block covers the buffer. -/
theorem cover0 (p0 : Vec F S1024x640 .bf16) (y : S1024x640.Idx) :
    ∃ pc ∈ ([⟨r0_x, p0⟩] : List (View.Piece (Elt F) S1024x640 .bf16)), y ∈ pc.1.set :=
  View.cover_of_tiled [⟨r0_x, p0⟩] S1024x640.size (by rfl) y

/-! ## The body's triple -/

set_option maxHeartbeats 4000000 in
/-- On whole staging memrefs, the inputs' at contents `x·` and the outputs' at anything, the body runs to the continuation
    holding the inputs' as they were and each output's at its block. -/
theorem sound_kernel0 (c : Dev nD) (E : Set ℕ) (i : grid0.Coords)
    (arg1 : Memref sig .tc .vmem S1024x640 .f32) (harg1 : arg1.IsWhole) (arg2 : Memref sig .tc .vmem S640x640 .f32) (harg2 : arg2.IsWhole)
    (arg3 : Memref sig .tc .vmem S640x640 .f32) (harg3 : arg3.IsWhole) (arg4 : Memref sig .tc .vmem S640x640 .f32) (harg4 : arg4.IsWhole)
    (arg5 : Memref sig .tc .vmem S1024x640 .bf16) (harg5 : arg5.IsWhole) (arg6 : Memref sig .tc .vmem S1024x640 .bf16) (harg6 : arg6.IsWhole)
    (arg7 : Memref sig .tc .vmem S1024x640 .bf16) (harg7 : arg7.IsWhole)
    (x0 : Vec F S1024x640 .f32) (x1 x2 x3 : Vec F S640x640 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of the projection pipeline on core `c`: the arrays as the region finds them; after the body at
    point `t` each input's buffer at its block and each output's at its block of products; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BFrameR1Runs.lean ====
/-
  The attention kernel (the second kernel region): what its per-case runs share.

  The grid is 10 heads by 8 key/value tiles, the tile index innermost. The body initialises its three scratch buffers
  (running row maximum, running row sum, running weighted sum of value rows) under a first condition — the tile index is
  0 —, updates them for four chunks of 1024 query rows, and under a second condition — the tile index is 7 — divides the
  weighted sums by the row sums and stores the head's output block. Stated here: the two conditions in closed form over
  the grid, where the output window is idle (wherever the second condition fails), the staging and scratch memrefs the
  body is called with, and views through which buffer contents are stated.
-/
import proofs.«126686_j77318001263092_2_alg».proof.Proof.Gen.Kernel.Launch
import proofs.«126686_j77318001263092_2_alg».proof.Proof.Gen.Kernel.Skeleton
import proofs.«126686_j77318001263092_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first condition: the key/value tile index is 0. -/
abbrev cond1_0 (i : grid1.Coords) : Prop := (Scalar.cmpi .ne (Scalar.extui (Scalar.cmpi .eq (BitVec.ofNat 32 (i 1).val) 0#32)) 0#32) = 1#1
/-- It holds at the first tile of every head — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second condition: the key/value tile index is 7, the last. -/
abbrev cond1_1 (i : grid1.Coords) : Prop := k1_cond2 i = 1#1
/-- It holds at the last tile of every head — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second condition fails the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it holds the window is live. -/
theorem liveAt1_3 : ∀ t : Fin cfg1.N, cond1_1 (grid1.coords t) → cfg1.idle 3 (grid1.coords t) = false := by decide +kernel

/-! ## The memrefs the body is called with -/

abbrev VO1_3 : View sig .tc .vmem S1x4096x64 .f32 := (Memref.whole cc1_stg3_0 : Memref sig .tc .vmem S1x4096x64 .f32).view
abbrev ms1_0 (t : Fin cfg1.N) : Memref sig .tc .vmem S1x4096x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x64 .f32 := win1_3.stage (cfg1.slots t 3)
abbrev hs1_3 (t : Fin cfg1.N) : (ms1_3 t).IsWhole := hstage1_3 ((cfg1.slots t 3).cast nbuf1_3)
/-- The scratch operands: the running maximum, the running sum, the running weighted sum. -/
abbrev scM1_0 : Memref sig .tc .vmem S4096x1 .f32 := Memref.whole cc1_scratch0
abbrev scM1_1 : Memref sig .tc .vmem S4096x1 .f32 := Memref.whole cc1_scratch1
abbrev scM1_2 : Memref sig .tc .vmem S4096x64 .f32 := Memref.whole cc1_scratch2
abbrev VS1_0 : View sig .tc .vmem S4096x1 .f32 := scM1_0.view
abbrev VS1_1 : View sig .tc .vmem S4096x1 .f32 := scM1_1.view
abbrev VS1_2 : View sig .tc .vmem S4096x64 .f32 := scM1_2.view

end Cert.Kernel.Hand

end
-- ==== Proof.BFrameR1RunA.lean ====
/-
  The attention kernel's body, run whole, at a point where the first condition holds and the second does not (the first key/value tile of a head).

  On whole memrefs — the three input blocks at their contents, the output buffer at contents handed back untouched, the three
  scratch buffers at anything (the body overwrites them first) — the body runs without fault to a state that holds
  the inputs as they were and each scratch buffer with this point's stores written into it. The lists of stored pieces
  are found by running the body; they are this definition's first components.
-/
import proofs.«126686_j77318001263092_2_alg».proof.Proof.BFrameR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_A (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) :
    Σ' (L3 : List (View.Piece (Elt F) S1x4096x64 .f32)) (LS0 : List (View.Piece (Elt F) S4096x1 .f32)) (LS1 : List (View.Piece (Elt F) S4096x1 .f32)),
      { LS2 : List (View.Piece (Elt F) S4096x64 .f32) //
      ∀ (xi3 : Vec F S1x4096x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3

    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    isplitl [HS1]
    · iexists _; iexact HS1
    iexists _; iexact HS2

end Cert.Kernel.Hand

end
-- ==== Proof.BFrameR1RunB.lean ====
/-
  The attention kernel's body, run whole, at a point where neither condition holds (a middle key/value tile).

  On whole memrefs — the three input blocks at their contents, the output buffer at contents handed back untouched, the three
  scratch buffers at the contents the point before left — the body runs without fault to a state that holds
  the inputs as they were and each scratch buffer with this point's stores written into it. The lists of stored pieces
  are found by running the body; they are this definition's first components.
-/
import proofs.«126686_j77318001263092_2_alg».proof.Proof.BFrameR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_B (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16)
    (xs0 xs1 : Vec F S4096x1 .f32) (xs2 : Vec F S4096x64 .f32) :
    Σ' (L3 : List (View.Piece (Elt F) S1x4096x64 .f32)) (LS0 : List (View.Piece (Elt F) S4096x1 .f32)) (LS1 : List (View.Piece (Elt F) S4096x1 .f32)),
      { LS2 : List (View.Piece (Elt F) S4096x64 .f32) //
      ∀ (xi3 : Vec F S1x4096x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    isplitl [HS1]
    · iexists _; iexact HS1
    iexists _; iexact HS2

end Cert.Kernel.Hand

end
-- ==== Proof.BFrameR1RunC.lean ====
/-
  The attention kernel's body, run whole, at a point where the second condition holds and the first does not (the last key/value tile of a head).

  On whole memrefs — the three input blocks at their contents, the output buffer at anything, the three
  scratch buffers at the contents the point before left — the body runs without fault to a state that holds
  the inputs as they were, the output buffer with the head's block written into it and each scratch buffer with this point's stores written into it. The lists of stored pieces
  are found by running the body; they are this definition's first components.
-/
import proofs.«126686_j77318001263092_2_alg».proof.Proof.BFrameR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_C (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16)
    (xs0 xs1 : Vec F S4096x1 .f32) (xs2 : Vec F S4096x64 .f32) :
    Σ' (L3 : List (View.Piece (Elt F) S1x4096x64 .f32)) (LS0 : List (View.Piece (Elt F) S4096x1 .f32)) (LS1 : List (View.Piece (Elt F) S4096x1 .f32)),
      { LS2 : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; iexact HS0
    isplitl [HS1]
    · iexists _; iexact HS1
    iexists _; iexact HS2

end Cert.Kernel.Hand

end
-- ==== Proof.BFrameR1.lean ====
/-
  The attention kernel (the second kernel region), at any float instance and at any contents `V` of the TensorCore's
  buffers when the region is entered: what its buffers hold point by point, and the obligation the pipeline asks of the body.

  The grid is 10 heads by 8 key/value tiles. At a point the region stages the head's whole query block (fetched at the
  head's first tile only), one tile of keys and one tile of values; the output block of the head is written back at the
  head's last tile only, and the window is idle elsewhere. Between points the body carries three scratch buffers — the
  running row maxima, the running row sums and the running weighted sums — which it overwrites whole at a head's first
  tile. Stated here, per case of the two conditions: what the case leaves in the output buffer and in each scratch buffer
  (the stores' pieces read back; they cover the buffer); then, by recursion on the point, what the four buffers hold after
  each point; the region's invariant (before the first point every scoped buffer at anything; afterwards the three scratch
  buffers at what the point before left, the other scoped buffers at anything, the generator register at some state);
  the proof data; and the body obligation at every point.
-/
import proofs.«126686_j77318001263092_2_alg».proof.Proof.BFrameR1RunA
import proofs.«126686_j77318001263092_2_alg».proof.Proof.BFrameR1RunB
import proofs.«126686_j77318001263092_2_alg».proof.Proof.BFrameR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (the query window is
    fetched at a head's first tile and has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output buffer and in the scratch buffers -/

/-- What case A leaves in the output buffer: its pieces read back (none: a placeholder nothing consults, the window being idle there). -/
def out1_A_3 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) : Vec F S1x4096x64 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)
/-- Case A's stores into scratch 0 cover it. -/
theorem scover1_A_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) (y : S4096x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S4096x1.size (by sl_kernel_rfl) y
/-- What case A leaves in scratch 0: its pieces read back. -/
def sout1_A_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) : Vec F S4096x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)
/-- Case A's stores into scratch 1 cover it. -/
theorem scover1_A_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) (y : S4096x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S4096x1.size (by sl_kernel_rfl) y
/-- What case A leaves in scratch 1: its pieces read back. -/
def sout1_A_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) : Vec F S4096x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)
/-- Case A's stores into scratch 2 cover it. -/
theorem scover1_A_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) (y : S4096x64.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S4096x64.size (by sl_kernel_rfl) y
/-- What case A leaves in scratch 2: its pieces read back. -/
def sout1_A_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) : Vec F S4096x64 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case B leaves in the output buffer: its pieces read back (none: a placeholder nothing consults, the window being idle there). -/
def out1_B_3 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) : Vec F S1x4096x64 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)
/-- Case B's stores into scratch 0 cover it. -/
theorem scover1_B_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y
/-- What case B leaves in scratch 0: its pieces read back. -/
def sout1_B_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)
/-- Case B's stores into scratch 1 cover it. -/
theorem scover1_B_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1.size (by sl_kernel_rfl) y
/-- What case B leaves in scratch 1: its pieces read back. -/
def sout1_B_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)
/-- Case B's stores into scratch 2 cover it. -/
theorem scover1_B_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x64.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1024x64.size (by sl_kernel_rfl) y
/-- What case B leaves in scratch 2: its pieces read back. -/
def sout1_B_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x64 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- Case C's one store into the output buffer covers it. -/
theorem cover1_C_3 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) (y : S1x4096x64.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1x4096x64.size (by sl_kernel_rfl) y
/-- What case C leaves in the output buffer: its pieces read back. -/
def out1_C_3 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) : Vec F S1x4096x64 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)
/-- Case C's stores into scratch 0 cover it. -/
theorem scover1_C_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y
/-- What case C leaves in scratch 0: its pieces read back. -/
def sout1_C_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)
/-- Case C's stores into scratch 1 cover it. -/
theorem scover1_C_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y
/-- What case C leaves in scratch 1: its pieces read back. -/
def sout1_C_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)
/-- Case C's stores into scratch 2 cover it. -/
theorem scover1_C_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x64.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x64.size (by sl_kernel_rfl) y
/-- What case C leaves in scratch 2: its pieces read back. -/
def sout1_C_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x64 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the buffers hold after each point -/

/-- After the body at position `n`: the output buffer, then the three scratch buffers — the case the closed forms select
    at `n`, run at the point's memrefs and input blocks, the scratch buffers it reads at what the point before left. -/
def outsAt1 (c : Dev nD) : (n : ℕ) → n < cfg1.N → Vec F S1x4096x64 .f32 × Vec F S4096x1 .f32 × Vec F S4096x1 .f32 × Vec F S4096x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- At a head's first tile: the first case's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle tile: the middle case's contents, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a head's last tile: the last case's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers no window of this region stages, the three scratch buffers among them at anything, and the
    generator register at some state: the invariant before the first point, spelt out. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ d, owns (c : Thread nD τ) scM1_0 fullShare d)
      ∗ (∃ d, owns (c : Thread nD τ) scM1_1 fullShare d)
      ∗ (∃ d, owns (c : Thread nD τ) scM1_2 fullShare d)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)) ∗ (∃ r, prngReg c r)) := by
  unfold Pipeline.ΦA; rw [scopedRest1_eq]; simp only [scM1_0, scM1_1, scM1_2, owns_whole]; try rfl

/-- The invariant before position `n`: before the first point every scoped buffer at anything; afterwards the three
    scratch buffers at what the point before left in them, the other scoped buffers at anything, and the generator
    register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare ((outsAt1 V c n hn).2.1)
      ∗ owns (c : Thread nD τ) scM1_1 fullShare ((outsAt1 V c n hn).2.2.1)
      ∗ owns (c : Thread nD τ) scM1_2 fullShare ((outsAt1 V c n hn).2.2.2)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare ((outsAt1 V c n hn).2.1)
      ∗ owns (c : Thread nD τ) scM1_1 fullShare ((outsAt1 V c n hn).2.2.1)
      ∗ owns (c : Thread nD τ) scM1_2 fullShare ((outsAt1 V c n hn).2.2.2)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare ((outsAt1 V c (n - 1) (by omega)).2.1)
      ∗ owns (c : Thread nD τ) scM1_1 fullShare ((outsAt1 V c (n - 1) (by omega)).2.2.1)
      ∗ owns (c : Thread nD τ) scM1_2 fullShare ((outsAt1 V c (n - 1) (by omega)).2.2.2)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)) ∗ (∃ r, prngReg c r)) := by
  cases n with
  | zero => exact absurd rfl hz
  | succ n => rfl

/-! ## The pipeline's proof data -/

/-- The proof data of the attention pipeline on core `c`: the arrays as the region finds them; after the body at point
    `t` each input's buffer at its block and the output's at what the accumulation gives there; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the inputs' memrefs hold their blocks; the closed forms say which case the point is in; the
    invariant hands the body the scratch buffers at what the point before left (at anything before the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS_castSucc V c t, PhiS_zero V c _ _ hz, PhiA1_eq]
        iintro ⟨⟨⟨R0, R1, R2, R3, R4, R5, R6, R7, R8, R9, R10, HS0, HS1, HS2, R14, R15, R16, R17, R18, R19, R20, R21⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 R14 R15 R16 R17 R18 R19 R20 R21 Hg]
        · isplitl [R0 R1 R2 R3 R4 R5 R6 R7 R8 R9 R10 HS0 HS1 HS2 R14 R15 R16 R17 R18 R19 R20 R21]
          · isplitl [R0]
            · iexact R0
            isplitl [R1]
            · iexact R1
            isplitl [R2]
            · iexact R2
            isplitl [R3]
            · iexact R3
            isplitl [R4]
            · iexact R4
            isplitl [R5]
            · iexact R5
            isplitl [R6]
            · iexact R6
            isplitl [R7]
            · iexact R7
            isplitl [R8]
            · iexact R8
            isplitl [R9]
            · iexact R9
            isplitl [R10]
            · iexact R10
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            isplitl [R14]
            · iexact R14
            isplitl [R15]
            · iexact R15
            isplitl [R16]
            · iexact R16
            isplitl [R17]
            · iexact R17
            isplitl [R18]
            · iexact R18
            isplitl [R19]
            · iexact R19
            isplitl [R20]
            · iexact R20
            iexact R21
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨R0, R1, R2, R3, R4, R5, R6, R7, R8, R9, R10, HS0, HS1, HS2, R14, R15, R16, R17, R18, R19, R20, R21⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 R14 R15 R16 R17 R18 R19 R20 R21 Hg]
        · isplitl [R0 R1 R2 R3 R4 R5 R6 R7 R8 R9 R10 HS0 HS1 HS2 R14 R15 R16 R17 R18 R19 R20 R21]
          · isplitl [R0]
            · iexact R0
            isplitl [R1]
            · iexact R1
            isplitl [R2]
            · iexact R2
            isplitl [R3]
            · iexact R3
            isplitl [R4]
            · iexact R4
            isplitl [R5]
            · iexact R5
            isplitl [R6]
            · iexact R6
            isplitl [R7]
            · iexact R7
            isplitl [R8]
            · iexact R8
            isplitl [R9]
            · iexact R9
            isplitl [R10]
            · iexact R10
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            isplitl [R14]
            · iexact R14
            isplitl [R15]
            · iexact R15
            isplitl [R16]
            · iexact R16
            isplitl [R17]
            · iexact R17
            isplitl [R18]
            · iexact R18
            isplitl [R19]
            · iexact R19
            isplitl [R20]
            · iexact R20
            iexact R21
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      have hz : t.val ≠ 0 := fun hz => h0 (by rw [hz])
      rw [PhiS_castSucc V c t, PhiS_pos V c _ _ hz]
      iintro ⟨⟨⟨R0, R1, R2, R3, R4, R5, R6, R7, R8, R9, R10, HS0, HS1, HS2, R14, R15, R16, R17, R18, R19, R20, R21⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [R0 R1 R2 R3 R4 R5 R6 R7 R8 R9 R10 HS0 HS1 HS2 R14 R15 R16 R17 R18 R19 R20 R21 Hg]
      · isplitl [R0 R1 R2 R3 R4 R5 R6 R7 R8 R9 R10 HS0 HS1 HS2 R14 R15 R16 R17 R18 R19 R20 R21]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _)
          isplitl [R14]
          · iexact R14
          isplitl [R15]
          · iexact R15
          isplitl [R16]
          · iexact R16
          isplitl [R17]
          · iexact R17
          isplitl [R18]
          · iexact R18
          isplitl [R19]
          · iexact R19
          isplitl [R20]
          · iexact R20
          iexact R21
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      have hz : t.val ≠ 0 := fun hz => h0 (by rw [hz])
      rw [PhiS_castSucc V c t, PhiS_pos V c _ _ hz]
      iintro ⟨⟨⟨R0, R1, R2, R3, R4, R5, R6, R7, R8, R9, R10, HS0, HS1, HS2, R14, R15, R16, R17, R18, R19, R20, R21⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R0 R1 R2 R3 R4 R5 R6 R7 R8 R9 R10 HS0 HS1 HS2 R14 R15 R16 R17 R18 R19 R20 R21 Hg]
      · isplitl [R0 R1 R2 R3 R4 R5 R6 R7 R8 R9 R10 HS0 HS1 HS2 R14 R15 R16 R17 R18 R19 R20 R21]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _)
          isplitl [R14]
          · iexact R14
          isplitl [R15]
          · iexact R15
          isplitl [R16]
          · iexact R16
          isplitl [R17]
          · iexact R17
          isplitl [R18]
          · iexact R18
          isplitl [R19]
          · iexact R19
          isplitl [R20]
          · iexact R20
          iexact R21
        iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is what the launch hands the region. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the scratch buffers' named contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R0, R1, R2, R3, R4, R5, R6, R7, R8, R9, R10, HS0, HS1, HS2, R14, R15, R16, R17, R18, R19, R20, R21⟩, Hg⟩
  isplitl [R0 R1 R2 R3 R4 R5 R6 R7 R8 R9 R10 HS0 HS1 HS2 R14 R15 R16 R17 R18 R19 R20 R21]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HS0]; · iexists _; iexact HS0
    isplitl [HS1]; · iexists _; iexact HS1
    isplitl [HS2]; · iexists _; iexact HS2
    isplitl [R14]; · iexact R14
    isplitl [R15]; · iexact R15
    isplitl [R16]; · iexact R16
    isplitl [R17]; · iexact R17
    isplitl [R18]; · iexact R18
    isplitl [R19]; · iexact R19
    isplitl [R20]; · iexact R20
    iexact R21
  iexact Hg

theorem hout1 (c : Dev nD) : (dat1 V c).Φ (Fin.last cfg1.N) ⊢ Pipeline.ΦA spec1 c :=
  Phi_out1 V c _ (by rw [Fin.val_last]; have : cfg1.N = 80 := N_1; omega)

end Cert.Kernel.Hand

end
-- ==== Proof.BFrameR2.lean ====
/-
  The normalisation kernel (the last of the three kernel regions), at any float instance and at any contents `V` of the
  TensorCore's buffers when the region is entered.

  At a grid point the region stages one block of 1024 rows of the attention output, the same rows of the input, and the
  whole scale and shift vectors; the body stores one block of 1024 rows: each row of the sum of the two blocks,
  normalised, scaled and shifted. Stated here: what each staged input buffer holds at a point, what the body leaves in the
  output buffer as a function of the input blocks (one covering store), that the body runs without fault, and the
  per-point obligation the pipeline asks of the body.
-/
import proofs.«126686_j77318001263092_2_alg».proof.Proof.Gen.Kernel.Launch
import proofs.«126686_j77318001263092_2_alg».proof.Proof.Gen.Kernel.Skeleton
import proofs.«126686_j77318001263092_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S1024x640 := Rect.unit (s := S1024x640) ![0, 0] S1024x640.size inb_S1024x640_S1024x640_0_0
abbrev r2_g : Rect S640 := Rect.unit (s := S640) ![0] S640.size inb_S640_S640_0

/-! ## What the body leaves in the output window's buffer -/

/-- The normalised block, from the two row blocks and the scale and shift vectors. -/
def out2_4 (x0 x1 : Vec F S1024x640 .f32) (x2 x3 : Vec F S640 .f32) : Vec F S1024x640 .f32 :=
  View.canon [⟨r2_x, k2_pay1 (View.ld x0 r2_x) (View.ld x1 r2_x) (View.ld x2 r2_g) (View.ld x3 r2_g)⟩]

/-- One store of the whole block covers the buffer. -/
theorem cover2 (p0 : Vec F S1024x640 .f32) (y : S1024x640.Idx) :
    ∃ pc ∈ ([⟨r2_x, p0⟩] : List (View.Piece (Elt F) S1024x640 .f32)), y ∈ pc.1.set :=
  View.cover_of_tiled [⟨r2_x, p0⟩] S1024x640.size (by rfl) y

/-! ## The body's triple -/

set_option maxHeartbeats 4000000 in
/-- On whole staging memrefs, the inputs' at contents `x·` and the output's at anything, the body runs to the continuation
    holding the inputs' as they were and the output's at its block. -/
theorem sound_kernel2 (c : Dev nD) (E : Set ℕ) (i : grid2.Coords)
    (arg1 : Memref sig .tc .vmem S1024x640 .f32) (harg1 : arg1.IsWhole) (arg2 : Memref sig .tc .vmem S1024x640 .f32) (harg2 : arg2.IsWhole)
    (arg3 : Memref sig .tc .vmem S640 .f32) (harg3 : arg3.IsWhole) (arg4 : Memref sig .tc .vmem S640 .f32) (harg4 : arg4.IsWhole)
    (arg5 : Memref sig .tc .vmem S1024x640 .f32) (harg5 : arg5.IsWhole)
    (x0 x1 : Vec F S1024x640 .f32) (x2 x3 : Vec F S640 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__ln_kernel i arg1 harg1 arg2 harg2 arg3 harg3 arg4 harg4 arg5 harg5) K := by
  simp only [cc2__ln_kernel_eq_skeleton]; unfold cc2__ln_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-! ## The pipeline's proof data -/

/-- The proof data of the normalisation pipeline on core `c`: the arrays as the region finds them; after the body at
    point `t` each input's buffer at its block and the output's at the normalised block; the invariant leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BFrameRun.lean ====
/-
  The whole program's run: its three kernel regions and the two stretches of host reshapes between them, from the launch
  to the return, at any float instance.

  The contents of every unscoped buffer at each boundary between two items are a fold from the launch memory: after a
  kernel region its arrays hold what the pipeline's write-backs leave and every other buffer what it held at entry; after a
  host stretch the buffers hold the stretch's operations applied. Each argument array read back through the fold is its
  launch contents (a region only reads it through an input window, or bypasses it; no reshape writes it). Each kernel region
  is a segment over the thread state "every unscoped buffer at the boundary's contents, the generator register at some
  state, nothing owed", and the program's run ends with the result buffer at the last region's folded write-backs and the
  six arguments as launched.
-/
import proofs.«126686_j77318001263092_2_alg».proof.Proof.BFrameR0
import proofs.«126686_j77318001263092_2_alg».proof.Proof.BFrameR1
import proofs.«126686_j77318001263092_2_alg».proof.Proof.BFrameR2
import proofs.«126686_j77318001263092_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev U0 : Dev nD → Valuation τ sig (Elt F) := fun c b => (s₀ m ρ).mem ((c : Dev nD), b)
abbrev VA : (c : Dev nD) → (b : Ref sig .tc) → Buf (Elt F) ((c : Thread nD τ).loc b) := fun c b => U0 m ρ c b
/-- At region 0's exit: its arrays at what the pipeline leaves (the inputs as entered, each output's write-backs folded),
    every other buffer as entered. -/
def U1 (c : Dev nD) : Valuation τ sig (Elt F) :=
  Pipeline.withArrays spec0 c (U0 m ρ c) fun w => (dat0 (VA m ρ) c).arrAt w cfg0.N
theorem U1_arr (c : Dev nD) (w : Fin cfg0.W) :
    U1 m ρ c (Proc.devRef .tc (Pipeline.arrRef spec0 w)) = (dat0 (VA m ρ) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m ρ c (Proc.devRef .tc b) = U0 m ρ c (Proc.devRef .tc b) := by
  unfold U1; exact Pipeline.withArrays_of_ne spec0 c _ _ b hb
/-- The same read at the TensorCore's references. -/
abbrev VA1 : (c : Dev nD) → (b : Ref sig .tc) → Buf (Elt F) ((c : Thread nD τ).loc b) := fun c b => U1 m ρ c b
theorem hF0 (c : Dev nD) (w : Fin cfg0.W) : (dat0 (VA m ρ) c).arrAt w cfg0.N = VA1 m ρ c (Pipeline.arrRef spec0 w) :=
  (U1_arr m ρ c w).symm
theorem hrest0 (c : Dev nD) : ∀ b, b ∉ Finset.univ.image (Pipeline.arrRef spec0) → VA1 m ρ c b = VA m ρ c b :=
  fun b hb => U1_of_ne m ρ c b fun w e => hb (Finset.mem_image.mpr ⟨w, Finset.mem_univ _, e⟩)

/-- After the first stretch of reshapes (the second region's entry). -/
abbrev U2 : Dev nD → Valuation τ sig (Elt F) := fun c => StableHlo.after hostOps1 (U1 m ρ c)
abbrev VB : (c : Dev nD) → (b : Ref sig .tc) → Buf (Elt F) ((c : Thread nD τ).loc b) := fun c b => U2 m ρ c b
/-- At region 1's exit: its arrays at what the pipeline leaves (the inputs as entered, each output's write-backs folded),
    every other buffer as entered. -/
def U3 (c : Dev nD) : Valuation τ sig (Elt F) :=
  Pipeline.withArrays spec1 c (U2 m ρ c) fun w => (dat1 (VB m ρ) c).arrAt w cfg1.N
theorem U3_arr (c : Dev nD) (w : Fin cfg1.W) :
    U3 m ρ c (Proc.devRef .tc (Pipeline.arrRef spec1 w)) = (dat1 (VB m ρ) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m ρ c (Proc.devRef .tc b) = U2 m ρ c (Proc.devRef .tc b) := by
  unfold U3; exact Pipeline.withArrays_of_ne spec1 c _ _ b hb
/-- The same read at the TensorCore's references. -/
abbrev VB1 : (c : Dev nD) → (b : Ref sig .tc) → Buf (Elt F) ((c : Thread nD τ).loc b) := fun c b => U3 m ρ c b
theorem hF1 (c : Dev nD) (w : Fin cfg1.W) : (dat1 (VB m ρ) c).arrAt w cfg1.N = VB1 m ρ c (Pipeline.arrRef spec1 w) :=
  (U3_arr m ρ c w).symm
theorem hrest1 (c : Dev nD) : ∀ b, b ∉ Finset.univ.image (Pipeline.arrRef spec1) → VB1 m ρ c b = VB m ρ c b :=
  fun b hb => U3_of_ne m ρ c b fun w e => hb (Finset.mem_image.mpr ⟨w, Finset.mem_univ _, e⟩)

/-- After the second stretch (the third region's entry). -/
abbrev U4 : Dev nD → Valuation τ sig (Elt F) := fun c => StableHlo.after hostOps2 (U3 m ρ c)
abbrev VC : (c : Dev nD) → (b : Ref sig .tc) → Buf (Elt F) ((c : Thread nD τ).loc b) := fun c b => U4 m ρ c b
/-- At region 2's exit: its arrays at what the pipeline leaves (the inputs as entered, each output's write-backs folded),
    every other buffer as entered. -/
def U5 (c : Dev nD) : Valuation τ sig (Elt F) :=
  Pipeline.withArrays spec2 c (U4 m ρ c) fun w => (dat2 (VC m ρ) c).arrAt w cfg2.N
theorem U5_arr (c : Dev nD) (w : Fin cfg2.W) :
    U5 m ρ c (Proc.devRef .tc (Pipeline.arrRef spec2 w)) = (dat2 (VC m ρ) c).arrAt w cfg2.N := by
  unfold U5; exact Pipeline.withArrays_arr spec2 launch2.win.arr_inj c _ _ w
theorem U5_of_ne (c : Dev nD) (b : Ref sig .tc) (hb : ∀ w, Pipeline.arrRef spec2 w ≠ b) :
    U5 m ρ c (Proc.devRef .tc b) = U4 m ρ c (Proc.devRef .tc b) := by
  unfold U5; exact Pipeline.withArrays_of_ne spec2 c _ _ b hb
/-- The same read at the TensorCore's references. -/
abbrev VC1 : (c : Dev nD) → (b : Ref sig .tc) → Buf (Elt F) ((c : Thread nD τ).loc b) := fun c b => U5 m ρ c b
theorem hF2 (c : Dev nD) (w : Fin cfg2.W) : (dat2 (VC m ρ) c).arrAt w cfg2.N = VC1 m ρ c (Pipeline.arrRef spec2 w) :=
  (U5_arr m ρ c w).symm
theorem hrest2 (c : Dev nD) : ∀ b, b ∉ Finset.univ.image (Pipeline.arrRef spec2) → VC1 m ρ c b = VC m ρ c b :=
  fun b hb => U5_of_ne m ρ c b fun w e => hb (Finset.mem_image.mpr ⟨w, Finset.mem_univ _, e⟩)

/-! ## The arguments end as launched -/

theorem U5_main_arg0 (c : Dev nD) : U5 m ρ c (Proc.devRef .tc main_arg0) = m ((c : Thread nD τ).loc main_arg0) :=
  calc U5 m ρ c (Proc.devRef .tc main_arg0)
    _ = U4 m ρ c (Proc.devRef .tc main_arg0) := (U5_arr m ρ c 1).trans (((dat2 (VC m ρ) c).arrAt_in 1 rfl _).trans (A_eq2 (VC m ρ) c 1))
    _ = U3 m ρ c (Proc.devRef .tc main_arg0) := StableHlo.after_of_writes_sub hostOps2 _ hostOps2_writes (by decide : main_arg0 ∉ hostOps2_W)
    _ = U2 m ρ c (Proc.devRef .tc main_arg0) := U3_of_ne m ρ c main_arg0 (by decide)
    _ = U1 m ρ c (Proc.devRef .tc main_arg0) := StableHlo.after_of_writes_sub hostOps1 _ hostOps1_writes (by decide : main_arg0 ∉ hostOps1_W)
    _ = U0 m ρ c (Proc.devRef .tc main_arg0) := (U1_arr m ρ c 0).trans (((dat0 (VA m ρ) c).arrAt_in 0 rfl _).trans (A_eq0 (VA m ρ) c 0))
    _ = m ((c : Thread nD τ).loc main_arg0) := rfl

theorem U5_main_arg1 (c : Dev nD) : U5 m ρ c (Proc.devRef .tc main_arg1) = m ((c : Thread nD τ).loc main_arg1) :=
  calc U5 m ρ c (Proc.devRef .tc main_arg1)
    _ = U4 m ρ c (Proc.devRef .tc main_arg1) := U5_of_ne m ρ c main_arg1 (by decide)
    _ = U3 m ρ c (Proc.devRef .tc main_arg1) := StableHlo.after_of_writes_sub hostOps2 _ hostOps2_writes (by decide : main_arg1 ∉ hostOps2_W)
    _ = U2 m ρ c (Proc.devRef .tc main_arg1) := U3_of_ne m ρ c main_arg1 (by decide)
    _ = U1 m ρ c (Proc.devRef .tc main_arg1) := StableHlo.after_of_writes_sub hostOps1 _ hostOps1_writes (by decide : main_arg1 ∉ hostOps1_W)
    _ = U0 m ρ c (Proc.devRef .tc main_arg1) := (U1_arr m ρ c 1).trans (((dat0 (VA m ρ) c).arrAt_in 1 rfl _).trans (A_eq0 (VA m ρ) c 1))
    _ = m ((c : Thread nD τ).loc main_arg1) := rfl

theorem U5_main_arg2 (c : Dev nD) : U5 m ρ c (Proc.devRef .tc main_arg2) = m ((c : Thread nD τ).loc main_arg2) :=
  calc U5 m ρ c (Proc.devRef .tc main_arg2)
    _ = U4 m ρ c (Proc.devRef .tc main_arg2) := U5_of_ne m ρ c main_arg2 (by decide)
    _ = U3 m ρ c (Proc.devRef .tc main_arg2) := StableHlo.after_of_writes_sub hostOps2 _ hostOps2_writes (by decide : main_arg2 ∉ hostOps2_W)
    _ = U2 m ρ c (Proc.devRef .tc main_arg2) := U3_of_ne m ρ c main_arg2 (by decide)
    _ = U1 m ρ c (Proc.devRef .tc main_arg2) := StableHlo.after_of_writes_sub hostOps1 _ hostOps1_writes (by decide : main_arg2 ∉ hostOps1_W)
    _ = U0 m ρ c (Proc.devRef .tc main_arg2) := (U1_arr m ρ c 2).trans (((dat0 (VA m ρ) c).arrAt_in 2 rfl _).trans (A_eq0 (VA m ρ) c 2))
    _ = m ((c : Thread nD τ).loc main_arg2) := rfl

theorem U5_main_arg3 (c : Dev nD) : U5 m ρ c (Proc.devRef .tc main_arg3) = m ((c : Thread nD τ).loc main_arg3) :=
  calc U5 m ρ c (Proc.devRef .tc main_arg3)
    _ = U4 m ρ c (Proc.devRef .tc main_arg3) := U5_of_ne m ρ c main_arg3 (by decide)
    _ = U3 m ρ c (Proc.devRef .tc main_arg3) := StableHlo.after_of_writes_sub hostOps2 _ hostOps2_writes (by decide : main_arg3 ∉ hostOps2_W)
    _ = U2 m ρ c (Proc.devRef .tc main_arg3) := U3_of_ne m ρ c main_arg3 (by decide)
    _ = U1 m ρ c (Proc.devRef .tc main_arg3) := StableHlo.after_of_writes_sub hostOps1 _ hostOps1_writes (by decide : main_arg3 ∉ hostOps1_W)
    _ = U0 m ρ c (Proc.devRef .tc main_arg3) := (U1_arr m ρ c 3).trans (((dat0 (VA m ρ) c).arrAt_in 3 rfl _).trans (A_eq0 (VA m ρ) c 3))
    _ = m ((c : Thread nD τ).loc main_arg3) := rfl

theorem U5_main_arg4 (c : Dev nD) : U5 m ρ c (Proc.devRef .tc main_arg4) = m ((c : Thread nD τ).loc main_arg4) :=
  calc U5 m ρ c (Proc.devRef .tc main_arg4)
    _ = U4 m ρ c (Proc.devRef .tc main_arg4) := (U5_arr m ρ c 2).trans (((dat2 (VC m ρ) c).arrAt_in 2 rfl _).trans (A_eq2 (VC m ρ) c 2))
    _ = U3 m ρ c (Proc.devRef .tc main_arg4) := StableHlo.after_of_writes_sub hostOps2 _ hostOps2_writes (by decide : main_arg4 ∉ hostOps2_W)
    _ = U2 m ρ c (Proc.devRef .tc main_arg4) := U3_of_ne m ρ c main_arg4 (by decide)
    _ = U1 m ρ c (Proc.devRef .tc main_arg4) := StableHlo.after_of_writes_sub hostOps1 _ hostOps1_writes (by decide : main_arg4 ∉ hostOps1_W)
    _ = U0 m ρ c (Proc.devRef .tc main_arg4) := U1_of_ne m ρ c main_arg4 (by decide)
    _ = m ((c : Thread nD τ).loc main_arg4) := rfl

theorem U5_main_arg5 (c : Dev nD) : U5 m ρ c (Proc.devRef .tc main_arg5) = m ((c : Thread nD τ).loc main_arg5) :=
  calc U5 m ρ c (Proc.devRef .tc main_arg5)
    _ = U4 m ρ c (Proc.devRef .tc main_arg5) := (U5_arr m ρ c 3).trans (((dat2 (VC m ρ) c).arrAt_in 3 rfl _).trans (A_eq2 (VC m ρ) c 3))
    _ = U3 m ρ c (Proc.devRef .tc main_arg5) := StableHlo.after_of_writes_sub hostOps2 _ hostOps2_writes (by decide : main_arg5 ∉ hostOps2_W)
    _ = U2 m ρ c (Proc.devRef .tc main_arg5) := U3_of_ne m ρ c main_arg5 (by decide)
    _ = U1 m ρ c (Proc.devRef .tc main_arg5) := StableHlo.after_of_writes_sub hostOps1 _ hostOps1_writes (by decide : main_arg5 ∉ hostOps1_W)
    _ = U0 m ρ c (Proc.devRef .tc main_arg5) := U1_of_ne m ρ c main_arg5 (by decide)
    _ = m ((c : Thread nD τ).loc main_arg5) := rfl

/-- The result buffer ends at the last region's output array: the write-backs of the normalised blocks, folded. -/
theorem U5_main_v7 (c : Dev nD) : U5 m ρ c (Proc.devRef .tc main_v7) = (dat2 (VC m ρ) c).arrAt 4 cfg2.N :=
  U5_arr m ρ c 4

/-! ## The proof data family and the thread state -/

abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (VA m ρ) c
  | ⟨1, _⟩ => fun c => dat1 (VB m ρ) c
  | ⟨2, _⟩ => fun c => dat2 (VC m ρ) c
abbrev VV0 : Variants := Variants.none
abbrev LL : GSem nD τ sig → Finset Unit := fun _ => ∅
abbrev lvl : GSem nD τ sig → Unit → ℕ := fun _ _ => 0
/-- What rides beside the buffers through every segment: the generator register at some state and the core's dues, none. -/
abbrev RR (c : Dev nD) : sProp 𝕄 := iprop((∃ r, prngReg c r) ∗ ∃ W, owes (c : Thread nD τ) (0 : CellTallies nD τ sig Unit) W)
/-- A host stretch as a segment over the unscoped references from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VV0 LL lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev TN (c : Dev nD) : sProp 𝕄 := iprop(StableHlo.held (c : Thread nD τ) (Pipeline.ucRefs τ sig) (U5 m ρ c) ∗ ∃ r, prngReg c r)

/-! ## The regions as segments -/

set_option backward.isDefEq.respectTransparency.types false in
/-- Kernel region 0 over the thread state: entered from every unscoped buffer at `U0`, left at `U1`. Its arrays
    are split out of the unscoped buffers and put back at their exit contents; the generator register goes into the
    region's invariant and comes out; nothing is owed; the kernel has no semaphore of its own. -/
def regH0 : Pipeline.RegionSeg (pcfgs (F := F)) admH (pdatsH m ρ) () defs₀ VV0 LL lvl 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ LL lvl 0 fun _ _ => rfl
  pre c := iprop(StableHlo.held (c : Thread nD τ) (Pipeline.ucRefs τ sig) (U0 m ρ c) ∗ RR c)
  post c := iprop(StableHlo.held (c : Thread nD τ) (Pipeline.ucRefs τ sig) (U1 m ρ c) ∗ RR c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (VA m ρ c) (VA1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at `U2`, left at `U3`. Its arrays
    are split out of the unscoped buffers and put back at their exit contents; the generator register goes into the
    region's invariant and comes out; nothing is owed; the kernel has no semaphore of its own. -/
def regH1 : Pipeline.RegionSeg (pcfgs (F := F)) admH (pdatsH m ρ) () defs₀ VV0 LL lvl 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ LL lvl 1 fun _ _ => rfl
  pre c := iprop(StableHlo.held (c : Thread nD τ) (Pipeline.ucRefs τ sig) (U2 m ρ c) ∗ RR c)
  post c := iprop(StableHlo.held (c : Thread nD τ) (Pipeline.ucRefs τ sig) (U3 m ρ c) ∗ RR c)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsH m ρ 1 c).Φ (Fin.last _) ⊢ Pipeline.ΦA spec1 c from hout1 (VB m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (VB m ρ c) (VB1 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered from every unscoped buffer at `U4`, left at `U5`. Its arrays
    are split out of the unscoped buffers and put back at their exit contents; the generator register goes into the
    region's invariant and comes out; nothing is owed; the kernel has no semaphore of its own. -/
def regH2 : Pipeline.RegionSeg (pcfgs (F := F)) admH (pdatsH m ρ) () defs₀ VV0 LL lvl 2 where
  win := launch2.win.to₀
  block_pos := launch2.block_pos
  stage_whole := launch2.stage_whole
  K := PEmpty
  osem k := k.elim
  ho := Pipeline.OwnSemFacts.none _
  hbody c := (body_obligation2 (VC m ρ) c).loose
  hwaits := Pipeline.hwaits_of_owed_zero _ _ _ _ LL lvl 2 fun _ _ => rfl
  pre c := iprop(StableHlo.held (c : Thread nD τ) (Pipeline.ucRefs τ sig) (U4 m ρ c) ∗ RR c)
  post c := iprop(TN m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VC m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (VC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (VC m ρ c) (VC1 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsH : List (Pipeline.Seg (pcfgs (F := F)) admH (pdatsH m ρ) () defs₀ VV0 LL lvl) :=
  [ .region (regH0 m ρ),
    .host (hsegH hostOps1 hostOps1_sub hostOps1_fresh (U1 m ρ)),
    .region (regH1 m ρ),
    .host (hsegH hostOps2 hostOps2_sub hostOps2_fresh (U3 m ρ)),
    .region (regH2 m ρ) ]
theorem main_runH (c : Dev nD) : main (F := F) c = Pipeline.Seg.run (segsH m ρ) := (main_chain c).trans (by chain_rfl)

set_option backward.isDefEq.respectTransparency.types false in
/-- THE RUN. From any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U5 m ρ c b) :=
  Pipeline.θ_run_regions_kit (pcfgs (F := F)) admH (pdatsH m ρ) () cellOf_inj emb₁ defs₀ VV0 LL lvl m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ RR c)) (Tₙ := TN m ρ)
    (hch := ⟨fun _ => .rfl, fun _ => .rfl, fun _ => .rfl, fun _ => .rfl, fun _ => .rfl, fun _ => .rfl⟩)
    (hinit := by
      refine Pipeline.initEach LL lvl fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U5 m ρ c b)
    (hfin := fun c s' => by
      iintro ⟨⟨Hh, -⟩, HSI⟩
      unfold StableHlo.held
      imodintro
      iapply (pointsTo_read_all (Pipeline.ucRefs τ sig) (fun b => (((c : Thread nD τ)).1, b)) (U5 m ρ c) s')
      isplitl [Hh] <;> iassumption)
    (hQ := fun s h c => h c)

/-- The run read at the result buffer and the six arguments: the result at the last region's folded write-backs, every
    argument as launched. -/
theorem run_main : θ_run defs (onTc (τ := τ) (main (F := F))) ⟨m, fun _ => 0, ρ⟩ (fun r => ∀ c : Dev nD,
      r.2.mem ((c.tc : Thread nD τ).loc main_v7) = (dat2 (VC m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_ucH main_v7 (by decide))).trans (U5_main_v7 m ρ c),
     (h c _ (mem_ucH main_arg0 (by decide))).trans (U5_main_arg0 m ρ c),
     (h c _ (mem_ucH main_arg1 (by decide))).trans (U5_main_arg1 m ρ c),
     (h c _ (mem_ucH main_arg2 (by decide))).trans (U5_main_arg2 m ρ c),
     (h c _ (mem_ucH main_arg3 (by decide))).trans (U5_main_arg3 m ρ c),
     (h c _ (mem_ucH main_arg4 (by decide))).trans (U5_main_arg4 m ρ c),
     (h c _ (mem_ucH main_arg5 (by decide))).trans (U5_main_arg5 m ρ c)⟩) (run_all m ρ)

/-- The frame: the arguments end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_main m ρ)

end Cert.Kernel.Hand

end
-- ==== Proof.IFrameR0.lean ====
/-
  The projection kernel (the first of the three kernel regions), at any float instance and at any contents `V` of the
  TensorCore's buffers when the region is entered.

  At a grid point the region stages one block of 1024 rows of the input and the three whole weight matrices, and the body
  stores three blocks of 1024 rows: the scaled query projection, the key projection and the value projection of those rows.
  Stated here: what each staged input buffer holds at a point (its block of the array as the region found it), what the
  body leaves in each output buffer as a function of the input blocks (one covering store each), that the body runs on
  such buffers without fault, and the per-point obligation the pipeline asks of the body.
-/
import proofs.«126686_j77318001263092_2_alg».proof.Proof.Gen.KernelIdeal.Launch
import proofs.«126686_j77318001263092_2_alg».proof.Proof.Gen.KernelIdeal.Skeleton
import proofs.«126686_j77318001263092_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not (a window that is
    not fetched at a point has not moved since it was). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S1024x640 := Rect.unit (s := S1024x640) ![0, 0] S1024x640.size inb_S1024x640_S1024x640_0_0
abbrev r0_w : Rect S640x640 := Rect.unit (s := S640x640) ![0, 0] S640x640.size inb_S640x640_S640x640_0_0

/-! ## What the body leaves in each output window's buffer -/

/-- The query block: the rows' product with the transposed query weight, scaled. -/
def out0_4 (x0 : Vec F S1024x640 .f32) (x1 : Vec F S640x640 .f32) : Vec F S1024x640 .bf16 :=
  View.canon [⟨r0_x, k0_pay2 (View.ld x0 r0_x) (View.ld x1 r0_w)⟩]
/-- The key block: the rows' product with the transposed key weight. -/
def out0_5 (x0 : Vec F S1024x640 .f32) (x2 : Vec F S640x640 .f32) : Vec F S1024x640 .bf16 :=
  View.canon [⟨r0_x, k0_pay3 (View.ld x0 r0_x) (View.ld x2 r0_w)⟩]
/-- The value block: the rows' product with the transposed value weight. -/
def out0_6 (x0 : Vec F S1024x640 .f32) (x3 : Vec F S640x640 .f32) : Vec F S1024x640 .bf16 :=
  View.canon [⟨r0_x, k0_pay4 (View.ld x0 r0_x) (View.ld x3 r0_w)⟩]

/-- One store of the whole block covers the buffer. -/
theorem cover0 (p0 : Vec F S1024x640 .bf16) (y : S1024x640.Idx) :
    ∃ pc ∈ ([⟨r0_x, p0⟩] : List (View.Piece (Elt F) S1024x640 .bf16)), y ∈ pc.1.set :=
  View.cover_of_tiled [⟨r0_x, p0⟩] S1024x640.size (by rfl) y

/-! ## The body's triple -/

set_option maxHeartbeats 4000000 in
/-- On whole staging memrefs, the inputs' at contents `x·` and the outputs' at anything, the body runs to the continuation
    holding the inputs' as they were and each output's at its block. -/
theorem sound_kernel0 (c : Dev nD) (E : Set ℕ) (i : grid0.Coords)
    (arg1 : Memref sig .tc .vmem S1024x640 .f32) (harg1 : arg1.IsWhole) (arg2 : Memref sig .tc .vmem S640x640 .f32) (harg2 : arg2.IsWhole)
    (arg3 : Memref sig .tc .vmem S640x640 .f32) (harg3 : arg3.IsWhole) (arg4 : Memref sig .tc .vmem S640x640 .f32) (harg4 : arg4.IsWhole)
    (arg5 : Memref sig .tc .vmem S1024x640 .bf16) (harg5 : arg5.IsWhole) (arg6 : Memref sig .tc .vmem S1024x640 .bf16) (harg6 : arg6.IsWhole)
    (arg7 : Memref sig .tc .vmem S1024x640 .bf16) (harg7 : arg7.IsWhole)
    (x0 : Vec F S1024x640 .f32) (x1 x2 x3 : Vec F S640x640 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of the projection pipeline on core `c`: the arrays as the region finds them; after the body at
    point `t` each input's buffer at its block and each output's at its block of products; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IFrameR1Runs.lean ====
/-
  The attention kernel (the second kernel region): what its per-case runs share.

  The grid is 10 heads by 8 key/value tiles, the tile index innermost. The body initialises its three scratch buffers
  (running row maximum, running row sum, running weighted sum of value rows) under a first condition — the tile index is
  0 —, updates them for four chunks of 1024 query rows, and under a second condition — the tile index is 7 — divides the
  weighted sums by the row sums and stores the head's output block. Stated here: the two conditions in closed form over
  the grid, where the output window is idle (wherever the second condition fails), the staging and scratch memrefs the
  body is called with, and views through which buffer contents are stated.
-/
import proofs.«126686_j77318001263092_2_alg».proof.Proof.Gen.KernelIdeal.Launch
import proofs.«126686_j77318001263092_2_alg».proof.Proof.Gen.KernelIdeal.Skeleton
import proofs.«126686_j77318001263092_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first condition: the key/value tile index is 0. -/
abbrev cond1_0 (i : grid1.Coords) : Prop := (Scalar.cmpi .ne (Scalar.extui (Scalar.cmpi .eq (BitVec.ofNat 32 (i 1).val) 0#32)) 0#32) = 1#1
/-- It holds at the first tile of every head — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second condition: the key/value tile index is 7, the last. -/
abbrev cond1_1 (i : grid1.Coords) : Prop := k1_cond2 i = 1#1
/-- It holds at the last tile of every head — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second condition fails the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where it holds the window is live. -/
theorem liveAt1_3 : ∀ t : Fin cfg1.N, cond1_1 (grid1.coords t) → cfg1.idle 3 (grid1.coords t) = false := by decide +kernel

/-! ## The memrefs the body is called with -/

abbrev VO1_3 : View sig .tc .vmem S1x4096x64 .f32 := (Memref.whole cc1_stg3_0 : Memref sig .tc .vmem S1x4096x64 .f32).view
abbrev ms1_0 (t : Fin cfg1.N) : Memref sig .tc .vmem S1x4096x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x64 .f32 := win1_3.stage (cfg1.slots t 3)
abbrev hs1_3 (t : Fin cfg1.N) : (ms1_3 t).IsWhole := hstage1_3 ((cfg1.slots t 3).cast nbuf1_3)
/-- The scratch operands: the running maximum, the running sum, the running weighted sum. -/
abbrev scM1_0 : Memref sig .tc .vmem S4096x1 .f32 := Memref.whole cc1_scratch0
abbrev scM1_1 : Memref sig .tc .vmem S4096x1 .f32 := Memref.whole cc1_scratch1
abbrev scM1_2 : Memref sig .tc .vmem S4096x64 .f32 := Memref.whole cc1_scratch2
abbrev VS1_0 : View sig .tc .vmem S4096x1 .f32 := scM1_0.view
abbrev VS1_1 : View sig .tc .vmem S4096x1 .f32 := scM1_1.view
abbrev VS1_2 : View sig .tc .vmem S4096x64 .f32 := scM1_2.view

end Cert.KernelIdeal.Hand

end
-- ==== Proof.IFrameR1RunA.lean ====
/-
  The attention kernel's body, run whole, at a point where the first condition holds and the second does not (the first key/value tile of a head).

  On whole memrefs — the three input blocks at their contents, the output buffer at contents handed back untouched, the three
  scratch buffers at anything (the body overwrites them first) — the body runs without fault to a state that holds
  the inputs as they were and each scratch buffer with this point's stores written into it. The lists of stored pieces
  are found by running the body; they are this definition's first components.
-/
import proofs.«126686_j77318001263092_2_alg».proof.Proof.IFrameR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_A (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) :
    Σ' (L3 : List (View.Piece (Elt F) S1x4096x64 .f32)) (LS0 : List (View.Piece (Elt F) S4096x1 .f32)) (LS1 : List (View.Piece (Elt F) S4096x1 .f32)),
      { LS2 : List (View.Piece (Elt F) S4096x64 .f32) //
      ∀ (xi3 : Vec F S1x4096x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3

    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    isplitl [HS1]
    · iexists _; iexact HS1
    iexists _; iexact HS2

end Cert.KernelIdeal.Hand

end
-- ==== Proof.IFrameR1RunB.lean ====
/-
  The attention kernel's body, run whole, at a point where neither condition holds (a middle key/value tile).

  On whole memrefs — the three input blocks at their contents, the output buffer at contents handed back untouched, the three
  scratch buffers at the contents the point before left — the body runs without fault to a state that holds
  the inputs as they were and each scratch buffer with this point's stores written into it. The lists of stored pieces
  are found by running the body; they are this definition's first components.
-/
import proofs.«126686_j77318001263092_2_alg».proof.Proof.IFrameR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_B (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16)
    (xs0 xs1 : Vec F S4096x1 .f32) (xs2 : Vec F S4096x64 .f32) :
    Σ' (L3 : List (View.Piece (Elt F) S1x4096x64 .f32)) (LS0 : List (View.Piece (Elt F) S4096x1 .f32)) (LS1 : List (View.Piece (Elt F) S4096x1 .f32)),
      { LS2 : List (View.Piece (Elt F) S4096x64 .f32) //
      ∀ (xi3 : Vec F S1x4096x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; iexact HS0
    isplitl [HS1]
    · iexists _; iexact HS1
    iexists _; iexact HS2

end Cert.KernelIdeal.Hand

end
-- ==== Proof.IFrameR1RunC.lean ====
/-
  The attention kernel's body, run whole, at a point where the second condition holds and the first does not (the last key/value tile of a head).

  On whole memrefs — the three input blocks at their contents, the output buffer at anything, the three
  scratch buffers at the contents the point before left — the body runs without fault to a state that holds
  the inputs as they were, the output buffer with the head's block written into it and each scratch buffer with this point's stores written into it. The lists of stored pieces
  are found by running the body; they are this definition's first components.
-/
import proofs.«126686_j77318001263092_2_alg».proof.Proof.IFrameR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun1_C (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16)
    (xs0 xs1 : Vec F S4096x1 .f32) (xs2 : Vec F S4096x64 .f32) :
    Σ' (L3 : List (View.Piece (Elt F) S1x4096x64 .f32)) (LS0 : List (View.Piece (Elt F) S4096x1 .f32)) (LS1 : List (View.Piece (Elt F) S4096x1 .f32)),
      { LS2 : List (View.Piece (Elt F) S4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _; iexact HS0
    isplitl [HS1]
    · iexists _; iexact HS1
    iexists _; iexact HS2

end Cert.KernelIdeal.Hand

end
-- ==== Proof.IFrameR1.lean ====
/-
  The attention kernel (the second kernel region), at any float instance and at any contents `V` of the TensorCore's
  buffers when the region is entered: what its buffers hold point by point, and the obligation the pipeline asks of the body.

  The grid is 10 heads by 8 key/value tiles. At a point the region stages the head's whole query block (fetched at the
  head's first tile only), one tile of keys and one tile of values; the output block of the head is written back at the
  head's last tile only, and the window is idle elsewhere. Between points the body carries three scratch buffers — the
  running row maxima, the running row sums and the running weighted sums — which it overwrites whole at a head's first
  tile. Stated here, per case of the two conditions: what the case leaves in the output buffer and in each scratch buffer
  (the stores' pieces read back; they cover the buffer); then, by recursion on the point, what the four buffers hold after
  each point; the region's invariant (before the first point every scoped buffer at anything; afterwards the three scratch
  buffers at what the point before left, the other scoped buffers at anything, the generator register at some state);
  the proof data; and the body obligation at every point.
-/
import proofs.«126686_j77318001263092_2_alg».proof.Proof.IFrameR1RunA
import proofs.«126686_j77318001263092_2_alg».proof.Proof.IFrameR1RunB
import proofs.«126686_j77318001263092_2_alg».proof.Proof.IFrameR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (the query window is
    fetched at a head's first tile and has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output buffer and in the scratch buffers -/

/-- What case A leaves in the output buffer: its pieces read back (none: a placeholder nothing consults, the window being idle there). -/
def out1_A_3 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) : Vec F S1x4096x64 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)
/-- Case A's stores into scratch 0 cover it. -/
theorem scover1_A_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) (y : S4096x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S4096x1.size (by sl_kernel_rfl) y
/-- What case A leaves in scratch 0: its pieces read back. -/
def sout1_A_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) : Vec F S4096x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)
/-- Case A's stores into scratch 1 cover it. -/
theorem scover1_A_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) (y : S4096x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S4096x1.size (by sl_kernel_rfl) y
/-- What case A leaves in scratch 1: its pieces read back. -/
def sout1_A_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) : Vec F S4096x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)
/-- Case A's stores into scratch 2 cover it. -/
theorem scover1_A_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) (y : S4096x64.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S4096x64.size (by sl_kernel_rfl) y
/-- What case A leaves in scratch 2: its pieces read back. -/
def sout1_A_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
    (x0 : Vec F S1x4096x64 .bf16) (x1 : Vec F S1x64x512 .bf16) (x2 : Vec F S1x512x64 .bf16) : Vec F S4096x64 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What case B leaves in the output buffer: its pieces read back (none: a placeholder nothing consults, the window being idle there). -/
def out1_B_3 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) : Vec F S1x4096x64 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)
/-- Case B's stores into scratch 0 cover it. -/
theorem scover1_B_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y
/-- What case B leaves in scratch 0: its pieces read back. -/
def sout1_B_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)
/-- Case B's stores into scratch 1 cover it. -/
theorem scover1_B_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1.size (by sl_kernel_rfl) y
/-- What case B leaves in scratch 1: its pieces read back. -/
def sout1_B_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)
/-- Case B's stores into scratch 2 cover it. -/
theorem scover1_B_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x64.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1024x64.size (by sl_kernel_rfl) y
/-- What case B leaves in scratch 2: its pieces read back. -/
def sout1_B_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x64 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- Case C's one store into the output buffer covers it. -/
theorem cover1_C_3 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) (y : S1x4096x64.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1x4096x64.size (by sl_kernel_rfl) y
/-- What case C leaves in the output buffer: its pieces read back. -/
def out1_C_3 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) : Vec F S1x4096x64 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)
/-- Case C's stores into scratch 0 cover it. -/
theorem scover1_C_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y
/-- What case C leaves in scratch 0: its pieces read back. -/
def sout1_C_0 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)
/-- Case C's stores into scratch 1 cover it. -/
theorem scover1_C_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y
/-- What case C leaves in scratch 1: its pieces read back. -/
def sout1_C_1 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)
/-- Case C's stores into scratch 2 cover it. -/
theorem scover1_C_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) (y : S4096x64.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x64.size (by sl_kernel_rfl) y
/-- What case C leaves in scratch 2: its pieces read back. -/
def sout1_C_2 (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
    (x0 : Vec F S1x4096x64 .bf16) (x1 : Vec F S1x64x512 .bf16) (x2 : Vec F S1x512x64 .bf16) (xs0 xs1 : Vec F S4096x1 .f32) (xs2 : Vec F S4096x64 .f32) : Vec F S4096x64 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the buffers hold after each point -/

/-- After the body at position `n`: the output buffer, then the three scratch buffers — the case the closed forms select
    at `n`, run at the point's memrefs and input blocks, the scratch buffers it reads at what the point before left. -/
def outsAt1 (c : Dev nD) : (n : ℕ) → n < cfg1.N → Vec F S1x4096x64 .f32 × Vec F S4096x1 .f32 × Vec F S4096x1 .f32 × Vec F S4096x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- At a head's first tile: the first case's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle tile: the middle case's contents, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a head's last tile: the last case's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers no window of this region stages, the three scratch buffers among them at anything, and the
    generator register at some state: the invariant before the first point, spelt out. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ (∃ d, owns (c : Thread nD τ) scM1_0 fullShare d)
      ∗ (∃ d, owns (c : Thread nD τ) scM1_1 fullShare d)
      ∗ (∃ d, owns (c : Thread nD τ) scM1_2 fullShare d)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)) ∗ (∃ r, prngReg c r)) := by
  unfold Pipeline.ΦA; rw [scopedRest1_eq]; simp only [scM1_0, scM1_1, scM1_2, owns_whole]; try rfl

/-- The invariant before position `n`: before the first point every scoped buffer at anything; afterwards the three
    scratch buffers at what the point before left in them, the other scoped buffers at anything, and the generator
    register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare ((outsAt1 V c n hn).2.1)
      ∗ owns (c : Thread nD τ) scM1_1 fullShare ((outsAt1 V c n hn).2.2.1)
      ∗ owns (c : Thread nD τ) scM1_2 fullShare ((outsAt1 V c n hn).2.2.2)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare ((outsAt1 V c n hn).2.1)
      ∗ owns (c : Thread nD τ) scM1_1 fullShare ((outsAt1 V c n hn).2.2.1)
      ∗ owns (c : Thread nD τ) scM1_2 fullShare ((outsAt1 V c n hn).2.2.2)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM1_0 fullShare ((outsAt1 V c (n - 1) (by omega)).2.1)
      ∗ owns (c : Thread nD τ) scM1_1 fullShare ((outsAt1 V c (n - 1) (by omega)).2.2.1)
      ∗ owns (c : Thread nD τ) scM1_2 fullShare ((outsAt1 V c (n - 1) (by omega)).2.2.2)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f)) ∗ (∃ r, prngReg c r)) := by
  cases n with
  | zero => exact absurd rfl hz
  | succ n => rfl

/-! ## The pipeline's proof data -/

/-- The proof data of the attention pipeline on core `c`: the arrays as the region finds them; after the body at point
    `t` each input's buffer at its block and the output's at what the accumulation gives there; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the inputs' memrefs hold their blocks; the closed forms say which case the point is in; the
    invariant hands the body the scratch buffers at what the point before left (at anything before the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS_castSucc V c t, PhiS_zero V c _ _ hz, PhiA1_eq]
        iintro ⟨⟨⟨R0, R1, R2, R3, R4, R5, R6, R7, R8, R9, R10, HS0, HS1, HS2, R14, R15, R16, R17, R18, R19, R20, R21⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 R14 R15 R16 R17 R18 R19 R20 R21 Hg]
        · isplitl [R0 R1 R2 R3 R4 R5 R6 R7 R8 R9 R10 HS0 HS1 HS2 R14 R15 R16 R17 R18 R19 R20 R21]
          · isplitl [R0]
            · iexact R0
            isplitl [R1]
            · iexact R1
            isplitl [R2]
            · iexact R2
            isplitl [R3]
            · iexact R3
            isplitl [R4]
            · iexact R4
            isplitl [R5]
            · iexact R5
            isplitl [R6]
            · iexact R6
            isplitl [R7]
            · iexact R7
            isplitl [R8]
            · iexact R8
            isplitl [R9]
            · iexact R9
            isplitl [R10]
            · iexact R10
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            isplitl [R14]
            · iexact R14
            isplitl [R15]
            · iexact R15
            isplitl [R16]
            · iexact R16
            isplitl [R17]
            · iexact R17
            isplitl [R18]
            · iexact R18
            isplitl [R19]
            · iexact R19
            isplitl [R20]
            · iexact R20
            iexact R21
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨R0, R1, R2, R3, R4, R5, R6, R7, R8, R9, R10, HS0, HS1, HS2, R14, R15, R16, R17, R18, R19, R20, R21⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 R14 R15 R16 R17 R18 R19 R20 R21 Hg]
        · isplitl [R0 R1 R2 R3 R4 R5 R6 R7 R8 R9 R10 HS0 HS1 HS2 R14 R15 R16 R17 R18 R19 R20 R21]
          · isplitl [R0]
            · iexact R0
            isplitl [R1]
            · iexact R1
            isplitl [R2]
            · iexact R2
            isplitl [R3]
            · iexact R3
            isplitl [R4]
            · iexact R4
            isplitl [R5]
            · iexact R5
            isplitl [R6]
            · iexact R6
            isplitl [R7]
            · iexact R7
            isplitl [R8]
            · iexact R8
            isplitl [R9]
            · iexact R9
            isplitl [R10]
            · iexact R10
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            isplitl [R14]
            · iexact R14
            isplitl [R15]
            · iexact R15
            isplitl [R16]
            · iexact R16
            isplitl [R17]
            · iexact R17
            isplitl [R18]
            · iexact R18
            isplitl [R19]
            · iexact R19
            isplitl [R20]
            · iexact R20
            iexact R21
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      have hz : t.val ≠ 0 := fun hz => h0 (by rw [hz])
      rw [PhiS_castSucc V c t, PhiS_pos V c _ _ hz]
      iintro ⟨⟨⟨R0, R1, R2, R3, R4, R5, R6, R7, R8, R9, R10, HS0, HS1, HS2, R14, R15, R16, R17, R18, R19, R20, R21⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [R0 R1 R2 R3 R4 R5 R6 R7 R8 R9 R10 HS0 HS1 HS2 R14 R15 R16 R17 R18 R19 R20 R21 Hg]
      · isplitl [R0 R1 R2 R3 R4 R5 R6 R7 R8 R9 R10 HS0 HS1 HS2 R14 R15 R16 R17 R18 R19 R20 R21]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _)
          isplitl [R14]
          · iexact R14
          isplitl [R15]
          · iexact R15
          isplitl [R16]
          · iexact R16
          isplitl [R17]
          · iexact R17
          isplitl [R18]
          · iexact R18
          isplitl [R19]
          · iexact R19
          isplitl [R20]
          · iexact R20
          iexact R21
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      have hz : t.val ≠ 0 := fun hz => h0 (by rw [hz])
      rw [PhiS_castSucc V c t, PhiS_pos V c _ _ hz]
      iintro ⟨⟨⟨R0, R1, R2, R3, R4, R5, R6, R7, R8, R9, R10, HS0, HS1, HS2, R14, R15, R16, R17, R18, R19, R20, R21⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R0 R1 R2 R3 R4 R5 R6 R7 R8 R9 R10 HS0 HS1 HS2 R14 R15 R16 R17 R18 R19 R20 R21 Hg]
      · isplitl [R0 R1 R2 R3 R4 R5 R6 R7 R8 R9 R10 HS0 HS1 HS2 R14 R15 R16 R17 R18 R19 R20 R21]
        · isplitl [R0]
          · iexact R0
          isplitl [R1]
          · iexact R1
          isplitl [R2]
          · iexact R2
          isplitl [R3]
          · iexact R3
          isplitl [R4]
          · iexact R4
          isplitl [R5]
          · iexact R5
          isplitl [R6]
          · iexact R6
          isplitl [R7]
          · iexact R7
          isplitl [R8]
          · iexact R8
          isplitl [R9]
          · iexact R9
          isplitl [R10]
          · iexact R10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _)
          isplitl [R14]
          · iexact R14
          isplitl [R15]
          · iexact R15
          isplitl [R16]
          · iexact R16
          isplitl [R17]
          · iexact R17
          isplitl [R18]
          · iexact R18
          isplitl [R19]
          · iexact R19
          isplitl [R20]
          · iexact R20
          iexact R21
        iexact Hg
      isplitl [Ho]; · iexact Ho
      isplitl [H0]; · iexact H0
      isplitl [H1]; · iexact H1
      isplitl [H2]; · iexact H2
      iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is what the launch hands the region. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the scratch buffers' named contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R0, R1, R2, R3, R4, R5, R6, R7, R8, R9, R10, HS0, HS1, HS2, R14, R15, R16, R17, R18, R19, R20, R21⟩, Hg⟩
  isplitl [R0 R1 R2 R3 R4 R5 R6 R7 R8 R9 R10 HS0 HS1 HS2 R14 R15 R16 R17 R18 R19 R20 R21]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HS0]; · iexists _; iexact HS0
    isplitl [HS1]; · iexists _; iexact HS1
    isplitl [HS2]; · iexists _; iexact HS2
    isplitl [R14]; · iexact R14
    isplitl [R15]; · iexact R15
    isplitl [R16]; · iexact R16
    isplitl [R17]; · iexact R17
    isplitl [R18]; · iexact R18
    isplitl [R19]; · iexact R19
    isplitl [R20]; · iexact R20
    iexact R21
  iexact Hg

theorem hout1 (c : Dev nD) : (dat1 V c).Φ (Fin.last cfg1.N) ⊢ Pipeline.ΦA spec1 c :=
  Phi_out1 V c _ (by rw [Fin.val_last]; have : cfg1.N = 80 := N_1; omega)

end Cert.KernelIdeal.Hand

end
-- ==== Proof.IFrameR2.lean ====
/-
  The normalisation kernel (the last of the three kernel regions), at any float instance and at any contents `V` of the
  TensorCore's buffers when the region is entered.

  At a grid point the region stages one block of 1024 rows of the attention output, the same rows of the input, and the
  whole scale and shift vectors; the body stores one block of 1024 rows: each row of the sum of the two blocks,
  normalised, scaled and shifted. Stated here: what each staged input buffer holds at a point, what the body leaves in the
  output buffer as a function of the input blocks (one covering store), that the body runs without fault, and the
  per-point obligation the pipeline asks of the body.
-/
import proofs.«126686_j77318001263092_2_alg».proof.Proof.Gen.KernelIdeal.Launch
import proofs.«126686_j77318001263092_2_alg».proof.Proof.Gen.KernelIdeal.Skeleton
import proofs.«126686_j77318001263092_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S1024x640 := Rect.unit (s := S1024x640) ![0, 0] S1024x640.size inb_S1024x640_S1024x640_0_0
abbrev r2_g : Rect S640 := Rect.unit (s := S640) ![0] S640.size inb_S640_S640_0

/-! ## What the body leaves in the output window's buffer -/

/-- The normalised block, from the two row blocks and the scale and shift vectors. -/
def out2_4 (x0 x1 : Vec F S1024x640 .f32) (x2 x3 : Vec F S640 .f32) : Vec F S1024x640 .f32 :=
  View.canon [⟨r2_x, k2_pay1 (View.ld x0 r2_x) (View.ld x1 r2_x) (View.ld x2 r2_g) (View.ld x3 r2_g)⟩]

/-- One store of the whole block covers the buffer. -/
theorem cover2 (p0 : Vec F S1024x640 .f32) (y : S1024x640.Idx) :
    ∃ pc ∈ ([⟨r2_x, p0⟩] : List (View.Piece (Elt F) S1024x640 .f32)), y ∈ pc.1.set :=
  View.cover_of_tiled [⟨r2_x, p0⟩] S1024x640.size (by rfl) y

/-! ## The body's triple -/

set_option maxHeartbeats 4000000 in
/-- On whole staging memrefs, the inputs' at contents `x·` and the output's at anything, the body runs to the continuation
    holding the inputs' as they were and the output's at its block. -/
theorem sound_kernel2 (c : Dev nD) (E : Set ℕ) (i : grid2.Coords)
    (arg1 : Memref sig .tc .vmem S1024x640 .f32) (harg1 : arg1.IsWhole) (arg2 : Memref sig .tc .vmem S1024x640 .f32) (harg2 : arg2.IsWhole)
    (arg3 : Memref sig .tc .vmem S640 .f32) (harg3 : arg3.IsWhole) (arg4 : Memref sig .tc .vmem S640 .f32) (harg4 : arg4.IsWhole)
    (arg5 : Memref sig .tc .vmem S1024x640 .f32) (harg5 : arg5.IsWhole)
    (x0 x1 : Vec F S1024x640 .f32) (x2 x3 : Vec F S640 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__ln_kernel i arg1 harg1 arg2 harg2 arg3 harg3 arg4 harg4 arg5 harg5) K := by
  simp only [cc2__ln_kernel_eq_skeleton]; unfold cc2__ln_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2 _)

/-! ## The pipeline's proof data -/

/-- The proof data of the normalisation pipeline on core `c`: the arrays as the region finds them; after the body at
    point `t` each input's buffer at its block and the output's at the normalised block; the invariant leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IFrameRun.lean ====
/-
  The whole program's run: its three kernel regions and the two stretches of host reshapes between them, from the launch
  to the return, at any float instance.

  The contents of every unscoped buffer at each boundary between two items are a fold from the launch memory: after a
  kernel region its arrays hold what the pipeline's write-backs leave and every other buffer what it held at entry; after a
  host stretch the buffers hold the stretch's operations applied. Each argument array read back through the fold is its
  launch contents (a region only reads it through an input window, or bypasses it; no reshape writes it). Each kernel region
  is a segment over the thread state "every unscoped buffer at the boundary's contents, the generator register at some
  state, nothing owed", and the program's run ends with the result buffer at the last region's folded write-backs and the
  six arguments as launched.
-/
import proofs.«126686_j77318001263092_2_alg».proof.Proof.IFrameR0
import proofs.«126686_j77318001263092_2_alg».proof.Proof.IFrameR1
import proofs.«126686_j77318001263092_2_alg».proof.Proof.IFrameR2
import proofs.«126686_j77318001263092_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev U0 : Dev nD → Valuation τ sig (Elt F) := fun c b => (s₀ m ρ).mem ((c : Dev nD), b)
abbrev VA : (c : Dev nD) → (b : Ref sig .tc) → Buf (Elt F) ((c : Thread nD τ).loc b) := fun c b => U0 m ρ c b
/-- At region 0's exit: its arrays at what the pipeline leaves (the inputs as entered, each output's write-backs folded),
    every other buffer as entered. -/
def U1 (c : Dev nD) : Valuation τ sig (Elt F) :=
  Pipeline.withArrays spec0 c (U0 m ρ c) fun w => (dat0 (VA m ρ) c).arrAt w cfg0.N
theorem U1_arr (c : Dev nD) (w : Fin cfg0.W) :
    U1 m ρ c (Proc.devRef .tc (Pipeline.arrRef spec0 w)) = (dat0 (VA m ρ) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m ρ c (Proc.devRef .tc b) = U0 m ρ c (Proc.devRef .tc b) := by
  unfold U1; exact Pipeline.withArrays_of_ne spec0 c _ _ b hb
/-- The same read at the TensorCore's references. -/
abbrev VA1 : (c : Dev nD) → (b : Ref sig .tc) → Buf (Elt F) ((c : Thread nD τ).loc b) := fun c b => U1 m ρ c b
theorem hF0 (c : Dev nD) (w : Fin cfg0.W) : (dat0 (VA m ρ) c).arrAt w cfg0.N = VA1 m ρ c (Pipeline.arrRef spec0 w) :=
  (U1_arr m ρ c w).symm
theorem hrest0 (c : Dev nD) : ∀ b, b ∉ Finset.univ.image (Pipeline.arrRef spec0) → VA1 m ρ c b = VA m ρ c b :=
  fun b hb => U1_of_ne m ρ c b fun w e => hb (Finset.mem_image.mpr ⟨w, Finset.mem_univ _, e⟩)

/-- After the first stretch of reshapes (the second region's entry). -/
abbrev U2 : Dev nD → Valuation τ sig (Elt F) := fun c => StableHlo.after hostOps1 (U1 m ρ c)
abbrev VB : (c : Dev nD) → (b : Ref sig .tc) → Buf (Elt F) ((c : Thread nD τ).loc b) := fun c b => U2 m ρ c b
/-- At region 1's exit: its arrays at what the pipeline leaves (the inputs as entered, each output's write-backs folded),
    every other buffer as entered. -/
def U3 (c : Dev nD) : Valuation τ sig (Elt F) :=
  Pipeline.withArrays spec1 c (U2 m ρ c) fun w => (dat1 (VB m ρ) c).arrAt w cfg1.N
theorem U3_arr (c : Dev nD) (w : Fin cfg1.W) :
    U3 m ρ c (Proc.devRef .tc (Pipeline.arrRef spec1 w)) = (dat1 (VB m ρ) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m ρ c (Proc.devRef .tc b) = U2 m ρ c (Proc.devRef .tc b) := by
  unfold U3; exact Pipeline.withArrays_of_ne spec1 c _ _ b hb
/-- The same read at the TensorCore's references. -/
abbrev VB1 : (c : Dev nD) → (b : Ref sig .tc) → Buf (Elt F) ((c : Thread nD τ).loc b) := fun c b => U3 m ρ c b
theorem hF1 (c : Dev nD) (w : Fin cfg1.W) : (dat1 (VB m ρ) c).arrAt w cfg1.N = VB1 m ρ c (Pipeline.arrRef spec1 w) :=
  (U3_arr m ρ c w).symm
theorem hrest1 (c : Dev nD) : ∀ b, b ∉ Finset.univ.image (Pipeline.arrRef spec1) → VB1 m ρ c b = VB m ρ c b :=
  fun b hb => U3_of_ne m ρ c b fun w e => hb (Finset.mem_image.mpr ⟨w, Finset.mem_univ _, e⟩)

/-- After the second stretch (the third region's entry). -/
abbrev U4 : Dev nD → Valuation τ sig (Elt F) := fun c => StableHlo.after hostOps2 (U3 m ρ c)
abbrev VC : (c : Dev nD) → (b : Ref sig .tc) → Buf (Elt F) ((c : Thread nD τ).loc b) := fun c b => U4 m ρ c b
/-- At region 2's exit: its arrays at what the pipeline leaves (the inputs as entered, each output's write-backs folded),
    every other buffer as entered. -/
def U5 (c : Dev nD) : Valuation τ sig (Elt F) :=
  Pipeline.withArrays spec2 c (U4 m ρ c) fun w => (dat2 (VC m ρ) c).arrAt w cfg2.N
theorem U5_arr (c : Dev nD) (w : Fin cfg2.W) :
    U5 m ρ c (Proc.devRef .tc (Pipeline.arrRef spec2 w)) = (dat2 (VC m ρ) c).arrAt w cfg2.N := by
  unfold U5; exact Pipeline.withArrays_arr spec2 launch2.win.arr_inj c _ _ w
theorem U5_of_ne (c : Dev nD) (b : Ref sig .tc) (hb : ∀ w, Pipeline.arrRef spec2 w ≠ b) :
    U5 m ρ c (Proc.devRef .tc b) = U4 m ρ c (Proc.devRef .tc b) := by
  unfold U5; exact Pipeline.withArrays_of_ne spec2 c _ _ b hb
/-- The same read at the TensorCore's references. -/
abbrev VC1 : (c : Dev nD) → (b : Ref sig .tc) → Buf (Elt F) ((c : Thread nD τ).loc b) := fun c b => U5 m ρ c b
theorem hF2 (c : Dev nD) (w : Fin cfg2.W) : (dat2 (VC m ρ) c).arrAt w cfg2.N = VC1 m ρ c (Pipeline.arrRef spec2 w) :=
  (U5_arr m ρ c w).symm
theorem hrest2 (c : Dev nD) : ∀ b, b ∉ Finset.univ.image (Pipeline.arrRef spec2) → VC1 m ρ c b = VC m ρ c b :=
  fun b hb => U5_of_ne m ρ c b fun w e => hb (Finset.mem_image.mpr ⟨w, Finset.mem_univ _, e⟩)

/-! ## The arguments end as launched -/

theorem U5_main_arg0 (c : Dev nD) : U5 m ρ c (Proc.devRef .tc main_arg0) = m ((c : Thread nD τ).loc main_arg0) :=
  calc U5 m ρ c (Proc.devRef .tc main_arg0)
    _ = U4 m ρ c (Proc.devRef .tc main_arg0) := (U5_arr m ρ c 1).trans (((dat2 (VC m ρ) c).arrAt_in 1 rfl _).trans (A_eq2 (VC m ρ) c 1))
    _ = U3 m ρ c (Proc.devRef .tc main_arg0) := StableHlo.after_of_writes_sub hostOps2 _ hostOps2_writes (by decide : main_arg0 ∉ hostOps2_W)
    _ = U2 m ρ c (Proc.devRef .tc main_arg0) := U3_of_ne m ρ c main_arg0 (by decide)
    _ = U1 m ρ c (Proc.devRef .tc main_arg0) := StableHlo.after_of_writes_sub hostOps1 _ hostOps1_writes (by decide : main_arg0 ∉ hostOps1_W)
    _ = U0 m ρ c (Proc.devRef .tc main_arg0) := (U1_arr m ρ c 0).trans (((dat0 (VA m ρ) c).arrAt_in 0 rfl _).trans (A_eq0 (VA m ρ) c 0))
    _ = m ((c : Thread nD τ).loc main_arg0) := rfl

theorem U5_main_arg1 (c : Dev nD) : U5 m ρ c (Proc.devRef .tc main_arg1) = m ((c : Thread nD τ).loc main_arg1) :=
  calc U5 m ρ c (Proc.devRef .tc main_arg1)
    _ = U4 m ρ c (Proc.devRef .tc main_arg1) := U5_of_ne m ρ c main_arg1 (by decide)
    _ = U3 m ρ c (Proc.devRef .tc main_arg1) := StableHlo.after_of_writes_sub hostOps2 _ hostOps2_writes (by decide : main_arg1 ∉ hostOps2_W)
    _ = U2 m ρ c (Proc.devRef .tc main_arg1) := U3_of_ne m ρ c main_arg1 (by decide)
    _ = U1 m ρ c (Proc.devRef .tc main_arg1) := StableHlo.after_of_writes_sub hostOps1 _ hostOps1_writes (by decide : main_arg1 ∉ hostOps1_W)
    _ = U0 m ρ c (Proc.devRef .tc main_arg1) := (U1_arr m ρ c 1).trans (((dat0 (VA m ρ) c).arrAt_in 1 rfl _).trans (A_eq0 (VA m ρ) c 1))
    _ = m ((c : Thread nD τ).loc main_arg1) := rfl

theorem U5_main_arg2 (c : Dev nD) : U5 m ρ c (Proc.devRef .tc main_arg2) = m ((c : Thread nD τ).loc main_arg2) :=
  calc U5 m ρ c (Proc.devRef .tc main_arg2)
    _ = U4 m ρ c (Proc.devRef .tc main_arg2) := U5_of_ne m ρ c main_arg2 (by decide)
    _ = U3 m ρ c (Proc.devRef .tc main_arg2) := StableHlo.after_of_writes_sub hostOps2 _ hostOps2_writes (by decide : main_arg2 ∉ hostOps2_W)
    _ = U2 m ρ c (Proc.devRef .tc main_arg2) := U3_of_ne m ρ c main_arg2 (by decide)
    _ = U1 m ρ c (Proc.devRef .tc main_arg2) := StableHlo.after_of_writes_sub hostOps1 _ hostOps1_writes (by decide : main_arg2 ∉ hostOps1_W)
    _ = U0 m ρ c (Proc.devRef .tc main_arg2) := (U1_arr m ρ c 2).trans (((dat0 (VA m ρ) c).arrAt_in 2 rfl _).trans (A_eq0 (VA m ρ) c 2))
    _ = m ((c : Thread nD τ).loc main_arg2) := rfl

theorem U5_main_arg3 (c : Dev nD) : U5 m ρ c (Proc.devRef .tc main_arg3) = m ((c : Thread nD τ).loc main_arg3) :=
  calc U5 m ρ c (Proc.devRef .tc main_arg3)
    _ = U4 m ρ c (Proc.devRef .tc main_arg3) := U5_of_ne m ρ c main_arg3 (by decide)
    _ = U3 m ρ c (Proc.devRef .tc main_arg3) := StableHlo.after_of_writes_sub hostOps2 _ hostOps2_writes (by decide : main_arg3 ∉ hostOps2_W)
    _ = U2 m ρ c (Proc.devRef .tc main_arg3) := U3_of_ne m ρ c main_arg3 (by decide)
    _ = U1 m ρ c (Proc.devRef .tc main_arg3) := StableHlo.after_of_writes_sub hostOps1 _ hostOps1_writes (by decide : main_arg3 ∉ hostOps1_W)
    _ = U0 m ρ c (Proc.devRef .tc main_arg3) := (U1_arr m ρ c 3).trans (((dat0 (VA m ρ) c).arrAt_in 3 rfl _).trans (A_eq0 (VA m ρ) c 3))
    _ = m ((c : Thread nD τ).loc main_arg3) := rfl

theorem U5_main_arg4 (c : Dev nD) : U5 m ρ c (Proc.devRef .tc main_arg4) = m ((c : Thread nD τ).loc main_arg4) :=
  calc U5 m ρ c (Proc.devRef .tc main_arg4)
    _ = U4 m ρ c (Proc.devRef .tc main_arg4) := (U5_arr m ρ c 2).trans (((dat2 (VC m ρ) c).arrAt_in 2 rfl _).trans (A_eq2 (VC m ρ) c 2))
    _ = U3 m ρ c (Proc.devRef .tc main_arg4) := StableHlo.after_of_writes_sub hostOps2 _ hostOps2_writes (by decide : main_arg4 ∉ hostOps2_W)
    _ = U2 m ρ c (Proc.devRef .tc main_arg4) := U3_of_ne m ρ c main_arg4 (by decide)
    _ = U1 m ρ c (Proc.devRef .tc main_arg4) := StableHlo.after_of_writes_sub hostOps1 _ hostOps1_writes (by decide : main_arg4 ∉ hostOps1_W)
    _ = U0 m ρ c (Proc.devRef .tc main_arg4) := U1_of_ne m ρ c main_arg4 (by decide)
    _ = m ((c : Thread nD τ).loc main_arg4) := rfl

theorem U5_main_arg5 (c : Dev nD) : U5 m ρ c (Proc.devRef .tc main_arg5) = m ((c : Thread nD τ).loc main_arg5) :=
  calc U5 m ρ c (Proc.devRef .tc main_arg5)
    _ = U4 m ρ c (Proc.devRef .tc main_arg5) := (U5_arr m ρ c 3).trans (((dat2 (VC m ρ) c).arrAt_in 3 rfl _).trans (A_eq2 (VC m ρ) c 3))
    _ = U3 m ρ c (Proc.devRef .tc main_arg5) := StableHlo.after_of_writes_sub hostOps2 _ hostOps2_writes (by decide : main_arg5 ∉ hostOps2_W)
    _ = U2 m ρ c (Proc.devRef .tc main_arg5) := U3_of_ne m ρ c main_arg5 (by decide)
    _ = U1 m ρ c (Proc.devRef .tc main_arg5) := StableHlo.after_of_writes_sub hostOps1 _ hostOps1_writes (by decide : main_arg5 ∉ hostOps1_W)
    _ = U0 m ρ c (Proc.devRef .tc main_arg5) := U1_of_ne m ρ c main_arg5 (by decide)
    _ = m ((c : Thread nD τ).loc main_arg5) := rfl

/-- The result buffer ends at the last region's output array: the write-backs of the normalised blocks, folded. -/
theorem U5_main_v7 (c : Dev nD) : U5 m ρ c (Proc.devRef .tc main_v7) = (dat2 (VC m ρ) c).arrAt 4 cfg2.N :=
  U5_arr m ρ c 4

/-! ## The proof data family and the thread state -/

abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (VA m ρ) c
  | ⟨1, _⟩ => fun c => dat1 (VB m ρ) c
  | ⟨2, _⟩ => fun c => dat2 (VC m ρ) c
abbrev VV0 : Variants := Variants.none
abbrev LL : GSem nD τ sig → Finset Unit := fun _ => ∅
abbrev lvl : GSem nD τ sig → Unit → ℕ := fun _ _ => 0
/-- What rides beside the buffers through every segment: the generator register at some state and the core's dues, none. -/
abbrev RR (c : Dev nD) : sProp 𝕄 := iprop((∃ r, prngReg c r) ∗ ∃ W, owes (c : Thread nD τ) (0 : CellTallies nD τ sig Unit) W)
/-- A host stretch as a segment over the unscoped references from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VV0 LL lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RR
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev TN (c : Dev nD) : sProp 𝕄 := iprop(StableHlo.held (c : Thread nD τ) (Pipeline.ucRefs τ sig) (U5 m ρ c) ∗ ∃ r, prngReg c r)

/-! ## The regions as segments -/

set_option backward.isDefEq.respectTransparency.types false in
/-- Kernel region 0 over the thread state: entered from every unscoped buffer at `U0`, left at `U1`. Its arrays
    are split out of the unscoped buffers and put back at their exit contents; the generator register goes into the
    region's invariant and comes out; nothing is owed; the kernel has no semaphore of its own. -/
def regH0 : Pipeline.RegionSeg (pcfgs (F := F)) admH (pdatsH m ρ) () defs₀ VV0 LL lvl 0 where
  win := launch0.win.to₀
  block_pos := launch0.block_pos
  stage_whole := launch0.stage_whole
  K := PEmpty
  osem k := k.elim
  ho := Pipeline.OwnSemFacts.none _
  hbody c := (body_obligation0 (VA m ρ) c).loose
  hwaits := Pipeline.hwaits_of_owed_zero _ _ _ _ LL lvl 0 fun _ _ => rfl
  pre c := iprop(StableHlo.held (c : Thread nD τ) (Pipeline.ucRefs τ sig) (U0 m ρ c) ∗ RR c)
  post c := iprop(StableHlo.held (c : Thread nD τ) (Pipeline.ucRefs τ sig) (U1 m ρ c) ∗ RR c)
  X c := iprop(∃ r, prngReg c r)
  Y c := iprop(∃ r, prngReg c r)
  Z c := Pipeline.unscopedRest (Ix := Unit) (Name := ℕ) (U := UR sig nD τ) (Lvl := ℕ) spec0 c (VA m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (VA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (VA m ρ c) (VA1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at `U2`, left at `U3`. Its arrays
    are split out of the unscoped buffers and put back at their exit contents; the generator register goes into the
    region's invariant and comes out; nothing is owed; the kernel has no semaphore of its own. -/
def regH1 : Pipeline.RegionSeg (pcfgs (F := F)) admH (pdatsH m ρ) () defs₀ VV0 LL lvl 1 where
  win := launch1.win.to₀
  block_pos := launch1.block_pos
  stage_whole := launch1.stage_whole
  K := PEmpty
  osem k := k.elim
  ho := Pipeline.OwnSemFacts.none _
  hbody c := (body_obligation1 (VB m ρ) c).loose
  hwaits := Pipeline.hwaits_of_owed_zero _ _ _ _ LL lvl 1 fun _ _ => rfl
  pre c := iprop(StableHlo.held (c : Thread nD τ) (Pipeline.ucRefs τ sig) (U2 m ρ c) ∗ RR c)
  post c := iprop(StableHlo.held (c : Thread nD τ) (Pipeline.ucRefs τ sig) (U3 m ρ c) ∗ RR c)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (VB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsH m ρ 1 c).Φ (Fin.last _) ⊢ Pipeline.ΦA spec1 c from hout1 (VB m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (VB m ρ c) (VB1 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered from every unscoped buffer at `U4`, left at `U5`. Its arrays
    are split out of the unscoped buffers and put back at their exit contents; the generator register goes into the
    region's invariant and comes out; nothing is owed; the kernel has no semaphore of its own. -/
def regH2 : Pipeline.RegionSeg (pcfgs (F := F)) admH (pdatsH m ρ) () defs₀ VV0 LL lvl 2 where
  win := launch2.win.to₀
  block_pos := launch2.block_pos
  stage_whole := launch2.stage_whole
  K := PEmpty
  osem k := k.elim
  ho := Pipeline.OwnSemFacts.none _
  hbody c := (body_obligation2 (VC m ρ) c).loose
  hwaits := Pipeline.hwaits_of_owed_zero _ _ _ _ LL lvl 2 fun _ _ => rfl
  pre c := iprop(StableHlo.held (c : Thread nD τ) (Pipeline.ucRefs τ sig) (U4 m ρ c) ∗ RR c)
  post c := iprop(TN m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VC m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (VC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (VC m ρ c) (VC1 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsH : List (Pipeline.Seg (pcfgs (F := F)) admH (pdatsH m ρ) () defs₀ VV0 LL lvl) :=
  [ .region (regH0 m ρ),
    .host (hsegH hostOps1 hostOps1_sub hostOps1_fresh (U1 m ρ)),
    .region (regH1 m ρ),
    .host (hsegH hostOps2 hostOps2_sub hostOps2_fresh (U3 m ρ)),
    .region (regH2 m ρ) ]
theorem main_runH (c : Dev nD) : main (F := F) c = Pipeline.Seg.run (segsH m ρ) := (main_chain c).trans (by chain_rfl)

set_option backward.isDefEq.respectTransparency.types false in
/-- THE RUN. From any memory with zero counters every weakly fair execution of the program terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U5 m ρ c b) :=
  Pipeline.θ_run_regions_kit (pcfgs (F := F)) admH (pdatsH m ρ) () cellOf_inj emb₁ defs₀ VV0 LL lvl m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ RR c)) (Tₙ := TN m ρ)
    (hch := ⟨fun _ => .rfl, fun _ => .rfl, fun _ => .rfl, fun _ => .rfl, fun _ => .rfl, fun _ => .rfl⟩)
    (hinit := by
      refine Pipeline.initEach LL lvl fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U5 m ρ c b)
    (hfin := fun c s' => by
      iintro ⟨⟨Hh, -⟩, HSI⟩
      unfold StableHlo.held
      imodintro
      iapply (pointsTo_read_all (Pipeline.ucRefs τ sig) (fun b => (((c : Thread nD τ)).1, b)) (U5 m ρ c) s')
      isplitl [Hh] <;> iassumption)
    (hQ := fun s h c => h c)

/-- The run read at the result buffer and the six arguments: the result at the last region's folded write-backs, every
    argument as launched. -/
theorem run_main : θ_run defs (onTc (τ := τ) (main (F := F))) ⟨m, fun _ => 0, ρ⟩ (fun r => ∀ c : Dev nD,
      r.2.mem ((c.tc : Thread nD τ).loc main_v7) = (dat2 (VC m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_ucH main_v7 (by decide))).trans (U5_main_v7 m ρ c),
     (h c _ (mem_ucH main_arg0 (by decide))).trans (U5_main_arg0 m ρ c),
     (h c _ (mem_ucH main_arg1 (by decide))).trans (U5_main_arg1 m ρ c),
     (h c _ (mem_ucH main_arg2 (by decide))).trans (U5_main_arg2 m ρ c),
     (h c _ (mem_ucH main_arg3 (by decide))).trans (U5_main_arg3 m ρ c),
     (h c _ (mem_ucH main_arg4 (by decide))).trans (U5_main_arg4 m ρ c),
     (h c _ (mem_ucH main_arg5 (by decide))).trans (U5_main_arg5 m ρ c)⟩) (run_all m ρ)

/-- The frame: the arguments end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_main m ρ)

end Cert.KernelIdeal.Hand

end
-- ==== Proof.Spec.lean ====
/-
  The function both programs compute, index by index, on the extended reals.

  Ten-head attention over 4096 rows of width 640, with a residual and a layer normalisation:
  * three projections  P_W (n, d) = Σ_k x (n, k) · W (d, k)   (each weight used transposed);
  * the projections re-read as [10, 4096, 64] (queries, values) and [10, 64, 4096] (keys) by their row-major position alone
    — entry (h, r, e) of a [10, 4096, 64] re-reading sits at flat position h · 262144 + r · 64 + e of the [4096, 640] array,
    entry (h, e, j) of the [10, 64, 4096] one at h · 262144 + e · 4096 + j;
  * scores  s (h, i, j) = (Σ_e q (h, i, e) · k (h, e, j)) / 64, a row-wise softmax written as the quotient of
    exp (s − row maximum) by its row sum, and the weighted sum of the value rows;
  * the result re-read as [4096, 640], the input added, and each row normalised: subtract the row mean, multiply by the
    reciprocal square root of the row variance plus ε, scale by gamma and shift by beta.
  Literals are kept as the bit patterns the programs print; nothing here evaluates them.
-/
import Idealize.ShloMosaic.Lib.ValueIdx
import Idealize.ShloMosaic.PureOps.Ideal

noncomputable section

namespace Cert.Attn

open Idealize.ShloMosaic Idealize.ShloMosaic.ValueIdx

/-- A two-axis array of extended reals. -/
abbrev A2 (a b : Nat) : Type := (⟨2, ![a, b]⟩ : Shape).Idx → EReal
/-- A one-axis array of extended reals. -/
abbrev A1 (a : Nat) : Type := (⟨1, ![a]⟩ : Shape).Idx → EReal

/-- The divisor 64 of the scores, the row length 640, and ε, as the printed words denote them. -/
def c64 : EReal := Ideal.ofBits .f32 0x42800000#32
def c640 : EReal := Ideal.ofBits .f32 0x44200000#32
def cEps : EReal := Ideal.ofBits .f32 0x3727C5AC#32

/-- A projection: row `n` of `x` against row `d` of the weight. -/
def proj (x : A2 4096 640) (W : A2 640 640) (n : Fin 4096) (d : Fin 640) : EReal :=
  ∑ k : Fin 640, x (ix2 n k) * W (ix2 d k)

/-- The row of the [4096, 640] array that holds flat position `f`. -/
def rowOf (f : Nat) (hf : f < 2621440) : Fin 4096 := ⟨f / 640, by omega⟩
/-- The column of the [4096, 640] array that holds flat position `f`. -/
def colOf (f : Nat) : Fin 640 := ⟨f % 640, Nat.mod_lt _ (by norm_num)⟩

/-- Flat position of entry (h, r, e) of a [10, 4096, 64] re-reading. -/
def flatQ (h : Fin 10) (r : Fin 4096) (e : Fin 64) : Nat := h.val * 262144 + r.val * 64 + e.val
theorem flatQ_lt (h : Fin 10) (r : Fin 4096) (e : Fin 64) : flatQ h r e < 2621440 := by
  unfold flatQ; omega
/-- Flat position of entry (h, e, j) of a [10, 64, 4096] re-reading. -/
def flatK (h : Fin 10) (e : Fin 64) (j : Fin 4096) : Nat := h.val * 262144 + e.val * 4096 + j.val
theorem flatK_lt (h : Fin 10) (e : Fin 64) (j : Fin 4096) : flatK h e j < 2621440 := by
  unfold flatK; omega

/-- A [4096, 640] array of values re-read at (h, r, e) as [10, 4096, 64]. -/
def asHeads (P : Fin 4096 → Fin 640 → EReal) (h : Fin 10) (r : Fin 4096) (e : Fin 64) : EReal :=
  P (rowOf (flatQ h r e) (flatQ_lt h r e)) (colOf (flatQ h r e))
/-- A [4096, 640] array of values re-read at (h, e, j) as [10, 64, 4096]. -/
def asKeys (P : Fin 4096 → Fin 640 → EReal) (h : Fin 10) (e : Fin 64) (j : Fin 4096) : EReal :=
  P (rowOf (flatK h e j) (flatK_lt h e j)) (colOf (flatK h e j))

/-- The unscaled score of query row `i` against key column `j` in head `h`. -/
def rawScore (x : A2 4096 640) (Wq Wk : A2 640 640) (h : Fin 10) (i j : Fin 4096) : EReal :=
  ∑ e : Fin 64, asHeads (proj x Wq) h i e * asKeys (proj x Wk) h e j

/-- The score: the raw score divided by 64. -/
def score (x : A2 4096 640) (Wq Wk : A2 640 640) (h : Fin 10) (i j : Fin 4096) : EReal :=
  Ideal.div (rawScore x Wq Wk h i j) c64

/-- The largest score of a row. -/
def rowMax (x : A2 4096 640) (Wq Wk : A2 640 640) (h : Fin 10) (i : Fin 4096) : EReal :=
  Finset.univ.sup fun j : Fin 4096 => score x Wq Wk h i j

/-- The unnormalised softmax weight. -/
def expw (x : A2 4096 640) (Wq Wk : A2 640 640) (h : Fin 10) (i j : Fin 4096) : EReal :=
  Ideal.exp (score x Wq Wk h i j - rowMax x Wq Wk h i)

/-- The attention output of head `h`, row `i`, feature `e`: the softmax-weighted sum of the value rows. -/
def attn (x : A2 4096 640) (Wq Wk Wv : A2 640 640) (h : Fin 10) (i : Fin 4096) (e : Fin 64) : EReal :=
  ∑ j : Fin 4096, Ideal.div (expw x Wq Wk h i j) (∑ j' : Fin 4096, expw x Wq Wk h i j') * asHeads (proj x Wv) h j e

/-- The [10, 4096, 64] attention output re-read at (n, d) as [4096, 640], plus the residual. -/
def resid (x : A2 4096 640) (Wq Wk Wv : A2 640 640) (n : Fin 4096) (d : Fin 640) : EReal :=
  attn x Wq Wk Wv ⟨(n.val * 640 + d.val) / 262144, by omega⟩ ⟨(n.val * 640 + d.val) % 262144 / 64, by omega⟩
      ⟨(n.val * 640 + d.val) % 64, Nat.mod_lt _ (by norm_num)⟩
    + x (ix2 n d)

/-- Row normalisation of a [4096, 640] array `v` with scale `gamma` and shift `beta`. -/
def layerNorm (v : Fin 4096 → Fin 640 → EReal) (gamma beta : A1 640) (n : Fin 4096) (d : Fin 640) : EReal :=
  (v n d - Ideal.div (∑ k : Fin 640, v n k) c640)
      * Ideal.rsqrt (Ideal.div (∑ k : Fin 640, (v n k - Ideal.div (∑ k' : Fin 640, v n k') c640)
          * (v n k - Ideal.div (∑ k' : Fin 640, v n k') c640)) c640 + cEps)
      * gamma (ix1 d)
    + beta (ix1 d)

/-- The whole function: the result array of both programs, as a function of the six argument arrays. -/
def G (x : A2 4096 640) (Wq Wk Wv : A2 640 640) (gamma beta : A1 640) : A2 4096 640 :=
  fun y => layerNorm (resid x Wq Wk Wv) gamma beta (y 0) (y 1)

end Cert.Attn

end
-- ==== Proof.RefProj.lean ====
/-
  The reference's three projections and their re-readings as heads, read index by index:
  each projection is the specification's `proj`, each [10, 4096, 64] re-reading its `asHeads`,
  and the keys' second re-reading as [10, 64, 4096] its `asKeys`.
-/
import proofs.«126686_j77318001263092_2_alg».proof.Proof.Gen.ReferenceIdeal.Read
import proofs.«126686_j77318001263092_2_alg».proof.Proof.Spec

noncomputable section

namespace Cert.RefIsG

open Idealize.ShloMosaic Idealize.ShloMosaic.ValueIdx Cert.ReferenceIdeal Cert.ReferenceIdeal.Gen Cert.ReferenceIdeal.Read Cert.Attn

/-- The contraction of projection 1 reads row `n` of the input at column `k` … -/
theorem lidx_v1 (n : Fin 4096) (d : Fin 640) (k : Fin 640) : lidx_main_v1 (ix2 n d) k = ix2 n k :=
  funext fun a => Fin.ext (by match a with | ⟨0, _⟩ => rfl | ⟨1, _⟩ => rfl)
/-- … against the transposed weight at (k, d), which is the weight at (d, k). -/
theorem ridx_v1 (n : Fin 4096) (d : Fin 640) (k : Fin 640) : idx_main_v0 (ridx_main_v1 (ix2 n d) k) = ix2 d k :=
  funext fun a => Fin.ext (by match a with | ⟨0, _⟩ => rfl | ⟨1, _⟩ => rfl)
/-- The projection at (n, d) is the sum over `k` of input (n, k) times weight (d, k). -/
theorem v1_at (x : FVec Ideal S4096x640 .f32) (W : FVec Ideal S640x640 .f32) (n : Fin 4096) (d : Fin 640) :
    val_main_v1 (F := Ideal) x W (ix2 n d) = proj x W n d := by
  rw [val_main_v1_apply]
  unfold proj
  refine Finset.sum_congr rfl fun k _ => ?_
  rw [val_main_v0_apply, ridx_v1 n d k, lidx_v1 n d k]

/-- The contraction of projection 3 reads row `n` of the input at column `k` … -/
theorem lidx_v3 (n : Fin 4096) (d : Fin 640) (k : Fin 640) : lidx_main_v3 (ix2 n d) k = ix2 n k :=
  funext fun a => Fin.ext (by match a with | ⟨0, _⟩ => rfl | ⟨1, _⟩ => rfl)
/-- … against the transposed weight at (k, d), which is the weight at (d, k). -/
theorem ridx_v3 (n : Fin 4096) (d : Fin 640) (k : Fin 640) : idx_main_v2 (ridx_main_v3 (ix2 n d) k) = ix2 d k :=
  funext fun a => Fin.ext (by match a with | ⟨0, _⟩ => rfl | ⟨1, _⟩ => rfl)
/-- The projection at (n, d) is the sum over `k` of input (n, k) times weight (d, k). -/
theorem v3_at (x : FVec Ideal S4096x640 .f32) (W : FVec Ideal S640x640 .f32) (n : Fin 4096) (d : Fin 640) :
    val_main_v3 (F := Ideal) x W (ix2 n d) = proj x W n d := by
  rw [val_main_v3_apply]
  unfold proj
  refine Finset.sum_congr rfl fun k _ => ?_
  rw [val_main_v2_apply, ridx_v3 n d k, lidx_v3 n d k]

/-- The contraction of projection 5 reads row `n` of the input at column `k` … -/
theorem lidx_v5 (n : Fin 4096) (d : Fin 640) (k : Fin 640) : lidx_main_v5 (ix2 n d) k = ix2 n k :=
  funext fun a => Fin.ext (by match a with | ⟨0, _⟩ => rfl | ⟨1, _⟩ => rfl)
/-- … against the transposed weight at (k, d), which is the weight at (d, k). -/
theorem ridx_v5 (n : Fin 4096) (d : Fin 640) (k : Fin 640) : idx_main_v4 (ridx_main_v5 (ix2 n d) k) = ix2 d k :=
  funext fun a => Fin.ext (by match a with | ⟨0, _⟩ => rfl | ⟨1, _⟩ => rfl)
/-- The projection at (n, d) is the sum over `k` of input (n, k) times weight (d, k). -/
theorem v5_at (x : FVec Ideal S4096x640 .f32) (W : FVec Ideal S640x640 .f32) (n : Fin 4096) (d : Fin 640) :
    val_main_v5 (F := Ideal) x W (ix2 n d) = proj x W n d := by
  rw [val_main_v5_apply]
  unfold proj
  refine Finset.sum_congr rfl fun k _ => ?_
  rw [val_main_v4_apply, ridx_v5 n d k, lidx_v5 n d k]

/-- Entry (h, r, e) of the [10, 4096, 64] re-reading sits at row-major position h · 262144 + r · 64 + e of the [4096, 640] array. -/
theorem idx_v6 (h : Fin 10) (r : Fin 4096) (e : Fin 64) :
    idx_main_v6 (ix3 h r e) = ix2 (rowOf (flatQ h r e) (flatQ_lt h r e)) (colOf (flatQ h r e)) :=
  funext fun a => Fin.ext (by
    match a with
    | ⟨0, _⟩ =>
      show ((h.val * 4096 + r.val) * 64 + e.val) / 640 = (h.val * 262144 + r.val * 64 + e.val) / 640
      omega
    | ⟨1, _⟩ =>
      show ((h.val * 4096 + r.val) * 64 + e.val) % 640 = (h.val * 262144 + r.val * 64 + e.val) % 640
      omega)
/-- The re-read projection at (h, r, e). -/
theorem v6_at (x : FVec Ideal S4096x640 .f32) (W : FVec Ideal S640x640 .f32) (h : Fin 10) (r : Fin 4096) (e : Fin 64) :
    val_main_v6 (F := Ideal) x W (ix3 h r e) = asHeads (proj x W) h r e := by
  rw [val_main_v6_apply, idx_v6 h r e, v1_at]
  rfl

/-- Entry (h, r, e) of the [10, 4096, 64] re-reading sits at row-major position h · 262144 + r · 64 + e of the [4096, 640] array. -/
theorem idx_v9 (h : Fin 10) (r : Fin 4096) (e : Fin 64) :
    idx_main_v9 (ix3 h r e) = ix2 (rowOf (flatQ h r e) (flatQ_lt h r e)) (colOf (flatQ h r e)) :=
  funext fun a => Fin.ext (by
    match a with
    | ⟨0, _⟩ =>
      show ((h.val * 4096 + r.val) * 64 + e.val) / 640 = (h.val * 262144 + r.val * 64 + e.val) / 640
      omega
    | ⟨1, _⟩ =>
      show ((h.val * 4096 + r.val) * 64 + e.val) % 640 = (h.val * 262144 + r.val * 64 + e.val) % 640
      omega)
/-- The re-read projection at (h, r, e). -/
theorem v9_at (x : FVec Ideal S4096x640 .f32) (W : FVec Ideal S640x640 .f32) (h : Fin 10) (r : Fin 4096) (e : Fin 64) :
    val_main_v9 (F := Ideal) x W (ix3 h r e) = asHeads (proj x W) h r e := by
  rw [val_main_v9_apply, idx_v9 h r e, v5_at]
  rfl

/-- Entry (h, e, j) of the [10, 64, 4096] re-reading of the keys, taken through the intermediate [10, 4096, 64]
    re-reading, sits at row-major position h · 262144 + e · 4096 + j of the [4096, 640] array. -/
theorem idx_v8 (h : Fin 10) (e : Fin 64) (j : Fin 4096) :
    idx_main_v7 (idx_main_v8 (ix3 h e j)) = ix2 (rowOf (flatK h e j) (flatK_lt h e j)) (colOf (flatK h e j)) :=
  funext fun a => Fin.ext (by
    match a with
    | ⟨0, _⟩ =>
      show (((((h.val * 64 + e.val) * 4096 + j.val) / 262144) * 4096 + ((h.val * 64 + e.val) * 4096 + j.val) / 64 % 4096) * 64
          + ((h.val * 64 + e.val) * 4096 + j.val) % 64) / 640 = (h.val * 262144 + e.val * 4096 + j.val) / 640
      omega
    | ⟨1, _⟩ =>
      show (((((h.val * 64 + e.val) * 4096 + j.val) / 262144) * 4096 + ((h.val * 64 + e.val) * 4096 + j.val) / 64 % 4096) * 64
          + ((h.val * 64 + e.val) * 4096 + j.val) % 64) % 640 = (h.val * 262144 + e.val * 4096 + j.val) % 640
      omega)
/-- The keys' projection re-read at (h, e, j). -/
theorem v8_at (x : FVec Ideal S4096x640 .f32) (W : FVec Ideal S640x640 .f32) (h : Fin 10) (e : Fin 64) (j : Fin 4096) :
    val_main_v8 (F := Ideal) x W (ix3 h e j) = asKeys (proj x W) h e j := by
  rw [val_main_v8_apply, val_main_v7_apply, idx_v8 h e j, v3_at]
  rfl

end Cert.RefIsG

end
-- ==== Proof.RefScore.lean ====
/-
  The reference's scores and softmax weights, read index by index: the batched contraction of the re-read queries
  and keys is the specification's raw score, its quotient by 64 the score, the maximum over a row taken from −∞ the row
  maximum, and the exponentials, their row sum and the quotient the softmax weight.
-/
import proofs.«126686_j77318001263092_2_alg».proof.Proof.RefProj

noncomputable section

namespace Cert.RefIsG

open Idealize.ShloMosaic Idealize.ShloMosaic.ValueIdx Cert.ReferenceIdeal Cert.ReferenceIdeal.Gen Cert.ReferenceIdeal.Read Cert.Attn

/-! ## Where each layout operation reads -/

theorem lidx_v10 (h : Fin 10) (i j : Fin 4096) (k : Fin 64) : lidx_main_v10 (ix3 h i j) k = ix3 h i k :=
  funext fun a => Fin.ext (by match a with | ⟨0, _⟩ => rfl | ⟨1, _⟩ => rfl | ⟨2, _⟩ => rfl)

theorem ridx_v10 (h : Fin 10) (i j : Fin 4096) (k : Fin 64) : ridx_main_v10 (ix3 h i j) k = ix3 h k j :=
  funext fun a => Fin.ext (by match a with | ⟨0, _⟩ => rfl | ⟨1, _⟩ => rfl | ⟨2, _⟩ => rfl)

theorem idx_v17 (h : Fin 10) (i j : Fin 4096) : idx_main_v16 (idx_main_v17 (ix3 h i j)) = ix2 h i :=
  funext fun a => Fin.ext (by match a with | ⟨0, _⟩ => rfl | ⟨1, _⟩ => rfl)

theorem idx_v22 (h : Fin 10) (i j : Fin 4096) : idx_main_v21 (idx_main_v22 (ix3 h i j)) = ix2 h i :=
  funext fun a => Fin.ext (by match a with | ⟨0, _⟩ => rfl | ⟨1, _⟩ => rfl)

theorem idx_v20 (h : Fin 10) (i k : Fin 4096) : idx_main_v20 (ix2 h i) k = ix3 h i k :=
  funext fun a => Fin.ext (by match a with | ⟨0, _⟩ => rfl | ⟨1, _⟩ => rfl | ⟨2, _⟩ => rfl)

/-! ## Scores -/

/-- The batched contraction at (h, i, j): the sum over `e` of query (h, i, e) times key (h, e, j). -/
theorem v10_at (x : FVec Ideal S4096x640 .f32) (Wq Wk : FVec Ideal S640x640 .f32) (h : Fin 10) (i j : Fin 4096) :
    val_main_v10 (F := Ideal) x Wq Wk (ix3 h i j) = rawScore x Wq Wk h i j := by
  rw [val_main_v10_apply]
  unfold rawScore
  refine Finset.sum_congr rfl fun k _ => ?_
  rw [lidx_v10 h i j k, ridx_v10 h i j k, v6_at, v8_at]

/-- Divided by the word for 64. -/
theorem v12_at (x : FVec Ideal S4096x640 .f32) (Wq Wk : FVec Ideal S640x640 .f32) (h : Fin 10) (i j : Fin 4096) :
    val_main_v12 (F := Ideal) x Wq Wk (ix3 h i j) = score x Wq Wk h i j := by
  rw [val_main_v12_apply, val_main_v11_apply, val_main_cst_apply, v10_at]
  rfl

/-! ## The row maximum -/

/-- The word 0xFF800000 denotes −∞, the least extended real. -/
theorem ofBits_neg_inf : Ideal.ofBits .f32 0xFF800000#32 = (⊥ : EReal) := by
  simp [Ideal.ofBits, Ideal.ieee]

/-- Putting coordinate `k` back on the reduced axis of (h, i) gives (h, i, k). -/
theorem lift_row (hR : S10x4096x4096.Reduces [2] S10x4096) (h : Fin 10) (i : Fin 4096) (k : Fin (S10x4096x4096.size 2)) :
    hR.lift (ix2 h i) k = ix3 h i (⟨k.val, k.isLt⟩ : Fin 4096) := by
  funext c; apply Fin.ext
  fin_cases c <;> rfl

/-- A maximum-reduce over the last axis from −∞, at (h, i), is the supremum over `j` of the entries (h, i, j). -/
theorem hostMax_row (y : FVec Ideal S10x4096x4096 .f32) (h : Fin 10) (i : Fin 4096) :
    Host.reduce FloatOps.maximumf y (val_main_cst_0 (F := Ideal)) reducesTo_S10x4096x4096_S10x4096_d2 h_S_ (ix2 h i)
      = Finset.univ.sup fun j : Fin 4096 => y (ix3 h i j) := by
  have hR : S10x4096x4096.Reduces [2] S10x4096 := by decide
  rw [Host.reduce_eq_fold_single FloatOps.maximumf y _ reducesTo_S10x4096x4096_S10x4096_d2 hR h_S_]
  have hf : (y ∘ hR.lift (ix2 h i)) = fun k : Fin 4096 => y (ix3 h i k) :=
    funext fun k => congrArg y (lift_row hR h i k)
  have hb : val_main_cst_0 (F := Ideal) (Shape.Idx.first h_S_) = (⊥ : EReal) := ofBits_neg_inf
  rw [hb]
  refine (congrArg (fun f => Finset.fold max (⊥ : EReal) f (Finset.univ : Finset (Fin 4096))) hf).trans ?_
  rfl

/-- The reference's row maximum is the specification's. -/
theorem v13_at (x : FVec Ideal S4096x640 .f32) (Wq Wk : FVec Ideal S640x640 .f32) (h : Fin 10) (i : Fin 4096) :
    val_main_v13 (F := Ideal) x Wq Wk (ix2 h i) = rowMax x Wq Wk h i := by
  unfold val_main_v13
  refine (hostMax_row (val_main_v12 (F := Ideal) x Wq Wk) h i).trans ?_
  unfold rowMax
  exact congrArg (Finset.univ.sup) (funext fun j => v12_at x Wq Wk h i j)

/-- The maximum with −∞ changes nothing. -/
theorem v15_at (x : FVec Ideal S4096x640 .f32) (Wq Wk : FVec Ideal S640x640 .f32) (h : Fin 10) (i : Fin 4096) :
    val_main_v15 (F := Ideal) x Wq Wk (ix2 h i) = rowMax x Wq Wk h i := by
  rw [val_main_v15_apply, val_main_v14_apply, val_main_cst_1_apply, v13_at]
  show max (Ideal.ofBits .f32 0xFF800000#32) _ = _
  rw [ofBits_neg_inf]
  exact max_eq_right bot_le

/-- The row maximum broadcast along the row. -/
theorem v17_at (x : FVec Ideal S4096x640 .f32) (Wq Wk : FVec Ideal S640x640 .f32) (h : Fin 10) (i j : Fin 4096) :
    val_main_v17 (F := Ideal) x Wq Wk (ix3 h i j) = rowMax x Wq Wk h i := by
  rw [val_main_v17_apply, val_main_v16_apply, idx_v17 h i j, v15_at]

/-! ## Softmax weights -/

/-- The exponential of score minus row maximum. -/
theorem v19_at (x : FVec Ideal S4096x640 .f32) (Wq Wk : FVec Ideal S640x640 .f32) (h : Fin 10) (i j : Fin 4096) :
    val_main_v19 (F := Ideal) x Wq Wk (ix3 h i j) = expw x Wq Wk h i j := by
  rw [val_main_v19_apply, val_main_v18_apply, v12_at, v17_at]
  rfl

/-- The row sum of the exponentials, from the zero word. -/
theorem v20_at (x : FVec Ideal S4096x640 .f32) (Wq Wk : FVec Ideal S640x640 .f32) (h : Fin 10) (i : Fin 4096) :
    val_main_v20 (F := Ideal) x Wq Wk (ix2 h i) = ∑ j : Fin 4096, expw x Wq Wk h i j := by
  rw [val_main_v20_apply, val_main_cst_2_apply]
  simp only [Ideal.ofBits_def, Ideal.ofBits_zero_f32, zero_add]
  refine Finset.sum_congr rfl fun k _ => ?_
  rw [idx_v20 h i k, v19_at]

/-- The softmax weight: the exponential divided by the row sum. -/
theorem v23_at (x : FVec Ideal S4096x640 .f32) (Wq Wk : FVec Ideal S640x640 .f32) (h : Fin 10) (i j : Fin 4096) :
    val_main_v23 (F := Ideal) x Wq Wk (ix3 h i j)
      = Ideal.div (expw x Wq Wk h i j) (∑ j' : Fin 4096, expw x Wq Wk h i j') := by
  rw [val_main_v23_apply, val_main_v22_apply, val_main_v21_apply, idx_v22 h i j, v20_at, v19_at]
  rfl

end Cert.RefIsG

end
-- ==== Proof.RefAttn.lean ====
/-
  The reference's attention output and residual, read index by index: the batched contraction of the softmax weights
  with the re-read values is the specification's `attn`, its re-reading as [4096, 640] puts entry (n, d) at head, row
  and feature given by the row-major position n · 640 + d, and adding the input gives `resid`.
-/
import proofs.«126686_j77318001263092_2_alg».proof.Proof.RefScore

noncomputable section

namespace Cert.RefIsG

open Idealize.ShloMosaic Idealize.ShloMosaic.ValueIdx Cert.ReferenceIdeal Cert.ReferenceIdeal.Gen Cert.ReferenceIdeal.Read Cert.Attn

/-! ## Where each layout operation reads -/

theorem lidx_v24 (h : Fin 10) (i : Fin 4096) (e : Fin 64) (k : Fin 4096) : lidx_main_v24 (ix3 h i e) k = ix3 h i k :=
  funext fun a => Fin.ext (by match a with | ⟨0, _⟩ => rfl | ⟨1, _⟩ => rfl | ⟨2, _⟩ => rfl)

theorem ridx_v24 (h : Fin 10) (i : Fin 4096) (e : Fin 64) (k : Fin 4096) : ridx_main_v24 (ix3 h i e) k = ix3 h k e :=
  funext fun a => Fin.ext (by match a with | ⟨0, _⟩ => rfl | ⟨1, _⟩ => rfl | ⟨2, _⟩ => rfl)

/-- Entry (n, d) of the [4096, 640] re-reading sits at row-major position n · 640 + d of the [10, 4096, 64] array. -/
theorem idx_v25 (n : Fin 4096) (d : Fin 640) :
    idx_main_v25 (ix2 n d)
      = ix3 (⟨(n.val * 640 + d.val) / 262144, by omega⟩ : Fin 10) (⟨(n.val * 640 + d.val) % 262144 / 64, by omega⟩ : Fin 4096)
          (⟨(n.val * 640 + d.val) % 64, Nat.mod_lt _ (by norm_num)⟩ : Fin 64) :=
  funext fun a => Fin.ext (by
    match a with
    | ⟨0, _⟩ => rfl
    | ⟨1, _⟩ =>
      show (n.val * 640 + d.val) / 64 % 4096 = (n.val * 640 + d.val) % 262144 / 64
      omega
    | ⟨2, _⟩ => rfl)

/-! ## The stages -/

/-- The weighted sum of the value rows. -/
theorem v24_at (x : FVec Ideal S4096x640 .f32) (Wq Wk Wv : FVec Ideal S640x640 .f32) (h : Fin 10) (i : Fin 4096) (e : Fin 64) :
    val_main_v24 (F := Ideal) x Wq Wk Wv (ix3 h i e) = attn x Wq Wk Wv h i e := by
  rw [val_main_v24_apply]
  unfold attn
  refine Finset.sum_congr rfl fun k _ => ?_
  rw [lidx_v24 h i e k, ridx_v24 h i e k, v23_at, v9_at]

/-- The attention output re-read as [4096, 640], plus the input. -/
theorem v26_at (x : FVec Ideal S4096x640 .f32) (Wq Wk Wv : FVec Ideal S640x640 .f32) (n : Fin 4096) (d : Fin 640) :
    val_main_v26 (F := Ideal) x Wq Wk Wv (ix2 n d) = resid x Wq Wk Wv n d := by
  rw [val_main_v26_apply, val_main_v25_apply, idx_v25 n d, v24_at]
  rfl

end Cert.RefIsG

end
-- ==== Proof.RefNorm.lean ====
/-
  The reference's layer normalisation, read index by index over the array it normalises (the attention output
  plus the input, kept here as the reference's own stage): the row mean as sum / 640, the row variance as the mean of
  the squared deviations, the reciprocal square root of variance plus ε, the scale and the shift.
-/
import proofs.«126686_j77318001263092_2_alg».proof.Proof.Gen.ReferenceIdeal.Read
import proofs.«126686_j77318001263092_2_alg».proof.Proof.Spec

noncomputable section

namespace Cert.RefIsG

open Idealize.ShloMosaic Idealize.ShloMosaic.ValueIdx Cert.ReferenceIdeal Cert.ReferenceIdeal.Gen Cert.ReferenceIdeal.Read Cert.Attn

/-! ## Where each layout operation reads -/

theorem idx_v27 (n : Fin 4096) (k : Fin 640) : idx_main_v27 (ix1 n) k = ix2 n k :=
  funext fun a => Fin.ext (by match a with | ⟨0, _⟩ => rfl | ⟨1, _⟩ => rfl)

theorem idx_v34 (n : Fin 4096) (k : Fin 640) : idx_main_v34 (ix1 n) k = ix2 n k :=
  funext fun a => Fin.ext (by match a with | ⟨0, _⟩ => rfl | ⟨1, _⟩ => rfl)

theorem idx_v28 (n : Fin 4096) (z : Fin 1) : idx_main_v28 (ix2 n z) = ix1 n :=
  funext fun a => Fin.ext (by match a with | ⟨0, _⟩ => rfl)

theorem idx_v35 (n : Fin 4096) (z : Fin 1) : idx_main_v35 (ix2 n z) = ix1 n :=
  funext fun a => Fin.ext (by match a with | ⟨0, _⟩ => rfl)

theorem idx_v31 (n : Fin 4096) (d : Fin 640) : idx_main_v31 (ix2 n d) = ix2 n (0 : Fin 1) :=
  funext fun a => Fin.ext (by match a with | ⟨0, _⟩ => rfl | ⟨1, _⟩ => rfl)

theorem idx_v38 (n : Fin 4096) (d : Fin 640) : idx_main_v38 (ix2 n d) = ix2 n (0 : Fin 1) :=
  funext fun a => Fin.ext (by match a with | ⟨0, _⟩ => rfl | ⟨1, _⟩ => rfl)

theorem idx_v43 (n : Fin 4096) (d : Fin 640) : idx_main_v43 (ix2 n d) = ix2 n (0 : Fin 1) :=
  funext fun a => Fin.ext (by match a with | ⟨0, _⟩ => rfl | ⟨1, _⟩ => rfl)

theorem idx_v46 (n : Fin 4096) (d : Fin 640) : idx_main_v45 (idx_main_v46 (ix2 n d)) = ix1 d :=
  funext fun a => Fin.ext (by match a with | ⟨0, _⟩ => rfl)

theorem idx_v49 (n : Fin 4096) (d : Fin 640) : idx_main_v48 (idx_main_v49 (ix2 n d)) = ix1 d :=
  funext fun a => Fin.ext (by match a with | ⟨0, _⟩ => rfl)

/-! ## The stages -/

/-- The mean of row `n` of the array being normalised: its sum divided by 640. -/
def rmean (x : FVec Ideal S4096x640 .f32) (Wq Wk Wv : FVec Ideal S640x640 .f32) (n : Fin 4096) : EReal :=
  Ideal.div (∑ k : Fin 640, val_main_v26 (F := Ideal) x Wq Wk Wv (ix2 n k)) c640

/-- The variance of row `n`: the sum of the squared deviations from the mean, divided by 640. -/
def rvar (x : FVec Ideal S4096x640 .f32) (Wq Wk Wv : FVec Ideal S640x640 .f32) (n : Fin 4096) : EReal :=
  Ideal.div (∑ k : Fin 640, (val_main_v26 (F := Ideal) x Wq Wk Wv (ix2 n k) - rmean x Wq Wk Wv n) * (val_main_v26 (F := Ideal) x Wq Wk Wv (ix2 n k) - rmean x Wq Wk Wv n)) c640

/-- The row sum from the zero word, divided by the word for 640, kept as one column. -/
theorem v30_at (x : FVec Ideal S4096x640 .f32) (Wq Wk Wv : FVec Ideal S640x640 .f32) (n : Fin 4096) (z : Fin 1) :
    val_main_v30 (F := Ideal) x Wq Wk Wv (ix2 n z) = rmean x Wq Wk Wv n := by
  rw [val_main_v30_apply, val_main_v28_apply, idx_v28 n z, val_main_v27_apply, val_main_v29_apply, val_main_cst_4_apply,
    val_main_cst_3_apply]
  simp only [Ideal.hostDivf_def, Ideal.ofBits_def, Ideal.ofBits_zero_f32, zero_add]
  unfold rmean c640
  refine congrArg (fun s => Ideal.div s _) (Finset.sum_congr rfl fun k _ => ?_)
  rw [idx_v27 n k]

/-- The mean broadcast along the row (first use). -/
theorem v31_at (x : FVec Ideal S4096x640 .f32) (Wq Wk Wv : FVec Ideal S640x640 .f32) (n : Fin 4096) (d : Fin 640) :
    val_main_v31 (F := Ideal) x Wq Wk Wv (ix2 n d) = rmean x Wq Wk Wv n := by
  rw [val_main_v31_apply, idx_v31 n d, v30_at]

/-- The mean broadcast along the row (second use). -/
theorem v38_at (x : FVec Ideal S4096x640 .f32) (Wq Wk Wv : FVec Ideal S640x640 .f32) (n : Fin 4096) (d : Fin 640) :
    val_main_v38 (F := Ideal) x Wq Wk Wv (ix2 n d) = rmean x Wq Wk Wv n := by
  rw [val_main_v38_apply, idx_v38 n d, v30_at]

/-- The deviation from the mean (as squared for the variance). -/
theorem v32_at (x : FVec Ideal S4096x640 .f32) (Wq Wk Wv : FVec Ideal S640x640 .f32) (n : Fin 4096) (d : Fin 640) :
    val_main_v32 (F := Ideal) x Wq Wk Wv (ix2 n d) = val_main_v26 (F := Ideal) x Wq Wk Wv (ix2 n d) - rmean x Wq Wk Wv n := by
  rw [val_main_v32_apply, v31_at]
  rfl

/-- The deviation from the mean (as normalised). -/
theorem v39_at (x : FVec Ideal S4096x640 .f32) (Wq Wk Wv : FVec Ideal S640x640 .f32) (n : Fin 4096) (d : Fin 640) :
    val_main_v39 (F := Ideal) x Wq Wk Wv (ix2 n d) = val_main_v26 (F := Ideal) x Wq Wk Wv (ix2 n d) - rmean x Wq Wk Wv n := by
  rw [val_main_v39_apply, v38_at]
  rfl

/-- The square is the product of the deviation with itself. -/
theorem v33_at (x : FVec Ideal S4096x640 .f32) (Wq Wk Wv : FVec Ideal S640x640 .f32) (n : Fin 4096) (d : Fin 640) :
    val_main_v33 (F := Ideal) x Wq Wk Wv (ix2 n d)
      = (val_main_v26 (F := Ideal) x Wq Wk Wv (ix2 n d) - rmean x Wq Wk Wv n) * (val_main_v26 (F := Ideal) x Wq Wk Wv (ix2 n d) - rmean x Wq Wk Wv n) := by
  rw [val_main_v33_apply, v32_at]
  rfl

/-- The variance, kept as one column. -/
theorem v37_at (x : FVec Ideal S4096x640 .f32) (Wq Wk Wv : FVec Ideal S640x640 .f32) (n : Fin 4096) (z : Fin 1) :
    val_main_v37 (F := Ideal) x Wq Wk Wv (ix2 n z) = rvar x Wq Wk Wv n := by
  rw [val_main_v37_apply, val_main_v35_apply, idx_v35 n z, val_main_v34_apply, val_main_v36_apply, val_main_cst_6_apply,
    val_main_cst_5_apply]
  simp only [Ideal.hostDivf_def, Ideal.ofBits_def, Ideal.ofBits_zero_f32, zero_add]
  unfold rvar c640
  refine congrArg (fun s => Ideal.div s _) (Finset.sum_congr rfl fun k _ => ?_)
  rw [idx_v34 n k, v33_at]

/-- The reciprocal square root of variance plus ε, broadcast along the row. -/
theorem v43_at (x : FVec Ideal S4096x640 .f32) (Wq Wk Wv : FVec Ideal S640x640 .f32) (n : Fin 4096) (d : Fin 640) :
    val_main_v43 (F := Ideal) x Wq Wk Wv (ix2 n d) = Ideal.rsqrt (rvar x Wq Wk Wv n + cEps) := by
  rw [val_main_v43_apply, idx_v43 n d, val_main_v42_apply, val_main_v41_apply, v37_at, val_main_v40_apply, val_main_cst_7_apply]
  rfl

/-- The scale, broadcast down the rows, reads entry `d`. -/
theorem v46_at (gamma : FVec Ideal S640 .f32) (n : Fin 4096) (d : Fin 640) :
    val_main_v46 (F := Ideal) gamma (ix2 n d) = gamma (ix1 d) := by
  rw [val_main_v46_apply, val_main_v45_apply, idx_v46 n d]

/-- The shift, broadcast down the rows, reads entry `d`. -/
theorem v49_at (beta : FVec Ideal S640 .f32) (n : Fin 4096) (d : Fin 640) :
    val_main_v49 (F := Ideal) beta (ix2 n d) = beta (ix1 d) := by
  rw [val_main_v49_apply, val_main_v48_apply, idx_v49 n d]

/-- The reference's result at (n, d) is the specification's row normalisation of the array it normalises. -/
theorem v50_at (x : FVec Ideal S4096x640 .f32) (Wq Wk Wv : FVec Ideal S640x640 .f32) (gamma beta : FVec Ideal S640 .f32) (n : Fin 4096) (d : Fin 640) :
    val_main_v50 (F := Ideal) x Wq Wk Wv gamma beta (ix2 n d)
      = layerNorm (fun n d => val_main_v26 (F := Ideal) x Wq Wk Wv (ix2 n d)) gamma beta n d := by
  rw [val_main_v50_apply, val_main_v47_apply, val_main_v44_apply, v39_at, v43_at, v46_at, v49_at]
  rfl

end Cert.RefIsG

end
-- ==== Proof.RefIsG.lean ====
/-
  The reference's result, read index by index, is the specification's function of the argument arrays; and the
  reference's run in that form: every weakly fair execution ends with the result buffer at the specification's function
  of the argument buffers, the arguments unchanged.
-/
import proofs.«126686_j77318001263092_2_alg».proof.Proof.RefAttn
import proofs.«126686_j77318001263092_2_alg».proof.Proof.RefNorm

noncomputable section

namespace Cert.RefIsG

open Idealize.ShloMosaic Idealize.ShloMosaic.ValueIdx Idealize.ShloMosaic.TcCoe Idealize.SL.Sem
open Cert.ReferenceIdeal Cert.ReferenceIdeal.Gen Cert.ReferenceIdeal.Read Cert.Attn

/-- The last stage of the reference, as a function of the six argument arrays, is the specification: at (n, d) it is
    the row normalisation of the array the reference normalises, and that array is the specification's residual. -/
theorem ref_eq_G (x : FVec Ideal Cert.ReferenceIdeal.S4096x640 .f32) (Wq Wk Wv : FVec Ideal Cert.ReferenceIdeal.S640x640 .f32)
    (gamma beta : FVec Ideal Cert.ReferenceIdeal.S640 .f32) :
    val_main_v50 (F := Ideal) x Wq Wk Wv gamma beta = Cert.Attn.G x Wq Wk Wv gamma beta := by
  funext y
  obtain ⟨n, d, rfl⟩ : ∃ (n : Fin 4096) (d : Fin 640), y = ix2 n d := ⟨y 0, y 1, eq_ix2 y⟩
  rw [v50_at]
  show layerNorm _ gamma beta n d = layerNorm (resid x Wq Wk Wv) gamma beta n d
  exact congrArg (fun v => layerNorm v gamma beta n d) (funext fun n' => funext fun d' => v26_at x Wq Wk Wv n' d')

/-- The reference's run: the result buffer ends at the specification's function of the argument buffers, and the six
    arguments are unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v50)
            = Cert.Attn.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono
    (fun _ h c => ⟨(h c).1.trans ((val_main_v50_eq m' c).trans (ref_eq_G _ _ _ _ _ _)), (h c).2⟩)
    (Cert.ReferenceIdeal.Value.run (F := Ideal) m' ρ')

end Cert.RefIsG

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.IValR0.lean ====
/-
  The projection kernel's three output arrays after the region, at the ideal values, each as one function of the input
  and a weight as the region finds them: entry (n, d) is the sum over k of input (n, k) times weight (d, k) — for the
  queries times the value of the scale word.

  At a grid point the body's payload is a product of the staged 1024 rows with the transposed staged weight, read at
  an index as that sum; the staged rows are rows 1024 · t … of the input and the staged weight the whole weight, so
  what point t writes back is block t of the array-level function; the four blocks of 1024 rows fill the array.
-/
import proofs.«126686_j77318001263092_2_alg».proof.Proof.IFrameR0
import proofs.«126686_j77318001263092_2_alg».proof.Proof.Spec
import proofs.«126686_j77318001263092_2_alg».proof.Proof.LibDotT
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The payloads at an index -/

/-- Row `p` of a block of 1024 rows against row `q` of a 640 × 640 matrix. -/
def rowDot (x0 : Vec Ideal S1024x640 .f32) (x1 : Vec Ideal S640x640 .f32) (p : Fin 1024) (q : Fin 640) : EReal :=
  ∑ k : Fin 640, x0 (ix2 p k) * x1 (ix2 q k)

/-- If row `p` of the block is row `n` of the input and row `q` of the staged matrix is row `d` of the weight, the
    contraction is the projection at (n, d). -/
theorem rowDot_eq (x0 : Vec Ideal S1024x640 .f32) (x1 : Vec Ideal S640x640 .f32) (X : Attn.A2 4096 640) (W : Attn.A2 640 640)
    (p : Fin 1024) (q : Fin 640) (n : Fin 4096) (d : Fin 640)
    (h0 : ∀ k : Fin 640, x0 (ix2 p k) = X (ix2 n k)) (h1 : ∀ k : Fin 640, x1 (ix2 q k) = W (ix2 d k)) :
    rowDot x0 x1 p q = Attn.proj X W n d :=
  Finset.sum_congr rfl fun k _ => by rw [h0 k, h1 k]

/-- The query payload at (p, q): row `p` of the staged rows against row `q` of the staged weight, times the scale word's value
    (the narrowings to the short format are the identity on extended reals). -/
theorem projPay2_at (x0 : Vec Ideal S1024x640 .f32) (x1 : Vec Ideal S640x640 .f32) (p : Fin 1024) (q : Fin 640) :
    k0_pay2 (F := Ideal) x0 x1 (ix2 p q) = rowDot x0 x1 p q * Ideal.ofBits .f32 0x3C800000#32 := by
  unfold k0_pay2 k0_pay1 rowDot
  refine congrArg (· * Ideal.ofBits .f32 0x3C800000#32) ?_
  exact Cert.LibDotT.matmul_zero_transposed_apply (φ₁ := .bf16) (φ₂ := .bf16) dot_S1024x640_S640x640_S1024x640_1_1_0_0_n_n rfl rfl rfl rfl rfl rfl none _ _ (ix2 p q)

/-- The key payload at (p, q): row `p` of the staged rows against row `q` of the staged weight
    (the narrowings to the short format are the identity on extended reals). -/
theorem projPay3_at (x0 : Vec Ideal S1024x640 .f32) (x1 : Vec Ideal S640x640 .f32) (p : Fin 1024) (q : Fin 640) :
    k0_pay3 (F := Ideal) x0 x1 (ix2 p q) = rowDot x0 x1 p q := by
  unfold k0_pay3 k0_pay1 rowDot
  show FloatOps.matmul (F := Ideal) dot_S1024x640_S640x640_S1024x640_1_1_0_0_n_n none _ _ _ (ix2 p q) = _
  exact Cert.LibDotT.matmul_zero_transposed_apply (φ₁ := .bf16) (φ₂ := .bf16) dot_S1024x640_S640x640_S1024x640_1_1_0_0_n_n rfl rfl rfl rfl rfl rfl none _ _ (ix2 p q)

/-- The value payload at (p, q): row `p` of the staged rows against row `q` of the staged weight
    (the narrowings to the short format are the identity on extended reals). -/
theorem projPay4_at (x0 : Vec Ideal S1024x640 .f32) (x1 : Vec Ideal S640x640 .f32) (p : Fin 1024) (q : Fin 640) :
    k0_pay4 (F := Ideal) x0 x1 (ix2 p q) = rowDot x0 x1 p q := by
  unfold k0_pay4 k0_pay1 rowDot
  show FloatOps.matmul (F := Ideal) dot_S1024x640_S640x640_S1024x640_1_1_0_0_n_n none _ _ _ (ix2 p q) = _
  exact Cert.LibDotT.matmul_zero_transposed_apply (φ₁ := .bf16) (φ₂ := .bf16) dot_S1024x640_S640x640_S1024x640_1_1_0_0_n_n rfl rfl rfl rfl rfl rfl none _ _ (ix2 p q)

/-! ## The index maps over the grid -/

theorem hz : (![0, 0] : Fin 2 → Nat) = fun _ => 0 := funext fun a => by fin_cases a <;> rfl

/-- The printed index maps, decided over the four points: the input's and the outputs' blocks are block `t` of rows and
    the one block of columns; each weight's block is its whole array. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## From blocks to the arrays -/

-- the TensorCore's buffer contents when the region is entered
variable (V : (c : Dev nD) → (b : Ref sig .tc) → Buf (Elt Ideal) ((c : Thread nD τ).loc b))

/-- The query array: entry (n, d) is the projection of input row `n` against weight row `d`, scaled. -/
def G4 (x : Attn.A2 4096 640) (W : Attn.A2 640 640) : S4096x640.Idx → EReal :=
  fun y => Attn.proj x W (y 0) (y 1) * Ideal.ofBits .f32 0x3C800000#32

/-- The key array: entry (n, d) is the projection of input row `n` against weight row `d`. -/
def G5 (x : Attn.A2 4096 640) (W : Attn.A2 640 640) : S4096x640.Idx → EReal :=
  fun y => Attn.proj x W (y 0) (y 1)

/-- The value array: entry (n, d) is the projection of input row `n` against weight row `d`. -/
def G6 (x : Attn.A2 4096 640) (W : Attn.A2 640 640) : S4096x640.Idx → EReal :=
  fun y => Attn.proj x W (y 0) (y 1)

/-- What point `t` writes back to the query array is block `t` of `G4` of the input and the weight as the region finds them. -/
theorem flushed4_eq (c : Dev nD) (t : Fin cfg0.N) :
    (dat0 V c).flushed 4 t = ((cfg0.win 4).blk t).view.read (Elt Ideal) (G4 (V c main_arg0) (V c main_arg1)) := by
  show (cfg0.win 4).cut (grid0.coords t) ((dat0 V c).after 4 t) = _
  rw [after0_4]
  unfold out0_4
  rw [View.canon_unit_zero hz]
  simp only [View.ld_unit_zero (S := S1024x640) hz, View.ld_unit_zero (S := S640x640) hz]
  obtain ⟨e00, e01, e10, e11, e20, e21, e30, e31, e40, e41, e50, e51, e60, e61⟩ := idx_facts0 t
  funext j
  obtain ⟨p, q, rfl⟩ : ∃ (p : Fin 1024) (q : Fin 640), j = ix2 p q := ⟨j 0, j 1, eq_ix2 j⟩
  show k0_pay2 (F := Ideal) (iblk0 V c 0 t) (iblk0 V c 1 t) (ix2 p q)
    = G4 (V c main_arg0) (V c main_arg1) (((cfg0.win 4).blk t).view.emb (ix2 p q))
  refine (projPay2_at (iblk0 V c 0 t) (iblk0 V c 1 t) p q).trans ?_
  have key : ∀ i : S4096x640.Idx, ((cfg0.win 4).blk t).view.emb (ix2 p q) = i →
      rowDot (iblk0 V c 0 t) (iblk0 V c 1 t) p q * Ideal.ofBits .f32 0x3C800000#32 = G4 (V c main_arg0) (V c main_arg1) i := by
    intro i hi
    obtain ⟨n, d, rfl⟩ : ∃ (n : Fin 4096) (d : Fin 640), i = ix2 n d := ⟨i 0, i 1, eq_ix2 i⟩
    have hn : win0_4.index t (0 : Fin 2) * 1024 + 1 * p.val = n.val := congrArg (fun i : S4096x640.Idx => (i 0).val) hi
    have hd : win0_4.index t (1 : Fin 2) * 640 + 1 * q.val = d.val := congrArg (fun i : S4096x640.Idx => (i 1).val) hi
    show _ = Attn.proj (V c main_arg0) (V c main_arg1) n d * Ideal.ofBits .f32 0x3C800000#32
    refine congrArg (· * Ideal.ofBits .f32 0x3C800000#32) (rowDot_eq (iblk0 V c 0 t) (iblk0 V c 1 t) (V c main_arg0) (V c main_arg1) p q n d (fun k => ?_) (fun k => ?_))
    · show V c main_arg0 (((cfg0.win 0).blk t).view.emb (ix2 p k)) = V c main_arg0 (ix2 n k)
      refine congrArg (V c main_arg0) (funext fun a => Fin.ext ?_)
      match a with
      | ⟨0, _⟩ => show win0_0.index t (0 : Fin 2) * 1024 + 1 * p.val = n.val; omega
      | ⟨1, _⟩ => show win0_0.index t (1 : Fin 2) * 640 + 1 * k.val = k.val; omega
    · show V c main_arg1 (((cfg0.win 1).blk t).view.emb (ix2 q k)) = V c main_arg1 (ix2 d k)
      refine congrArg (V c main_arg1) (funext fun a => Fin.ext ?_)
      match a with
      | ⟨0, _⟩ => show win0_1.index t (0 : Fin 2) * 640 + 1 * q.val = d.val; omega
      | ⟨1, _⟩ => show win0_1.index t (1 : Fin 2) * 640 + 1 * k.val = k.val; omega
  exact key _ rfl

/-- An index of the query array is in point `t`'s block iff each coordinate is in the block's range on its axis. -/
theorem mem_blk4 (t : Fin cfg0.N) (i : S4096x640.Idx) :
    i ∈ ((cfg0.win 4).blk t).view.set ↔ ∀ a : Fin 2, win0_4.index t a * S1024x640.size a ≤ (i a).val ∧ (i a).val < win0_4.index t a * S1024x640.size a + S1024x640.size a := by
  show i ∈ ((View.whole main_v0_0).slice (win0_4.rect t)).set ↔ _
  rw [View.set_slice_whole, Rect.mem_set_unit]
  exact Iff.rfl

/-- Row `r` lies in the block of point `r / 1024`: the four blocks of 1024 rows fill the array. -/
theorem cover4 (i : S4096x640.Idx) :
    ∃ t : Fin cfg0.N, (cfg0.win 4).flush t = true ∧ i ∈ ((cfg0.win 4).blk t).view.set := by
  have hi0 : (i 0).val < 4096 := (i 0).isLt
  have hi1 : (i 1).val < 640 := (i 1).isLt
  have ht : (i 0).val / 1024 < 4 := by omega
  refine ⟨⟨(i 0).val / 1024, ht⟩, flush0_4 _, ?_⟩
  rw [mem_blk4]
  obtain ⟨e00, e01, e10, e11, e20, e21, e30, e31, e40, e41, e50, e51, e60, e61⟩ := idx_facts0 ⟨(i 0).val / 1024, ht⟩
  have e40' : win0_4.index ⟨(i 0).val / 1024, ht⟩ (0 : Fin 2) = (i 0).val / 1024 := e40
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    omega
  | ⟨1, _⟩ =>
    show win0_4.index ⟨(i 0).val / 1024, ht⟩ (1 : Fin 2) * 640 ≤ (i 1).val
      ∧ (i 1).val < win0_4.index ⟨(i 0).val / 1024, ht⟩ (1 : Fin 2) * 640 + 640
    omega

/-- The query array after the region: `G4` of the input and the weight as the region finds them. -/
theorem arr0_4 (c : Dev nD) :
    (dat0 V c).arrAt 4 cfg0.N
      = fun y : S4096x640.Idx => Cert.Attn.proj (V c main_arg0) (V c main_arg1) (y 0) (y 1) * Ideal.ofBits .f32 0x3C800000#32 :=
  (dat0 V c).arrAt_eq_of_cover 4 (G4 (V c main_arg0) (V c main_arg1)) (fun t _ => flushed4_eq V c t) cover4

/-- What point `t` writes back to the key array is block `t` of `G5` of the input and the weight as the region finds them. -/
theorem flushed5_eq (c : Dev nD) (t : Fin cfg0.N) :
    (dat0 V c).flushed 5 t = ((cfg0.win 5).blk t).view.read (Elt Ideal) (G5 (V c main_arg0) (V c main_arg2)) := by
  show (cfg0.win 5).cut (grid0.coords t) ((dat0 V c).after 5 t) = _
  rw [after0_5]
  unfold out0_5
  rw [View.canon_unit_zero hz]
  simp only [View.ld_unit_zero (S := S1024x640) hz, View.ld_unit_zero (S := S640x640) hz]
  obtain ⟨e00, e01, e10, e11, e20, e21, e30, e31, e40, e41, e50, e51, e60, e61⟩ := idx_facts0 t
  funext j
  obtain ⟨p, q, rfl⟩ : ∃ (p : Fin 1024) (q : Fin 640), j = ix2 p q := ⟨j 0, j 1, eq_ix2 j⟩
  show k0_pay3 (F := Ideal) (iblk0 V c 0 t) (iblk0 V c 2 t) (ix2 p q)
    = G5 (V c main_arg0) (V c main_arg2) (((cfg0.win 5).blk t).view.emb (ix2 p q))
  refine (projPay3_at (iblk0 V c 0 t) (iblk0 V c 2 t) p q).trans ?_
  have key : ∀ i : S4096x640.Idx, ((cfg0.win 5).blk t).view.emb (ix2 p q) = i →
      rowDot (iblk0 V c 0 t) (iblk0 V c 2 t) p q = G5 (V c main_arg0) (V c main_arg2) i := by
    intro i hi
    obtain ⟨n, d, rfl⟩ : ∃ (n : Fin 4096) (d : Fin 640), i = ix2 n d := ⟨i 0, i 1, eq_ix2 i⟩
    have hn : win0_5.index t (0 : Fin 2) * 1024 + 1 * p.val = n.val := congrArg (fun i : S4096x640.Idx => (i 0).val) hi
    have hd : win0_5.index t (1 : Fin 2) * 640 + 1 * q.val = d.val := congrArg (fun i : S4096x640.Idx => (i 1).val) hi
    show _ = Attn.proj (V c main_arg0) (V c main_arg2) n d
    refine rowDot_eq (iblk0 V c 0 t) (iblk0 V c 2 t) (V c main_arg0) (V c main_arg2) p q n d (fun k => ?_) (fun k => ?_)
    · show V c main_arg0 (((cfg0.win 0).blk t).view.emb (ix2 p k)) = V c main_arg0 (ix2 n k)
      refine congrArg (V c main_arg0) (funext fun a => Fin.ext ?_)
      match a with
      | ⟨0, _⟩ => show win0_0.index t (0 : Fin 2) * 1024 + 1 * p.val = n.val; omega
      | ⟨1, _⟩ => show win0_0.index t (1 : Fin 2) * 640 + 1 * k.val = k.val; omega
    · show V c main_arg2 (((cfg0.win 2).blk t).view.emb (ix2 q k)) = V c main_arg2 (ix2 d k)
      refine congrArg (V c main_arg2) (funext fun a => Fin.ext ?_)
      match a with
      | ⟨0, _⟩ => show win0_2.index t (0 : Fin 2) * 640 + 1 * q.val = d.val; omega
      | ⟨1, _⟩ => show win0_2.index t (1 : Fin 2) * 640 + 1 * k.val = k.val; omega
  exact key _ rfl

/-- An index of the key array is in point `t`'s block iff each coordinate is in the block's range on its axis. -/
theorem mem_blk5 (t : Fin cfg0.N) (i : S4096x640.Idx) :
    i ∈ ((cfg0.win 5).blk t).view.set ↔ ∀ a : Fin 2, win0_5.index t a * S1024x640.size a ≤ (i a).val ∧ (i a).val < win0_5.index t a * S1024x640.size a + S1024x640.size a := by
  show i ∈ ((View.whole main_v0_1).slice (win0_5.rect t)).set ↔ _
  rw [View.set_slice_whole, Rect.mem_set_unit]
  exact Iff.rfl

/-- Row `r` lies in the block of point `r / 1024`: the four blocks of 1024 rows fill the array. -/
theorem cover5 (i : S4096x640.Idx) :
    ∃ t : Fin cfg0.N, (cfg0.win 5).flush t = true ∧ i ∈ ((cfg0.win 5).blk t).view.set := by
  have hi0 : (i 0).val < 4096 := (i 0).isLt
  have hi1 : (i 1).val < 640 := (i 1).isLt
  have ht : (i 0).val / 1024 < 4 := by omega
  refine ⟨⟨(i 0).val / 1024, ht⟩, flush0_5 _, ?_⟩
  rw [mem_blk5]
  obtain ⟨e00, e01, e10, e11, e20, e21, e30, e31, e40, e41, e50, e51, e60, e61⟩ := idx_facts0 ⟨(i 0).val / 1024, ht⟩
  have e50' : win0_5.index ⟨(i 0).val / 1024, ht⟩ (0 : Fin 2) = (i 0).val / 1024 := e50
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    omega
  | ⟨1, _⟩ =>
    show win0_5.index ⟨(i 0).val / 1024, ht⟩ (1 : Fin 2) * 640 ≤ (i 1).val
      ∧ (i 1).val < win0_5.index ⟨(i 0).val / 1024, ht⟩ (1 : Fin 2) * 640 + 640
    omega

/-- The key array after the region: `G5` of the input and the weight as the region finds them. -/
theorem arr0_5 (c : Dev nD) :
    (dat0 V c).arrAt 5 cfg0.N
      = fun y : S4096x640.Idx => Cert.Attn.proj (V c main_arg0) (V c main_arg2) (y 0) (y 1) :=
  (dat0 V c).arrAt_eq_of_cover 5 (G5 (V c main_arg0) (V c main_arg2)) (fun t _ => flushed5_eq V c t) cover5

/-- What point `t` writes back to the value array is block `t` of `G6` of the input and the weight as the region finds them. -/
theorem flushed6_eq (c : Dev nD) (t : Fin cfg0.N) :
    (dat0 V c).flushed 6 t = ((cfg0.win 6).blk t).view.read (Elt Ideal) (G6 (V c main_arg0) (V c main_arg3)) := by
  show (cfg0.win 6).cut (grid0.coords t) ((dat0 V c).after 6 t) = _
  rw [after0_6]
  unfold out0_6
  rw [View.canon_unit_zero hz]
  simp only [View.ld_unit_zero (S := S1024x640) hz, View.ld_unit_zero (S := S640x640) hz]
  obtain ⟨e00, e01, e10, e11, e20, e21, e30, e31, e40, e41, e50, e51, e60, e61⟩ := idx_facts0 t
  funext j
  obtain ⟨p, q, rfl⟩ : ∃ (p : Fin 1024) (q : Fin 640), j = ix2 p q := ⟨j 0, j 1, eq_ix2 j⟩
  show k0_pay4 (F := Ideal) (iblk0 V c 0 t) (iblk0 V c 3 t) (ix2 p q)
    = G6 (V c main_arg0) (V c main_arg3) (((cfg0.win 6).blk t).view.emb (ix2 p q))
  refine (projPay4_at (iblk0 V c 0 t) (iblk0 V c 3 t) p q).trans ?_
  have key : ∀ i : S4096x640.Idx, ((cfg0.win 6).blk t).view.emb (ix2 p q) = i →
      rowDot (iblk0 V c 0 t) (iblk0 V c 3 t) p q = G6 (V c main_arg0) (V c main_arg3) i := by
    intro i hi
    obtain ⟨n, d, rfl⟩ : ∃ (n : Fin 4096) (d : Fin 640), i = ix2 n d := ⟨i 0, i 1, eq_ix2 i⟩
    have hn : win0_6.index t (0 : Fin 2) * 1024 + 1 * p.val = n.val := congrArg (fun i : S4096x640.Idx => (i 0).val) hi
    have hd : win0_6.index t (1 : Fin 2) * 640 + 1 * q.val = d.val := congrArg (fun i : S4096x640.Idx => (i 1).val) hi
    show _ = Attn.proj (V c main_arg0) (V c main_arg3) n d
    refine rowDot_eq (iblk0 V c 0 t) (iblk0 V c 3 t) (V c main_arg0) (V c main_arg3) p q n d (fun k => ?_) (fun k => ?_)
    · show V c main_arg0 (((cfg0.win 0).blk t).view.emb (ix2 p k)) = V c main_arg0 (ix2 n k)
      refine congrArg (V c main_arg0) (funext fun a => Fin.ext ?_)
      match a with
      | ⟨0, _⟩ => show win0_0.index t (0 : Fin 2) * 1024 + 1 * p.val = n.val; omega
      | ⟨1, _⟩ => show win0_0.index t (1 : Fin 2) * 640 + 1 * k.val = k.val; omega
    · show V c main_arg3 (((cfg0.win 3).blk t).view.emb (ix2 q k)) = V c main_arg3 (ix2 d k)
      refine congrArg (V c main_arg3) (funext fun a => Fin.ext ?_)
      match a with
      | ⟨0, _⟩ => show win0_3.index t (0 : Fin 2) * 640 + 1 * q.val = d.val; omega
      | ⟨1, _⟩ => show win0_3.index t (1 : Fin 2) * 640 + 1 * k.val = k.val; omega
  exact key _ rfl

/-- An index of the value array is in point `t`'s block iff each coordinate is in the block's range on its axis. -/
theorem mem_blk6 (t : Fin cfg0.N) (i : S4096x640.Idx) :
    i ∈ ((cfg0.win 6).blk t).view.set ↔ ∀ a : Fin 2, win0_6.index t a * S1024x640.size a ≤ (i a).val ∧ (i a).val < win0_6.index t a * S1024x640.size a + S1024x640.size a := by
  show i ∈ ((View.whole main_v0_2).slice (win0_6.rect t)).set ↔ _
  rw [View.set_slice_whole, Rect.mem_set_unit]
  exact Iff.rfl

/-- Row `r` lies in the block of point `r / 1024`: the four blocks of 1024 rows fill the array. -/
theorem cover6 (i : S4096x640.Idx) :
    ∃ t : Fin cfg0.N, (cfg0.win 6).flush t = true ∧ i ∈ ((cfg0.win 6).blk t).view.set := by
  have hi0 : (i 0).val < 4096 := (i 0).isLt
  have hi1 : (i 1).val < 640 := (i 1).isLt
  have ht : (i 0).val / 1024 < 4 := by omega
  refine ⟨⟨(i 0).val / 1024, ht⟩, flush0_6 _, ?_⟩
  rw [mem_blk6]
  obtain ⟨e00, e01, e10, e11, e20, e21, e30, e31, e40, e41, e50, e51, e60, e61⟩ := idx_facts0 ⟨(i 0).val / 1024, ht⟩
  have e60' : win0_6.index ⟨(i 0).val / 1024, ht⟩ (0 : Fin 2) = (i 0).val / 1024 := e60
  intro a
  match a with
  | ⟨0, _⟩ =>
    show win0_6.index ⟨(i 0).val / 1024, ht⟩ (0 : Fin 2) * 1024 ≤ (i 0).val
      ∧ (i 0).val < win0_6.index ⟨(i 0).val / 1024, ht⟩ (0 : Fin 2) * 1024 + 1024
    omega
  | ⟨1, _⟩ =>
    show win0_6.index ⟨(i 0).val / 1024, ht⟩ (1 : Fin 2) * 640 ≤ (i 1).val
      ∧ (i 1).val < win0_6.index ⟨(i 0).val / 1024, ht⟩ (1 : Fin 2) * 640 + 640
    omega

/-- The value array after the region: `G6` of the input and the weight as the region finds them. -/
theorem arr0_6 (c : Dev nD) :
    (dat0 V c).arrAt 6 cfg0.N
      = fun y : S4096x640.Idx => Cert.Attn.proj (V c main_arg0) (V c main_arg3) (y 0) (y 1) :=
  (dat0 V c).arrAt_eq_of_cover 6 (G6 (V c main_arg0) (V c main_arg3)) (fun t _ => flushed6_eq V c t) cover6

end Cert.KernelIdeal.Hand

end
-- ==== Proof.IValHost.lean ====
/-
  The kernel program's host reshapes between its regions, read index by index at any contents of the buffers.

  The first stretch re-reads each of the three [4096, 640] projection arrays as [10, 4096, 64] by row-major position
  alone, and the keys' once more as [10, 64, 4096]; the second re-reads the [10, 4096, 64] attention output as
  [4096, 640]. Entry (h, r, e) of a [10, 4096, 64] re-reading sits at flat position h · 262144 + r · 64 + e, entry
  (h, e, j) of the [10, 64, 4096] one at h · 262144 + e · 4096 + j, and entry (n, d) of the [4096, 640] array at
  n · 640 + d. A buffer a stretch does not write keeps its contents.
-/
import proofs.«126686_j77318001263092_2_alg».proof.Proof.Gen.KernelIdeal.Regions
import proofs.«126686_j77318001263092_2_alg».proof.Proof.Spec
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem
open Cert.Attn (rowOf colOf flatQ flatK flatQ_lt flatK_lt)

-- any contents of the device's buffers
variable (W : Valuation τ sig (Elt Ideal))

/-! ## Row-major positions -/

/-- A [4096, 640] array re-read as [10, 4096, 64], at (h, r, e). -/
theorem cast_heads {α : Type} (y : S4096x640.Idx → α) (h : Fin 10) (r : Fin 4096) (e : Fin 64) :
    shapeCast S10x4096x64 y shapeCasts_S4096x640_S10x4096x64 (ix3 h r e)
      = y (ix2 (rowOf (flatQ h r e) (flatQ_lt h r e)) (colOf (flatQ h r e))) :=
  shapeCast_apply y shapeCasts_S4096x640_S10x4096x64 (ix3 h r e) _ (by
    rewrite [Shape.rowMajor_val_two, Shape.rowMajor_val_three]
    show (h.val * 262144 + r.val * 64 + e.val) / 640 * 640 + (h.val * 262144 + r.val * 64 + e.val) % 640
      = (h.val * 4096 + r.val) * 64 + e.val
    omega)

/-- A [10, 4096, 64] array re-read as [10, 64, 4096], at (h, e, j): the entry at flat position h · 262144 + e · 4096 + j. -/
theorem cast_keys {α : Type} (y : S10x4096x64.Idx → α) (h : Fin 10) (e : Fin 64) (j : Fin 4096) :
    shapeCast S10x64x4096 y shapeCasts_S10x4096x64_S10x64x4096 (ix3 h e j)
      = y (ix3 (⟨(h.val * 262144 + e.val * 4096 + j.val) / 262144, by omega⟩ : Fin 10)
            (⟨(h.val * 262144 + e.val * 4096 + j.val) / 64 % 4096, by omega⟩ : Fin 4096)
            (⟨(h.val * 262144 + e.val * 4096 + j.val) % 64, Nat.mod_lt _ (by norm_num)⟩ : Fin 64)) :=
  shapeCast_apply y shapeCasts_S10x4096x64_S10x64x4096 (ix3 h e j) _ (by
    rewrite [Shape.rowMajor_val_three, Shape.rowMajor_val_three]
    show ((h.val * 262144 + e.val * 4096 + j.val) / 262144 * 4096 + (h.val * 262144 + e.val * 4096 + j.val) / 64 % 4096) * 64
        + (h.val * 262144 + e.val * 4096 + j.val) % 64 = (h.val * 64 + e.val) * 4096 + j.val
    omega)

/-- A [10, 4096, 64] array re-read as [4096, 640], at (n, d). -/
theorem cast_rows {α : Type} (y : S10x4096x64.Idx → α) (n : Fin 4096) (d : Fin 640) :
    shapeCast S4096x640 y shapeCasts_S10x4096x64_S4096x640 (ix2 n d)
      = y (ix3 (⟨(n.val * 640 + d.val) / 262144, by omega⟩ : Fin 10) (⟨(n.val * 640 + d.val) % 262144 / 64, by omega⟩ : Fin 4096)
            (⟨(n.val * 640 + d.val) % 64, Nat.mod_lt _ (by norm_num)⟩ : Fin 64)) :=
  shapeCast_apply y shapeCasts_S10x4096x64_S4096x640 (ix2 n d) _ (by
    rewrite [Shape.rowMajor_val_three, Shape.rowMajor_val_two]
    show ((n.val * 640 + d.val) / 262144 * 4096 + (n.val * 640 + d.val) % 262144 / 64) * 64 + (n.val * 640 + d.val) % 64
      = n.val * 640 + d.val
    omega)

/-! ## The first stretch -/

/-- The queries re-read as heads. -/
theorem host1_v1 (h : Fin 10) (r : Fin 4096) (e : Fin 64) :
    StableHlo.after hostOps1 W (Proc.devRef .tc main_v1) (ix3 h r e)
      = W (Proc.devRef .tc main_v0_0) (ix2 (rowOf (flatQ h r e) (flatQ_lt h r e)) (colOf (flatQ h r e))) := by
  have hv : StableHlo.after hostOps1 W (Proc.devRef .tc main_v1)
      = shapeCast S10x4096x64 (W (Proc.devRef .tc main_v0_0)) shapeCasts_S4096x640_S10x4096x64 := by
    after_results
    rfl
  rw [hv]
  exact cast_heads _ h r e

/-- The values re-read as heads. -/
theorem host1_v4 (h : Fin 10) (r : Fin 4096) (e : Fin 64) :
    StableHlo.after hostOps1 W (Proc.devRef .tc main_v4) (ix3 h r e)
      = W (Proc.devRef .tc main_v0_2) (ix2 (rowOf (flatQ h r e) (flatQ_lt h r e)) (colOf (flatQ h r e))) := by
  have hv : StableHlo.after hostOps1 W (Proc.devRef .tc main_v4)
      = shapeCast S10x4096x64 (W (Proc.devRef .tc main_v0_2)) shapeCasts_S4096x640_S10x4096x64 := by
    after_results
    rfl
  rw [hv]
  exact cast_heads _ h r e

/-- The keys re-read as heads and then as [10, 64, 4096]. -/
theorem host1_v3 (h : Fin 10) (e : Fin 64) (j : Fin 4096) :
    StableHlo.after hostOps1 W (Proc.devRef .tc main_v3) (ix3 h e j)
      = W (Proc.devRef .tc main_v0_1) (ix2 (rowOf (flatK h e j) (flatK_lt h e j)) (colOf (flatK h e j))) := by
  have hv : StableHlo.after hostOps1 W (Proc.devRef .tc main_v3)
      = shapeCast S10x64x4096 (shapeCast S10x4096x64 (W (Proc.devRef .tc main_v0_1)) shapeCasts_S4096x640_S10x4096x64)
          shapeCasts_S10x4096x64_S10x64x4096 := by
    after_results
    rfl
  rw [hv, cast_keys, cast_heads]
  refine congrArg (W (Proc.devRef .tc main_v0_1)) (funext fun a => Fin.ext ?_)
  match a with
  | ⟨0, _⟩ =>
    show ((h.val * 262144 + e.val * 4096 + j.val) / 262144 * 262144 + (h.val * 262144 + e.val * 4096 + j.val) / 64 % 4096 * 64
        + (h.val * 262144 + e.val * 4096 + j.val) % 64) / 640 = (h.val * 262144 + e.val * 4096 + j.val) / 640
    omega
  | ⟨1, _⟩ =>
    show ((h.val * 262144 + e.val * 4096 + j.val) / 262144 * 262144 + (h.val * 262144 + e.val * 4096 + j.val) / 64 % 4096 * 64
        + (h.val * 262144 + e.val * 4096 + j.val) % 64) % 640 = (h.val * 262144 + e.val * 4096 + j.val) % 640
    omega

/-- A buffer the first stretch does not write keeps its contents. -/
theorem host1_keeps (b : Ref sig .tc) (hb : b ∉ hostOps1_W) :
    StableHlo.after hostOps1 W (Proc.devRef .tc b) = W (Proc.devRef .tc b) :=
  StableHlo.after_of_writes_sub hostOps1 W hostOps1_writes hb

/-! ## The second stretch -/

/-- The attention output re-read as rows. -/
theorem host2_v6 (n : Fin 4096) (d : Fin 640) :
    StableHlo.after hostOps2 W (Proc.devRef .tc main_v6) (ix2 n d)
      = W (Proc.devRef .tc main_v5) (ix3 (⟨(n.val * 640 + d.val) / 262144, by omega⟩ : Fin 10)
          (⟨(n.val * 640 + d.val) % 262144 / 64, by omega⟩ : Fin 4096) (⟨(n.val * 640 + d.val) % 64, Nat.mod_lt _ (by norm_num)⟩ : Fin 64)) := by
  have hv : StableHlo.after hostOps2 W (Proc.devRef .tc main_v6)
      = shapeCast S4096x640 (W (Proc.devRef .tc main_v5)) shapeCasts_S10x4096x64_S4096x640 := by
    after_results
    rfl
  rw [hv]
  exact cast_rows _ n d

/-- A buffer the second stretch does not write keeps its contents. -/
theorem host2_keeps (b : Ref sig .tc) (hb : b ∉ hostOps2_W) :
    StableHlo.after hostOps2 W (Proc.devRef .tc b) = W (Proc.devRef .tc b) :=
  StableHlo.after_of_writes_sub hostOps2 W hostOps2_writes hb

end Cert.KernelIdeal.Hand

end
-- ==== Proof.LibOnlineSoftmax.lean ====
/-
  The online softmax: a running maximum, a running denominator and a running numerator, updated tile by tile,
  compute the same quotient as the two-pass softmax.

  Scores and values come in tiles of width B: tile t holds s t u and v t u for the positions u < B. Write
  m_t for the maximum of the scores of tile t, and  M n = max (m_0, …, m_(n-1))  for the maximum of the first n tiles
  (the empty maximum is −∞). The recurrence starts from (m, l, a) = (−∞, 0, 0) and, reading tile n, replaces it by

      m' = max (m, m_n),    l' = exp (m − m') · l + Σ_u exp (s n u − m'),    a' = exp (m − m') · a + Σ_u exp (s n u − m') · v n u.

  When the scores and values of the first n tiles are real numbers, after n tiles

      m = M n,     l = Σ_(t < n) Σ_u exp (s t u − M n),     a = Σ_(t < n) Σ_u exp (s t u − M n) · v t u,

  because exp (m − m') · exp (x − m) = exp (x − m') for real numbers, and because at the first tile the old maximum is −∞,
  exp (−∞ − m') = 0, and the old sums are 0. For n ≥ 1 the maximum M n is a real number, l is a positive real number and a is
  a real number, so the quotient a / l is the sum of the quotients exp (s t u − M n) / l times v t u: the softmax weights
  against the values. Read along one flat index j = u + B · t < T · B this is the two-pass softmax of the whole row.

  All arithmetic is that of the extended reals with exp (−∞) = 0; nothing is distributed or cancelled before the terms
  have been shown to be real numbers.
-/
import Idealize.ShloMosaic.PureOps.Ideal
import Mathlib.Logic.Equiv.Fin.Basic
import Mathlib.Algebra.BigOperators.Fin

noncomputable section

namespace Cert.LibOnlineSoftmax

open Idealize.ShloMosaic
open scoped BigOperators

/-! # The online softmax equals the two-pass softmax

For tiles of scores s t u and values v t u (tile t, position u < B), the recurrence
(m, l, a) ↦ (m', exp (m − m') · l + Σ_u exp (s n u − m'), exp (m − m') · a + Σ_u exp (s n u − m') · v n u) with
m' = max (m, max_u s n u), started at (−∞, 0, 0), reaches after n tiles of real numbers the maximum M n of all scores read,
the sum of exp (s t u − M n) and the sum of exp (s t u − M n) · v t u; for n ≥ 1 their quotient is the sum of the softmax
weights times the values, and along the flat index j = u + B · t it is the two-pass softmax of the whole row. -/

/-! ### Real numbers inside the extended reals -/

/-- The coercion of a finite sum of real numbers is the sum of the coercions. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a difference of two real numbers is the real exponential of the real difference. -/
theorem exp_coe_sub (x c : ℝ) :
    Ideal.exp ((x : EReal) - (c : EReal)) = ((Real.exp (x - c) : ℝ) : EReal) := by
  rw [← EReal.coe_sub]; rfl

/-- A finite nonempty supremum of real numbers is a real number. -/
theorem sup_isReal {ι : Type*} (S : Finset ι) (hS : S.Nonempty) (f : ι → EReal)
    (hf : ∀ i ∈ S, ∃ r : ℝ, f i = (r : EReal)) : ∃ r : ℝ, S.sup f = (r : EReal) := by
  obtain ⟨i, hi, h⟩ := Finset.exists_mem_eq_sup S hS f
  obtain ⟨r, hr⟩ := hf i hi
  exact ⟨r, h.trans hr⟩

/-! ### The recurrence -/

variable {B : ℕ}

/-- The running state of the online softmax: the maximum m seen so far, the denominator l and the numerator a,
    both scaled to that maximum. -/
@[ext] structure Acc where
  /-- the running maximum -/
  m : EReal
  /-- the running denominator, the sum of exp (score − m) -/
  l : EReal
  /-- the running numerator, the sum of exp (score − m) · value -/
  a : EReal

/-- The state after n tiles: start from (−∞, 0, 0); tile n raises the maximum to m' = max (m, maximum of tile n),
    scales both sums by α = exp (m − m') and adds the tile's terms exp (s n u − m') and exp (s n u − m') · v n u. -/
def state (s v : ℕ → Fin B → EReal) : ℕ → Acc
  | 0 => ⟨⊥, 0, 0⟩
  | n + 1 =>
    ⟨max (state s v n).m (Finset.univ.sup (s n)),
     Ideal.exp ((state s v n).m - max (state s v n).m (Finset.univ.sup (s n))) * (state s v n).l
       + ∑ u, Ideal.exp (s n u - max (state s v n).m (Finset.univ.sup (s n))),
     Ideal.exp ((state s v n).m - max (state s v n).m (Finset.univ.sup (s n))) * (state s v n).a
       + ∑ u, Ideal.exp (s n u - max (state s v n).m (Finset.univ.sup (s n))) * v n u⟩

/-- Before any tile the state is (−∞, 0, 0). -/
@[simp] theorem state_zero (s v : ℕ → Fin B → EReal) : state s v 0 = ⟨⊥, 0, 0⟩ := rfl

/-- One step of the recurrence, spelt with its two intermediate quantities m' and α. -/
theorem state_succ (s v : ℕ → Fin B → EReal) (n : ℕ) :
    state s v (n + 1) =
      (let m := (state s v n).m
       let l := (state s v n).l
       let a := (state s v n).a
       let m' := max m (Finset.univ.sup (s n))
       let α := Ideal.exp (m - m')
       ⟨m', α * l + ∑ u, Ideal.exp (s n u - m'), α * a + ∑ u, Ideal.exp (s n u - m') * v n u⟩) := rfl

/-- The new maximum: the larger of the old one and the maximum of the tile. -/
theorem state_succ_m (s v : ℕ → Fin B → EReal) (n : ℕ) :
    (state s v (n + 1)).m = max (state s v n).m (Finset.univ.sup (s n)) := rfl

/-- The new denominator: the old one scaled by exp (m − m'), plus the tile's terms exp (s n u − m'). -/
theorem state_succ_l (s v : ℕ → Fin B → EReal) (n : ℕ) :
    (state s v (n + 1)).l =
      Ideal.exp ((state s v n).m - (state s v (n + 1)).m) * (state s v n).l
        + ∑ u, Ideal.exp (s n u - (state s v (n + 1)).m) := rfl

/-- The new numerator: the old one scaled by exp (m − m'), plus the tile's terms exp (s n u − m') · v n u. -/
theorem state_succ_a (s v : ℕ → Fin B → EReal) (n : ℕ) :
    (state s v (n + 1)).a =
      Ideal.exp ((state s v n).m - (state s v (n + 1)).m) * (state s v n).a
        + ∑ u, Ideal.exp (s n u - (state s v (n + 1)).m) * v n u := rfl

/-! ### The maximum of the first n tiles -/

/-- M n: the maximum of the scores of the tiles before n (−∞ for no tile). -/
def M (s : ℕ → Fin B → EReal) (n : ℕ) : EReal := (Finset.range n).sup fun t => Finset.univ.sup (s t)

/-- M n written out. -/
theorem M_def (s : ℕ → Fin B → EReal) (n : ℕ) :
    M s n = (Finset.range n).sup fun t => Finset.univ.sup (s t) := rfl

/-- The maximum of no tile is −∞. -/
@[simp] theorem M_zero (s : ℕ → Fin B → EReal) : M s 0 = ⊥ := by
  rw [M, Finset.range_zero, Finset.sup_empty]

/-- One more tile: the maximum of the earlier tiles and of the new one. -/
theorem M_succ (s : ℕ → Fin B → EReal) (n : ℕ) :
    M s (n + 1) = max (M s n) (Finset.univ.sup (s n)) := by
  rw [M, Finset.range_add_one, Finset.sup_insert, max_comm]; rfl

/-- With at least one tile, a positive tile width and real scores, the maximum M n is a real number. -/
theorem M_isReal {s : ℕ → Fin B → EReal} {n : ℕ} (hB : 0 < B) (hn : 1 ≤ n)
    (hs : ∀ t < n, ∀ u, ∃ r : ℝ, s t u = (r : EReal)) : ∃ r : ℝ, M s n = (r : EReal) :=
  sup_isReal _ (Finset.nonempty_range_iff.mpr (by omega)) _ fun t ht =>
    sup_isReal _ ⟨⟨0, hB⟩, Finset.mem_univ _⟩ _ fun u _ => hs t (Finset.mem_range.mp ht) u

/-! ### The two sums as real numbers -/

/-- The sum of exp (s t u − c) over the first n tiles, for real scores and a real c, is the coercion of the real sum. -/
theorem den_coe {s : ℕ → Fin B → EReal} {n : ℕ} (hs : ∀ t < n, ∀ u, ∃ r : ℝ, s t u = (r : EReal)) (c : ℝ) :
    ∑ t ∈ Finset.range n, ∑ u, Ideal.exp (s t u - (c : EReal))
      = ((∑ t ∈ Finset.range n, ∑ u, Real.exp ((s t u).toReal - c) : ℝ) : EReal) := by
  rw [coe_finset_sum]
  refine Finset.sum_congr rfl fun t ht => ?_
  rw [coe_finset_sum]
  refine Finset.sum_congr rfl fun u _ => ?_
  obtain ⟨r, hr⟩ := hs t (Finset.mem_range.mp ht) u
  rw [hr, exp_coe_sub, EReal.toReal_coe]

/-- The sum of exp (s t u − c) · v t u over the first n tiles, for real scores and values and a real c, is the coercion of
    the real sum. -/
theorem num_coe {s v : ℕ → Fin B → EReal} {n : ℕ} (hs : ∀ t < n, ∀ u, ∃ r : ℝ, s t u = (r : EReal))
    (hv : ∀ t < n, ∀ u, ∃ r : ℝ, v t u = (r : EReal)) (c : ℝ) :
    ∑ t ∈ Finset.range n, ∑ u, Ideal.exp (s t u - (c : EReal)) * v t u
      = ((∑ t ∈ Finset.range n, ∑ u, Real.exp ((s t u).toReal - c) * (v t u).toReal : ℝ) : EReal) := by
  rw [coe_finset_sum]
  refine Finset.sum_congr rfl fun t ht => ?_
  rw [coe_finset_sum]
  refine Finset.sum_congr rfl fun u _ => ?_
  obtain ⟨r, hr⟩ := hs t (Finset.mem_range.mp ht) u
  obtain ⟨q, hq⟩ := hv t (Finset.mem_range.mp ht) u
  rw [hr, hq, exp_coe_sub, EReal.toReal_coe, EReal.toReal_coe, EReal.coe_mul]

/-- Moving the reference point of the denominator from c to d multiplies it by exp (c − d). -/
theorem rescale_den {s : ℕ → Fin B → EReal} {n : ℕ} (hs : ∀ t < n, ∀ u, ∃ r : ℝ, s t u = (r : EReal)) (c d : ℝ) :
    Ideal.exp ((c : EReal) - (d : EReal)) * ∑ t ∈ Finset.range n, ∑ u, Ideal.exp (s t u - (c : EReal))
      = ∑ t ∈ Finset.range n, ∑ u, Ideal.exp (s t u - (d : EReal)) := by
  rw [den_coe hs c, den_coe hs d, exp_coe_sub, ← EReal.coe_mul, EReal.coe_eq_coe_iff, Finset.mul_sum]
  refine Finset.sum_congr rfl fun t _ => ?_
  rw [Finset.mul_sum]
  refine Finset.sum_congr rfl fun u _ => ?_
  rw [← Real.exp_add]
  congr 1; ring

/-- Moving the reference point of the numerator from c to d multiplies it by exp (c − d). -/
theorem rescale_num {s v : ℕ → Fin B → EReal} {n : ℕ} (hs : ∀ t < n, ∀ u, ∃ r : ℝ, s t u = (r : EReal))
    (hv : ∀ t < n, ∀ u, ∃ r : ℝ, v t u = (r : EReal)) (c d : ℝ) :
    Ideal.exp ((c : EReal) - (d : EReal)) * ∑ t ∈ Finset.range n, ∑ u, Ideal.exp (s t u - (c : EReal)) * v t u
      = ∑ t ∈ Finset.range n, ∑ u, Ideal.exp (s t u - (d : EReal)) * v t u := by
  rw [num_coe hs hv c, num_coe hs hv d, exp_coe_sub, ← EReal.coe_mul, EReal.coe_eq_coe_iff, Finset.mul_sum]
  refine Finset.sum_congr rfl fun t _ => ?_
  rw [Finset.mul_sum]
  refine Finset.sum_congr rfl fun u _ => ?_
  rw [← mul_assoc, ← Real.exp_add]
  congr 2; ring

/-! ### The state after n tiles -/

/-- After n tiles whose scores and values are real numbers, the running maximum is M n and the two running sums are the
    sums over all n tiles taken against M n. (True for n = 0 as well: −∞, 0, 0.) -/
theorem state_eq {s v : ℕ → Fin B → EReal} (hB : 0 < B) :
    ∀ n : ℕ, (∀ t < n, ∀ u, ∃ r : ℝ, s t u = (r : EReal)) → (∀ t < n, ∀ u, ∃ r : ℝ, v t u = (r : EReal)) →
      state s v n = ⟨M s n, ∑ t ∈ Finset.range n, ∑ u, Ideal.exp (s t u - M s n),
                     ∑ t ∈ Finset.range n, ∑ u, Ideal.exp (s t u - M s n) * v t u⟩ := by
  intro n
  induction n with
  | zero => intro _ _; simp
  | succ n ih =>
    intro hs hv
    have hs' : ∀ t < n, ∀ u, ∃ r : ℝ, s t u = (r : EReal) := fun t ht => hs t (by omega)
    have hv' : ∀ t < n, ∀ u, ∃ r : ℝ, v t u = (r : EReal) := fun t ht => hv t (by omega)
    obtain ⟨m', hm'⟩ := M_isReal hB (n := n + 1) (by omega) hs
    have hmax : max (M s n) (Finset.univ.sup (s n)) = (m' : EReal) := by rw [← M_succ, hm']
    have hd : Ideal.exp (M s n - (m' : EReal)) * ∑ t ∈ Finset.range n, ∑ u, Ideal.exp (s t u - M s n)
        = ∑ t ∈ Finset.range n, ∑ u, Ideal.exp (s t u - (m' : EReal)) := by
      rcases Nat.eq_zero_or_pos n with rfl | hn
      · simp
      · obtain ⟨m, hm⟩ := M_isReal hB hn hs'
        rw [hm]; exact rescale_den hs' m m'
    have ha : Ideal.exp (M s n - (m' : EReal)) * ∑ t ∈ Finset.range n, ∑ u, Ideal.exp (s t u - M s n) * v t u
        = ∑ t ∈ Finset.range n, ∑ u, Ideal.exp (s t u - (m' : EReal)) * v t u := by
      rcases Nat.eq_zero_or_pos n with rfl | hn
      · simp
      · obtain ⟨m, hm⟩ := M_isReal hB hn hs'
        rw [hm]; exact rescale_num hs' hv' m m'
    rw [state_succ, ih hs' hv']
    dsimp only
    rw [hmax, hm', Finset.sum_range_succ, Finset.sum_range_succ, hd, ha]

/-- The running maximum after n ≥ 1 tiles is the maximum M n of all their scores, a real number. -/
theorem max_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).m = M s n ∧ ∃ r : ℝ, M s n = (r : EReal) :=
  ⟨by rw [state_eq hB n hs hv], M_isReal hB hn hs⟩

/-- The running denominator after n ≥ 1 tiles is the sum of exp (s t u − M n) over all their positions, a positive
    real number. -/
theorem den_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).l = ∑ t ∈ Finset.range n, ∑ u, Ideal.exp (s t u - M s n)
      ∧ ∃ r : ℝ, 0 < r ∧ (state s v n).l = (r : EReal) := by
  have h : (state s v n).l = ∑ t ∈ Finset.range n, ∑ u, Ideal.exp (s t u - M s n) := by rw [state_eq hB n hs hv]
  refine ⟨h, ?_⟩
  obtain ⟨m, hm⟩ := M_isReal hB hn hs
  refine ⟨_, ?_, by rw [h, hm]; exact den_coe hs m⟩
  exact Finset.sum_pos (fun t _ => Finset.sum_pos (fun u _ => Real.exp_pos _) ⟨⟨0, hB⟩, Finset.mem_univ _⟩)
    (Finset.nonempty_range_iff.mpr (by omega))

/-- The running numerator after n ≥ 1 tiles is the sum of exp (s t u − M n) · v t u over all their positions, a real
    number. -/
theorem num_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).a = ∑ t ∈ Finset.range n, ∑ u, Ideal.exp (s t u - M s n) * v t u
      ∧ ∃ r : ℝ, (state s v n).a = (r : EReal) := by
  have h : (state s v n).a = ∑ t ∈ Finset.range n, ∑ u, Ideal.exp (s t u - M s n) * v t u := by
    rw [state_eq hB n hs hv]
  obtain ⟨m, hm⟩ := M_isReal hB hn hs
  exact ⟨h, _, by rw [h, hm]; exact num_coe hs hv m⟩

/-! ### The quotient of the sums is the sum of the quotients -/

/-- Dividing a finite sum of products of real numbers by a nonzero real number divides the first factor of each term. -/
theorem div_sum {ι : Type*} (S : Finset ι) (a b : ι → EReal) (ha : ∀ i ∈ S, ∃ r : ℝ, a i = (r : EReal))
    (hb : ∀ i ∈ S, ∃ r : ℝ, b i = (r : EReal)) {L : ℝ} (hL : L ≠ 0) :
    Ideal.div (∑ i ∈ S, a i * b i) (L : EReal) = ∑ i ∈ S, Ideal.div (a i) (L : EReal) * b i := by
  simp only [Ideal.div_coe hL]
  have e1 : ∑ i ∈ S, a i * b i = ((∑ i ∈ S, (a i).toReal * (b i).toReal : ℝ) : EReal) := by
    rw [coe_finset_sum]
    refine Finset.sum_congr rfl fun i hi => ?_
    obtain ⟨r, hr⟩ := ha i hi
    obtain ⟨q, hq⟩ := hb i hi
    rw [hr, hq, EReal.toReal_coe, EReal.toReal_coe, EReal.coe_mul]
  have e2 : ∑ i ∈ S, a i * ((1 / L : ℝ) : EReal) * b i
      = ((∑ i ∈ S, (a i).toReal * (1 / L) * (b i).toReal : ℝ) : EReal) := by
    rw [coe_finset_sum]
    refine Finset.sum_congr rfl fun i hi => ?_
    obtain ⟨r, hr⟩ := ha i hi
    obtain ⟨q, hq⟩ := hb i hi
    rw [hr, hq, EReal.toReal_coe, EReal.toReal_coe, EReal.coe_mul, EReal.coe_mul]
  rw [e1, e2, ← EReal.coe_mul, EReal.coe_eq_coe_iff, Finset.sum_mul]
  exact Finset.sum_congr rfl fun i _ => by ring

/-- The same over a whole finite index type: (Σ_j a j · b j) / L = Σ_j (a j / L) · b j for real a, b and a real L ≠ 0. -/
theorem div_sum_univ {ι : Type*} [Fintype ι] (a b : ι → EReal) (ha : ∀ j, ∃ r : ℝ, a j = (r : EReal))
    (hb : ∀ j, ∃ r : ℝ, b j = (r : EReal)) {L : ℝ} (hL : L ≠ 0) :
    Ideal.div (∑ j, a j * b j) (L : EReal) = ∑ j, Ideal.div (a j) (L : EReal) * b j :=
  div_sum Finset.univ a b (fun j _ => ha j) (fun j _ => hb j) hL

/-- After n ≥ 1 tiles the quotient numerator / denominator is the sum, over all positions of the n tiles, of the softmax
    weight exp (s t u − M n) / Σ exp (s t' u' − M n) times the value v t u. -/
theorem quot_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    Ideal.div (state s v n).a (state s v n).l
      = ∑ t ∈ Finset.range n, ∑ u,
          Ideal.div (Ideal.exp (s t u - M s n)) (∑ t' ∈ Finset.range n, ∑ u', Ideal.exp (s t' u' - M s n)) * v t u := by
  obtain ⟨hl, L, hLpos, hL⟩ := den_eq hB hn hs hv
  obtain ⟨m, hm⟩ := M_isReal hB hn hs
  rw [(num_eq hB hn hs hv).1, ← hl, hL, hm, ← Finset.sum_product', ← Finset.sum_product']
  refine div_sum _ (fun p : ℕ × Fin B => Ideal.exp (s p.1 p.2 - (m : EReal))) (fun p : ℕ × Fin B => v p.1 p.2)
    (fun p hp => ?_) (fun p hp => ?_)
    hLpos.ne'
  · obtain ⟨r, hr⟩ := hs p.1 (Finset.mem_range.mp (Finset.mem_product.mp hp).1) p.2
    exact ⟨_, by rw [hr, exp_coe_sub]⟩
  · exact hv p.1 (Finset.mem_range.mp (Finset.mem_product.mp hp).1) p.2

/-! ### One flat index

A row of T · B entries is cut into T tiles of width B: position u of tile t is the entry j = u + B · t. -/

/-- The flat position of entry u of tile t is u + B · t. -/
theorem flat_val {T : ℕ} (t : Fin T) (u : Fin B) : (finProdFinEquiv (t, u) : Fin (T * B)).val = u.val + B * t.val := rfl

/-- The flat position of entry u of tile t, written as a bounded number. -/
theorem flat_mk {T : ℕ} (t : ℕ) (ht : t < T) (u : Fin B) (h : u.val + B * t < T * B) :
    (finProdFinEquiv ((⟨t, ht⟩ : Fin T), u) : Fin (T * B)) = ⟨u.val + B * t, h⟩ := rfl

/-- The tiles of a flat row f: position u of tile t < T is the entry u + B · t; tiles from T on are filled with z. -/
def tiles {T : ℕ} (f : Fin (T * B) → EReal) (z : EReal) (t : ℕ) (u : Fin B) : EReal :=
  if h : t < T then f (finProdFinEquiv (⟨t, h⟩, u)) else z

/-- A tile before T reads the flat row. -/
theorem tiles_of_lt {T : ℕ} (f : Fin (T * B) → EReal) (z : EReal) (t : ℕ) (ht : t < T) (u : Fin B) :
    tiles f z t u = f (finProdFinEquiv (⟨t, ht⟩, u)) := dif_pos ht

/-- Summing over the T tiles and the B positions of each is summing over the flat index. -/
theorem sum_tiles {T : ℕ} (G : ℕ → Fin B → EReal) (H : Fin (T * B) → EReal)
    (h : ∀ (t : ℕ) (ht : t < T) (u : Fin B), G t u = H (finProdFinEquiv (⟨t, ht⟩, u))) :
    ∑ t ∈ Finset.range T, ∑ u, G t u = ∑ j, H j := by
  rw [Finset.sum_range, ← Fintype.sum_prod_type', ← Equiv.sum_comp finProdFinEquiv H]
  exact Fintype.sum_congr _ _ fun p => h p.1 p.1.2 p.2

/-- The maximum over the T tiles is the maximum over the flat index. -/
theorem M_flat {T : ℕ} {s : ℕ → Fin B → EReal} {f : Fin (T * B) → EReal}
    (hs : ∀ (t : ℕ) (ht : t < T) (u : Fin B), s t u = f (finProdFinEquiv (⟨t, ht⟩, u))) :
    M s T = Finset.univ.sup f := by
  apply le_antisymm
  · refine Finset.sup_le fun t ht => Finset.sup_le fun u _ => ?_
    rw [hs t (Finset.mem_range.mp ht) u]
    exact Finset.le_sup (Finset.mem_univ _)
  · refine Finset.sup_le fun j _ => ?_
    obtain ⟨⟨t, u⟩, rfl⟩ := finProdFinEquiv.surjective j
    calc f (finProdFinEquiv (t, u)) = s t.1 u := (hs t.1 t.2 u).symm
      _ ≤ Finset.univ.sup (s t.1) := Finset.le_sup (Finset.mem_univ u)
      _ ≤ M s T := Finset.le_sup (f := fun t => Finset.univ.sup (s t)) (Finset.mem_range.mpr t.2)

/-- The online softmax of a flat row. When the tiles s, v read the real rows f, g (position u of tile t is the entry
    u + B · t), after all T ≥ 1 tiles the quotient numerator / denominator is the two-pass softmax of f against g:
    the sum over j of exp (f j − max f) / Σ_j' exp (f j' − max f) times g j. -/
theorem quot_eq_flat {T : ℕ} {s v : ℕ → Fin B → EReal} {f g : Fin (T * B) → EReal} (hB : 0 < B) (hT : 1 ≤ T)
    (hf : ∀ j, ∃ r : ℝ, f j = (r : EReal)) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    Ideal.div (state s v T).a (state s v T).l
      = ∑ j, Ideal.div (Ideal.exp (f j - Finset.univ.sup f)) (∑ j', Ideal.exp (f j' - Finset.univ.sup f)) * g j := by
  have hsr : ∀ t < T, ∀ u, ∃ r : ℝ, s t u = (r : EReal) := fun t ht u => by rw [hs t ht u]; exact hf _
  have hvr : ∀ t < T, ∀ u, ∃ r : ℝ, v t u = (r : EReal) := fun t ht u => by rw [hv t ht u]; exact hg _
  have hD : ∑ t' ∈ Finset.range T, ∑ u', Ideal.exp (s t' u' - Finset.univ.sup f)
      = ∑ j', Ideal.exp (f j' - Finset.univ.sup f) :=
    sum_tiles _ _ fun t ht u => by rw [hs t ht u]
  rw [quot_eq hB hT hsr hvr, M_flat hs, hD]
  exact sum_tiles _ _ fun t ht u => by rw [hs t ht u, hv t ht u]

/-- The online softmax of a flat row, for the tiles cut from the flat rows themselves. -/
theorem quot_eq_tiles {T : ℕ} {f g : Fin (T * B) → EReal} (hB : 0 < B) (hT : 1 ≤ T)
    (hf : ∀ j, ∃ r : ℝ, f j = (r : EReal)) (hg : ∀ j, ∃ r : ℝ, g j = (r : EReal)) (z z' : EReal) :
    Ideal.div (state (tiles f z) (tiles g z') T).a (state (tiles f z) (tiles g z') T).l
      = ∑ j, Ideal.div (Ideal.exp (f j - Finset.univ.sup f)) (∑ j', Ideal.exp (f j' - Finset.univ.sup f)) * g j :=
  quot_eq_flat hB hT hf hg (tiles_of_lt f z) (tiles_of_lt g z')

/-- The state after n tiles only reads the tiles before n. -/
theorem state_congr {s s' v v' : ℕ → Fin B → EReal} :
    ∀ n : ℕ, (∀ t < n, s t = s' t) → (∀ t < n, v t = v' t) → state s v n = state s' v' n
  | 0, _, _ => rfl
  | n + 1, hs, hv => by
    have ih := state_congr n (fun t ht => hs t (by omega)) (fun t ht => hv t (by omega))
    rw [state_succ, state_succ, ih, hs n (by omega), hv n (by omega)]

/-- The state after all T tiles of the flat real rows f, g: the maximum of f, the sum of exp (f j − max f) and the sum of
    exp (f j − max f) · g j. -/
theorem state_flat {T : ℕ} {s v : ℕ → Fin B → EReal} {f g : Fin (T * B) → EReal} (hB : 0 < B)
    (hf : ∀ j, ∃ r : ℝ, f j = (r : EReal)) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    state s v T = ⟨Finset.univ.sup f, ∑ j, Ideal.exp (f j - Finset.univ.sup f),
                   ∑ j, Ideal.exp (f j - Finset.univ.sup f) * g j⟩ := by
  have hsr : ∀ t < T, ∀ u, ∃ r : ℝ, s t u = (r : EReal) := fun t ht u => by rw [hs t ht u]; exact hf _
  have hvr : ∀ t < T, ∀ u, ∃ r : ℝ, v t u = (r : EReal) := fun t ht u => by rw [hv t ht u]; exact hg _
  have hD : ∑ t ∈ Finset.range T, ∑ u, Ideal.exp (s t u - Finset.univ.sup f)
      = ∑ j, Ideal.exp (f j - Finset.univ.sup f) :=
    sum_tiles _ _ fun t ht u => by rw [hs t ht u]
  have hN : ∑ t ∈ Finset.range T, ∑ u, Ideal.exp (s t u - Finset.univ.sup f) * v t u
      = ∑ j, Ideal.exp (f j - Finset.univ.sup f) * g j :=
    sum_tiles _ _ fun t ht u => by rw [hs t ht u, hv t ht u]
  rw [state_eq hB T hsr hvr, M_flat hs, hD, hN]

/-- The maximum of a real row over a nonempty finite index type is a real number. -/
theorem sup_univ_isReal {ι : Type*} [Fintype ι] [Nonempty ι] (f : ι → EReal) (hf : ∀ j, ∃ r : ℝ, f j = (r : EReal)) :
    ∃ r : ℝ, Finset.univ.sup f = (r : EReal) :=
  sup_isReal _ Finset.univ_nonempty f fun j _ => hf j

/-- The denominator of the two-pass softmax of a real row over a nonempty finite index type, the sum of
    exp (f j − max f), is a positive real number. -/
theorem softmax_den_pos {ι : Type*} [Fintype ι] [Nonempty ι] (f : ι → EReal) (hf : ∀ j, ∃ r : ℝ, f j = (r : EReal)) :
    ∃ r : ℝ, 0 < r ∧ ∑ j, Ideal.exp (f j - Finset.univ.sup f) = (r : EReal) := by
  obtain ⟨m, hm⟩ := sup_univ_isReal f hf
  refine ⟨∑ j, Real.exp ((f j).toReal - m), Finset.sum_pos (fun j _ => Real.exp_pos _) Finset.univ_nonempty, ?_⟩
  rw [hm, coe_finset_sum]
  refine Finset.sum_congr rfl fun j _ => ?_
  obtain ⟨r, hr⟩ := hf j
  rw [hr, exp_coe_sub, EReal.toReal_coe]

end Cert.LibOnlineSoftmax

end
-- ==== Proof.IValR1Spec.lean ====
/-
  The attention region's output array, as the online recurrence of each row.

  For head h, query row r and feature e, the scores against key column 512·t + u of tile t and the values of that column are
    s (t, u) = Σ_e' Q (h, r, e') · K (h, e', 512·t + u),        v (t, u) = Vh (h, 512·t + u, e),
  and the output entry (h, r, e) is the quotient a / l of the running weighted sum by the running sum after the eight tiles of
  the recurrence that starts from (−∞, 0, 0) and, per tile, raises the maximum, rescales what was accumulated and adds the
  tile's weights and weighted values.
-/
import proofs.«126686_j77318001263092_2_alg».proof.Proof.IFrameR1
import proofs.«126686_j77318001263092_2_alg».proof.Proof.LibOnlineSoftmax
import Idealize.ShloMosaic.Lib.ValueIdx
import Idealize.ShloMosaic.PureOps.Ideal

noncomputable section

namespace Cert.KernelIdeal.Hand

open Cert.KernelIdeal Cert.KernelIdeal.Gen
open Idealize.ShloMosaic Idealize.ShloMosaic.TcCoe Idealize.ShloMosaic.ValueIdx
open Cert.LibOnlineSoftmax (state)

/-- The scores of query row `r` of head `h`, tile by tile (tile `t`, lane `u` is key column 512·t + u). -/
def sT (Qh : S10x4096x64.Idx → EReal) (Kh : S10x64x4096.Idx → EReal) (h : Fin 10) (r : Fin 4096) : ℕ → Fin 512 → EReal :=
  fun t u => ∑ e' : Fin 64, Qh (ix3 h r e') * Kh (ix3 h e' (⟨(u.val + 512 * t) % 4096, Nat.mod_lt _ (by norm_num)⟩ : Fin 4096))
/-- Feature `e` of the value rows of head `h`, tile by tile. -/
def vT (Vh : S10x4096x64.Idx → EReal) (h : Fin 10) (e : Fin 64) : ℕ → Fin 512 → EReal :=
  fun t u => Vh (ix3 h (⟨(u.val + 512 * t) % 4096, Nat.mod_lt _ (by norm_num)⟩ : Fin 4096) e)
/-- The quotient the recurrence leaves after the eight tiles, entry by entry. -/
def onlineOut (Qh : S10x4096x64.Idx → EReal) (Kh : S10x64x4096.Idx → EReal) (Vh : S10x4096x64.Idx → EReal) : S10x4096x64.Idx → EReal :=
  fun y => Ideal.div (state (sT Qh Kh (y 0) (y 1)) (vT Vh (y 0) (y 2)) 8).a (state (sT Qh Kh (y 0) (y 1)) (vT Vh (y 0) (y 2)) 8).l

end Cert.KernelIdeal.Hand

end
-- ==== Proof.IValR1Blocks.lean ====
/-
  The attention kernel's blocks, at the ideal values: what each staged input block holds at a grid point, entry by
  entry, in terms of the three arrays as the region finds them; and the step from the output blocks to the output array.

  The grid is 10 heads by 8 key/value tiles; point t is head t / 8, tile t % 8. The query block of a point is the head's
  whole [4096, 64] slab; the key block is columns 512 · (t % 8) … of the head's [64, 4096] slab; the value block is rows
  512 · (t % 8) … of the head's [4096, 64] slab. The output is written back at a head's last tile only, as the head's
  whole slab; the ten heads' slabs fill the array, so the array after the region is any function whose slab of head h
  is what the body left at point 8 · h + 7.
-/
import proofs.«126686_j77318001263092_2_alg».proof.Proof.IFrameR1
import proofs.«126686_j77318001263092_2_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The grid and the index maps -/

/-- The grid has 80 points. -/
theorem lt80 (t : Fin cfg1.N) : t.val < 80 := by
  have h : t.val < grid1.N := t.isLt
  rwa [N_1] at h

/-- The head of a point is below 10. -/
theorem head_lt (t : Fin cfg1.N) : t.val / 8 < 10 := by have := lt80 t; omega

/-- The tile's first column or row plus an offset inside the tile is below 4096. -/
theorem tile_lt (t : Fin cfg1.N) (u : Fin 512) : 512 * (t.val % 8) + u.val < 4096 := by have := u.isLt; omega

/-- The printed index maps, decided over the 80 points: every window's block index on the head axis is the point's head;
    the key window's block index on its last axis and the value window's on its middle axis are the point's tile; the
    other block indices are zero. -/
theorem idx_facts1 : ∀ t : Fin cfg1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = 0 ∧ win1_1.index t (2 : Fin 3) = t.val % 8
    ∧ win1_2.index t (0 : Fin 3) = t.val / 8 ∧ win1_2.index t (1 : Fin 3) = t.val % 8 ∧ win1_2.index t (2 : Fin 3) = 0
    ∧ win1_3.index t (0 : Fin 3) = t.val / 8 ∧ win1_3.index t (1 : Fin 3) = 0 ∧ win1_3.index t (2 : Fin 3) = 0 :=
  (by decide +kernel : ∀ t : Fin grid1.N, _)

-- the TensorCore's buffer contents when the region is entered
variable (V : (c : Dev nD) → (b : Ref sig .tc) → Buf (Elt Ideal) ((c : Thread nD τ).loc b))

/-! ## The input blocks, entry by entry -/

/-- The query block at point `t` is the slab of head `t / 8`. -/
theorem blk1_0 (c : Dev nD) (t : Fin cfg1.N) (r : Fin 4096) (e : Fin 64) :
    iblk1 V c 0 t (ix3 (0 : Fin 1) r e) = V c main_v1 (ix3 (⟨t.val / 8, head_lt t⟩ : Fin 10) r e) := by
  obtain ⟨e00, e01, e02, e10, e11, e12, e20, e21, e22, e30, e31, e32⟩ := idx_facts1 t
  show V c main_v1 (((cfg1.win 0).blk t).view.emb (ix3 (0 : Fin 1) r e)) = _
  refine congrArg (V c main_v1) (funext fun a => Fin.ext ?_)
  match a with
  | ⟨0, _⟩ => show win1_0.index t (0 : Fin 3) * 1 + 1 * ((0 : Fin 1) : Nat) = t.val / 8; omega
  | ⟨1, _⟩ => show win1_0.index t (1 : Fin 3) * 4096 + 1 * r.val = r.val; omega
  | ⟨2, _⟩ => show win1_0.index t (2 : Fin 3) * 64 + 1 * e.val = e.val; omega

/-- The key block at point `t` is columns 512 · (t % 8) … of the slab of head `t / 8`. -/
theorem blk1_1 (c : Dev nD) (t : Fin cfg1.N) (e : Fin 64) (u : Fin 512) :
    iblk1 V c 1 t (ix3 (0 : Fin 1) e u)
      = V c main_v3 (ix3 (⟨t.val / 8, head_lt t⟩ : Fin 10) e (⟨512 * (t.val % 8) + u.val, tile_lt t u⟩ : Fin 4096)) := by
  obtain ⟨e00, e01, e02, e10, e11, e12, e20, e21, e22, e30, e31, e32⟩ := idx_facts1 t
  show V c main_v3 (((cfg1.win 1).blk t).view.emb (ix3 (0 : Fin 1) e u)) = _
  refine congrArg (V c main_v3) (funext fun a => Fin.ext ?_)
  match a with
  | ⟨0, _⟩ => show win1_1.index t (0 : Fin 3) * 1 + 1 * ((0 : Fin 1) : Nat) = t.val / 8; omega
  | ⟨1, _⟩ => show win1_1.index t (1 : Fin 3) * 64 + 1 * e.val = e.val; omega
  | ⟨2, _⟩ => show win1_1.index t (2 : Fin 3) * 512 + 1 * u.val = 512 * (t.val % 8) + u.val; omega

/-- The value block at point `t` is rows 512 · (t % 8) … of the slab of head `t / 8`. -/
theorem blk1_2 (c : Dev nD) (t : Fin cfg1.N) (u : Fin 512) (e : Fin 64) :
    iblk1 V c 2 t (ix3 (0 : Fin 1) u e)
      = V c main_v4 (ix3 (⟨t.val / 8, head_lt t⟩ : Fin 10) (⟨512 * (t.val % 8) + u.val, tile_lt t u⟩ : Fin 4096) e) := by
  obtain ⟨e00, e01, e02, e10, e11, e12, e20, e21, e22, e30, e31, e32⟩ := idx_facts1 t
  show V c main_v4 (((cfg1.win 2).blk t).view.emb (ix3 (0 : Fin 1) u e)) = _
  refine congrArg (V c main_v4) (funext fun a => Fin.ext ?_)
  match a with
  | ⟨0, _⟩ => show win1_2.index t (0 : Fin 3) * 1 + 1 * ((0 : Fin 1) : Nat) = t.val / 8; omega
  | ⟨1, _⟩ => show win1_2.index t (1 : Fin 3) * 512 + 1 * u.val = 512 * (t.val % 8) + u.val; omega
  | ⟨2, _⟩ => show win1_2.index t (2 : Fin 3) * 64 + 1 * e.val = e.val; omega

/-! ## From the output blocks to the output array -/

/-- An index of the output array is in point `t`'s block iff each coordinate is in the block's range on its axis. -/
theorem mem_blk1_3 (t : Fin cfg1.N) (i : S10x4096x64.Idx) :
    i ∈ ((cfg1.win 3).blk t).view.set ↔ ∀ a : Fin 3, win1_3.index t a * S1x4096x64.size a ≤ (i a).val ∧ (i a).val < win1_3.index t a * S1x4096x64.size a + S1x4096x64.size a := by
  show i ∈ ((View.whole main_v5).slice (win1_3.rect t)).set ↔ _
  rw [View.set_slice_whole, Rect.mem_set_unit]
  exact Iff.rfl

/-- Head `h`'s slab is the block of point 8 · h + 7, which writes back: the ten slabs fill the array. -/
theorem cover1_3 (i : S10x4096x64.Idx) :
    ∃ t : Fin cfg1.N, (cfg1.win 3).flush t = true ∧ i ∈ ((cfg1.win 3).blk t).view.set := by
  have hi0 : (i 0).val < 10 := (i 0).isLt
  have hi1 : (i 1).val < 4096 := (i 1).isLt
  have hi2 : (i 2).val < 64 := (i 2).isLt
  have ht : 8 * (i 0).val + 7 < grid1.N := by rw [N_1]; omega
  refine ⟨⟨8 * (i 0).val + 7, ht⟩, (flush1_3 _).mpr (by show (8 * (i 0).val + 7) % 8 = 7; omega), ?_⟩
  rw [mem_blk1_3]
  obtain ⟨e00, e01, e02, e10, e11, e12, e20, e21, e22, e30, e31, e32⟩ := idx_facts1 ⟨8 * (i 0).val + 7, ht⟩
  have e30' : win1_3.index ⟨8 * (i 0).val + 7, ht⟩ (0 : Fin 3) = (8 * (i 0).val + 7) / 8 := e30
  intro a
  match a with
  | ⟨0, _⟩ =>
    show win1_3.index ⟨8 * (i 0).val + 7, ht⟩ (0 : Fin 3) * 1 ≤ (i 0).val
      ∧ (i 0).val < win1_3.index ⟨8 * (i 0).val + 7, ht⟩ (0 : Fin 3) * 1 + 1
    omega
  | ⟨1, _⟩ =>
    show win1_3.index ⟨8 * (i 0).val + 7, ht⟩ (1 : Fin 3) * 4096 ≤ (i 1).val
      ∧ (i 1).val < win1_3.index ⟨8 * (i 0).val + 7, ht⟩ (1 : Fin 3) * 4096 + 4096
    omega
  | ⟨2, _⟩ =>
    show win1_3.index ⟨8 * (i 0).val + 7, ht⟩ (2 : Fin 3) * 64 ≤ (i 2).val
      ∧ (i 2).val < win1_3.index ⟨8 * (i 0).val + 7, ht⟩ (2 : Fin 3) * 64 + 64
    omega

/-- The output array after the region is `Gout` as soon as the block the body leaves at each head's last tile is
    `Gout`'s slab of that head. -/
theorem arr1_3_of (c : Dev nD) (Gout : S10x4096x64.Idx → EReal)
    (hfl : ∀ t : Fin cfg1.N, t.val % 8 = 7 → ∀ (r : Fin 4096) (e : Fin 64),
      (dat1 V c).after 3 t (ix3 (0 : Fin 1) r e) = Gout (ix3 (⟨t.val / 8, head_lt t⟩ : Fin 10) r e)) :
    (dat1 V c).arrAt 3 cfg1.N = Gout := by
  refine (dat1 V c).arrAt_eq_of_cover 3 Gout (fun t hf => ?_) cover1_3
  have h7 : t.val % 8 = 7 := (flush1_3 t).mp hf
  obtain ⟨e00, e01, e02, e10, e11, e12, e20, e21, e22, e30, e31, e32⟩ := idx_facts1 t
  show (cfg1.win 3).cut (grid1.coords t) ((dat1 V c).after 3 t) = _
  funext j
  obtain ⟨z, r, e, rfl⟩ : ∃ (z : Fin 1) (r : Fin 4096) (e : Fin 64), j = ix3 z r e := ⟨j 0, j 1, j 2, eq_ix3 j⟩
  obtain rfl : z = 0 := Subsingleton.elim _ _
  show (dat1 V c).after 3 t (ix3 (0 : Fin 1) r e) = Gout (((cfg1.win 3).blk t).view.emb (ix3 (0 : Fin 1) r e))
  rw [hfl t h7 r e]
  refine congrArg Gout (funext fun a => Fin.ext ?_)
  match a with
  | ⟨0, _⟩ => show t.val / 8 = win1_3.index t (0 : Fin 3) * 1 + 1 * ((0 : Fin 1) : Nat); omega
  | ⟨1, _⟩ => show r.val = win1_3.index t (1 : Fin 3) * 4096 + 1 * r.val; omega
  | ⟨2, _⟩ => show e.val = win1_3.index t (2 : Fin 3) * 64 + 1 * e.val; omega

end Cert.KernelIdeal.Hand

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.IValR1Chunk.lean ====
/-
  One chunk of the attention body's update, as mathematics on the extended reals.

  For a key tile K (64 × 512), a value tile Vt (512 × 64), a chunk of 1024 query rows q (given with a leading unit axis),
  and the chunk's rows of the three running quantities — maxima m, sums l, weighted sums a — the body computes
    S (ρ, u)  = Σ_e q (ρ, e) · K (e, u)                         the scores of the chunk's rows against the tile,
    m' (ρ)    = max (m (ρ)) (sup_u S (ρ, u))                    the new running maximum,
    α (ρ)     = exp (m (ρ) − m' (ρ))                            the rescaling of what was accumulated before,
    P (ρ, u)  = exp (S (ρ, u) − m' (ρ))                         the tile's unnormalised weights,
    l' (ρ)    = α (ρ) · l (ρ) + Σ_u P (ρ, u),
    a' (ρ, e) = α (ρ) · a (ρ, e) + Σ_u P (ρ, u) · Vt (u, e).
  Each is defined here by the operations the program prints (a matrix product into the zero accumulator, a lane maximum
  from −∞ and a lane sum from 0 re-read as columns, a column broadcast across the lanes) and read at an index as the formula
  above. Nothing here needs finiteness.
-/
import proofs.«126686_j77318001263092_2_alg».proof.Proof.Gen.KernelIdeal.Skeleton
import proofs.«126686_j77318001263092_2_alg».proof.Proof.LibDot
import proofs.«126686_j77318001263092_2_alg».proof.Proof.LibColumn
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

variable {F : FTy → Type} [FloatOps F]

/-! ## The chunk's quantities, by the printed operations -/

/-- The chunk's scores against the tile. -/
def chS (K : FVec F S64x512 .bf16) (q : Vec F S1x1024x64 .bf16) : FVec F S1024x512 .f32 :=
  matmul dot_S1024x64_S64x512_S1024x512_1_0_0_1_n_n none (shapeCast S1024x64 q shapeCasts_S1x1024x64_S1024x64) K
    (constant S1024x512 .f32 0x00000000#32)
/-- The new running maximum. -/
def chM (K : FVec F S64x512 .bf16) (q : Vec F S1x1024x64 .bf16) (mo : Vec F S1024x1 .f32) : FVec F S1024x1 .f32 :=
  maximumf mo (shapeCast S1024x1 (multiReduction .maximumf [1] S1024 (chS K q) 0xFF800000#32 reduces_S1024x512_S1024 (.inl rfl) rfl)
    shapeCasts_S1024_S1024x1)
/-- The rescaling factor of what was accumulated before. -/
def chAl (K : FVec F S64x512 .bf16) (q : Vec F S1x1024x64 .bf16) (mo : Vec F S1024x1 .f32) : FVec F S1024x1 .f32 :=
  exp (subf mo (chM K q mo))
/-- The tile's unnormalised weights. -/
def chP (K : FVec F S64x512 .bf16) (q : Vec F S1x1024x64 .bf16) (mo : Vec F S1024x1 .f32) : FVec F S1024x512 .f32 :=
  exp (subf (chS K q) (broadcastTo S1024x512 (chM K q mo) broadcasts_S1024x1_S1024x512))
/-- The new running sum. -/
def chL (K : FVec F S64x512 .bf16) (q : Vec F S1x1024x64 .bf16) (mo lo : Vec F S1024x1 .f32) : FVec F S1024x1 .f32 :=
  addf (mulf (chAl K q mo) lo)
    (shapeCast S1024x1 (multiReduction .add [1] S1024 (chP K q mo) 0x00000000#32 reduces_S1024x512_S1024 (.inl rfl) rfl) shapeCasts_S1024_S1024x1)
/-- The new running weighted sum of value rows. -/
def chA (K : FVec F S64x512 .bf16) (Vt : FVec F S512x64 .bf16) (q : Vec F S1x1024x64 .bf16) (mo : Vec F S1024x1 .f32)
    (ao : Vec F S1024x64 .f32) : FVec F S1024x64 .f32 :=
  addf (mulf (broadcastTo S1024x64 (chAl K q mo) broadcasts_S1024x1_S1024x64) ao)
    (matmul dot_S1024x512_S512x64_S1024x64_1_0_0_1_n_n none (truncf .bf16 (chP K q mo) bitsLt_bf16_f32) Vt (constant S1024x64 .f32 0x00000000#32))

/-! ## Read at an index, on the extended reals -/

/-- The word of −∞ denotes the bottom element. -/
theorem ofBits_negInf : Ideal.ofBits .f32 0xFF800000#32 = (⊥ : EReal) := by simp [Ideal.ofBits, Ideal.ieee]

/-- A score: row `ρ` of the chunk against column `u` of the tile. -/
theorem chS_apply (K : FVec Ideal S64x512 .bf16) (q : Vec Ideal S1x1024x64 .bf16) (ρ : Fin 1024) (u : Fin 512) :
    chS K q (ix2 ρ u) = ∑ e : Fin 64, q (ix3 (0 : Fin 1) ρ e) * K (ix2 e u) := by
  unfold chS
  refine (Cert.LibDot.matmul_zero_plain_apply dot_S1024x64_S64x512_S1024x512_1_0_0_1_n_n rfl rfl rfl rfl rfl rfl none _ K (ix2 ρ u)).trans ?_
  refine Finset.sum_congr rfl fun e _ => ?_
  congr 1
  exact shapeCast_apply q shapeCasts_S1x1024x64_S1024x64 (ix2 ρ e) (ix3 (0 : Fin 1) ρ e) (by
    rw [Shape.rowMajor_val_two, Shape.rowMajor_val_three]
    show (0 * 1024 + ρ.val) * 64 + e.val = ρ.val * 64 + e.val
    omega)

/-- The index of a 1024 × 512 block over row `ρ` of its lane reduction, at lane `k`: (ρ, k). -/
theorem lift_row (ρ : Fin 1024) (k : Fin 512) : reduces_S1024x512_S1024.lift (ix1 ρ) k = ix2 ρ k :=
  funext fun c => Fin.ext (by match c with | ⟨0, _⟩ => rfl | ⟨1, _⟩ => rfl)

/-- The lane maximum of a 1024 × 512 block from −∞, re-read as a column: the supremum of the row. -/
theorem laneMax_apply (x : FVec Ideal S1024x512 .f32) (ρ : Fin 1024) :
    shapeCast S1024x1 (multiReduction .maximumf [1] S1024 x 0xFF800000#32 reduces_S1024x512_S1024 (.inl rfl) rfl) shapeCasts_S1024_S1024x1
        (ix2 ρ (0 : Fin 1))
      = Finset.univ.sup fun u : Fin 512 => x (ix2 ρ u) := by
  refine (Cert.LibColumn.shapeCast_a_a1_apply _ shapeCasts_S1024_S1024x1 ρ 0).trans ?_
  refine (Ideal.multiReduction_maximumf_single x 0xFF800000#32 reduces_S1024x512_S1024 (.inl rfl) rfl (ix1 ρ)).trans ?_
  rw [show (FloatOps.ofBits .f32 0xFF800000#32 : Ideal .f32) = (⊥ : EReal) from ofBits_negInf]
  have hf : (x ∘ reduces_S1024x512_S1024.lift (ix1 ρ)) = fun u : Fin 512 => x (ix2 ρ u) :=
    funext fun k => congrArg x (lift_row ρ k)
  rw [hf, Finset.sup_def, Multiset.sup, ← Finset.fold]
  rfl

/-- The lane sum of a 1024 × 512 block from 0, re-read as a column: the sum of the row. -/
theorem laneSum_apply (x : FVec Ideal S1024x512 .f32) (ρ : Fin 1024) :
    shapeCast S1024x1 (multiReduction .add [1] S1024 x 0x00000000#32 reduces_S1024x512_S1024 (.inl rfl) rfl) shapeCasts_S1024_S1024x1
        (ix2 ρ (0 : Fin 1))
      = ∑ u : Fin 512, x (ix2 ρ u) := by
  refine (Cert.LibColumn.shapeCast_a_a1_apply _ shapeCasts_S1024_S1024x1 ρ 0).trans ?_
  refine (Ideal.multiReduction_add_single x 0x00000000#32 reduces_S1024x512_S1024 (.inl rfl) rfl (ix1 ρ)).trans ?_
  exact Finset.sum_congr rfl fun k _ => congrArg x (lift_row ρ k)

theorem chM_apply (K : FVec Ideal S64x512 .bf16) (q : Vec Ideal S1x1024x64 .bf16) (mo : Vec Ideal S1024x1 .f32) (ρ : Fin 1024) :
    chM K q mo (ix2 ρ (0 : Fin 1)) = max (mo (ix2 ρ (0 : Fin 1))) (Finset.univ.sup fun u : Fin 512 => chS K q (ix2 ρ u)) := by
  unfold chM
  rw [maximumf_apply, laneMax_apply]

theorem chAl_apply (K : FVec Ideal S64x512 .bf16) (q : Vec Ideal S1x1024x64 .bf16) (mo : Vec Ideal S1024x1 .f32) (ρ : Fin 1024) :
    chAl K q mo (ix2 ρ (0 : Fin 1)) = Ideal.exp (mo (ix2 ρ (0 : Fin 1)) - chM K q mo (ix2 ρ (0 : Fin 1))) := rfl

theorem chP_apply (K : FVec Ideal S64x512 .bf16) (q : Vec Ideal S1x1024x64 .bf16) (mo : Vec Ideal S1024x1 .f32) (ρ : Fin 1024) (u : Fin 512) :
    chP K q mo (ix2 ρ u) = Ideal.exp (chS K q (ix2 ρ u) - chM K q mo (ix2 ρ (0 : Fin 1))) := by
  unfold chP
  show Ideal.exp (chS K q (ix2 ρ u) - broadcastTo S1024x512 (chM K q mo) broadcasts_S1024x1_S1024x512 (ix2 ρ u)) = _
  rw [Cert.LibColumn.broadcastTo_a1_ab_apply (chM K q mo) broadcasts_S1024x1_S1024x512 ρ u]

theorem chL_apply (K : FVec Ideal S64x512 .bf16) (q : Vec Ideal S1x1024x64 .bf16) (mo lo : Vec Ideal S1024x1 .f32) (ρ : Fin 1024) :
    chL K q mo lo (ix2 ρ (0 : Fin 1))
      = Ideal.exp (mo (ix2 ρ (0 : Fin 1)) - chM K q mo (ix2 ρ (0 : Fin 1))) * lo (ix2 ρ (0 : Fin 1))
        + ∑ u : Fin 512, Ideal.exp (chS K q (ix2 ρ u) - chM K q mo (ix2 ρ (0 : Fin 1))) := by
  unfold chL
  rw [addf_apply, mulf_apply, laneSum_apply, chAl_apply]
  simp only [chP_apply]

theorem chA_apply (K : FVec Ideal S64x512 .bf16) (Vt : FVec Ideal S512x64 .bf16) (q : Vec Ideal S1x1024x64 .bf16)
    (mo : Vec Ideal S1024x1 .f32) (ao : Vec Ideal S1024x64 .f32) (ρ : Fin 1024) (e : Fin 64) :
    chA K Vt q mo ao (ix2 ρ e)
      = Ideal.exp (mo (ix2 ρ (0 : Fin 1)) - chM K q mo (ix2 ρ (0 : Fin 1))) * ao (ix2 ρ e)
        + ∑ u : Fin 512, Ideal.exp (chS K q (ix2 ρ u) - chM K q mo (ix2 ρ (0 : Fin 1))) * Vt (ix2 u e) := by
  unfold chA
  rw [addf_apply, mulf_apply, Cert.LibColumn.broadcastTo_a1_ab_apply (chAl K q mo) broadcasts_S1024x1_S1024x64 ρ e, chAl_apply]
  congr 1
  refine (Cert.LibDot.matmul_zero_plain_apply dot_S1024x512_S512x64_S1024x64_1_0_0_1_n_n rfl rfl rfl rfl rfl rfl none _ Vt (ix2 ρ e)).trans ?_
  refine Finset.sum_congr rfl fun u _ => ?_
  congr 1
  exact chP_apply K q mo ρ u

end Cert.KernelIdeal.Hand

end
-- ==== Proof.IValR1Point.lean ====
/-
  What one grid point of the attention kernel does to its three scratch buffers, and what the head's last point stores,
  as mathematics on the extended reals.

  With the head's query block Q (4096 × 64), the point's key tile K (64 × 512) and value tile Vt (512 × 64), and the
  buffers' contents m, l, a before the point, the contents after the point are, row by row,
    m' (r)    = max (m (r)) (sup_u S (r, u)),                 S (r, u) = Σ_e Q (r, e) · K (e, u),
    l' (r)    = exp (m (r) − m' (r)) · l (r) + Σ_u exp (S (r, u) − m' (r)),
    a' (r, e) = exp (m (r) − m' (r)) · a (r, e) + Σ_u exp (S (r, u) − m' (r)) · Vt (u, e):
  the body updates four chunks of 1024 rows, each by the chunk's formulas, and the four slices it stores tile each
  buffer. At a head's first point the buffers are first overwritten with −∞, 0 and 0; at its last point the output block is
  a' (r, e) / l' (r).
-/
import proofs.«126686_j77318001263092_2_alg».proof.Proof.IFrameR1
import proofs.«126686_j77318001263092_2_alg».proof.Proof.IValR1Chunk

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-! ## The point's update, row by row -/

/-- The score of query row `r` against lane `u` of the key tile. -/
def ptS (x0 : Vec Ideal S1x4096x64 .bf16) (x1 : Vec Ideal S1x64x512 .bf16) (r : Fin 4096) (u : Fin 512) : EReal :=
  ∑ e : Fin 64, x0 (ix3 (0 : Fin 1) r e) * x1 (ix3 (0 : Fin 1) e u)
/-- The running maxima after the point. -/
def ptM (x0 : Vec Ideal S1x4096x64 .bf16) (x1 : Vec Ideal S1x64x512 .bf16) (m : Vec Ideal S4096x1 .f32) : Vec Ideal S4096x1 .f32 :=
  fun y => max (m (ix2 (y 0) (0 : Fin 1))) (Finset.univ.sup fun u : Fin 512 => ptS x0 x1 (y 0) u)
/-- The running sums after the point. -/
def ptL (x0 : Vec Ideal S1x4096x64 .bf16) (x1 : Vec Ideal S1x64x512 .bf16) (m l : Vec Ideal S4096x1 .f32) : Vec Ideal S4096x1 .f32 :=
  fun y => Ideal.exp (m (ix2 (y 0) (0 : Fin 1)) - ptM x0 x1 m (ix2 (y 0) (0 : Fin 1))) * l (ix2 (y 0) (0 : Fin 1))
    + ∑ u : Fin 512, Ideal.exp (ptS x0 x1 (y 0) u - ptM x0 x1 m (ix2 (y 0) (0 : Fin 1)))
/-- The running weighted sums after the point. -/
def ptA (x0 : Vec Ideal S1x4096x64 .bf16) (x1 : Vec Ideal S1x64x512 .bf16) (x2 : Vec Ideal S1x512x64 .bf16)
    (m : Vec Ideal S4096x1 .f32) (a : Vec Ideal S4096x64 .f32) : Vec Ideal S4096x64 .f32 :=
  fun y => Ideal.exp (m (ix2 (y 0) (0 : Fin 1)) - ptM x0 x1 m (ix2 (y 0) (0 : Fin 1))) * a (ix2 (y 0) (y 1))
    + ∑ u : Fin 512, Ideal.exp (ptS x0 x1 (y 0) u - ptM x0 x1 m (ix2 (y 0) (0 : Fin 1))) * x2 (ix3 (0 : Fin 1) u (y 1))

/-! ## Each chunk's payloads are the chunk's quantities -/

section PayIds
variable {F : FTy → Type} [FloatOps F]

theorem pay15_10 (v3 : Vec F S1x64x512 .bf16) (v10 : Vec F S1x1024x64 .bf16) (v13 : Vec F S1024x1 .f32) :
    k1_pay15 (k1_pay10 v3 v10 v13) = chM (k1_pay7 v3) v10 v13 := by unfold k1_pay15; rw [shapeCast_self]; rfl
theorem pay16_13 (v3 : Vec F S1x64x512 .bf16) (v10 : Vec F S1x1024x64 .bf16) (v13 v15 : Vec F S1024x1 .f32) :
    k1_pay16 (k1_pay13 v3 v10 v13 v15) = chL (k1_pay7 v3) v10 v13 v15 := by unfold k1_pay16; rw [shapeCast_self]; rfl
theorem pay17_14 (v3 : Vec F S1x64x512 .bf16) (v5 : Vec F S1x512x64 .bf16) (v10 : Vec F S1x1024x64 .bf16) (v13 : Vec F S1024x1 .f32) (v17 : Vec F S1024x64 .f32) :
    k1_pay17 (k1_pay14 v3 v5 v10 v13 v17) = chA (k1_pay7 v3) (k1_pay8 v5) v10 v13 v17 := by unfold k1_pay17; rw [shapeCast_self]; rfl
theorem pay24_19 (v4 : FVec F S64x512 .bf16) (v51 : Vec F S1x1024x64 .bf16) (v54 : Vec F S1024x1 .f32) :
    k1_pay24 (k1_pay19 v4 v51 v54) = chM v4 v51 v54 := by unfold k1_pay24; rw [shapeCast_self]; rfl
theorem pay25_22 (v4 : FVec F S64x512 .bf16) (v51 : Vec F S1x1024x64 .bf16) (v54 v56 : Vec F S1024x1 .f32) :
    k1_pay25 (k1_pay22 v4 v51 v54 v56) = chL v4 v51 v54 v56 := by unfold k1_pay25; rw [shapeCast_self]; rfl
theorem pay26_23 (v4 : FVec F S64x512 .bf16) (v6 : FVec F S512x64 .bf16) (v51 : Vec F S1x1024x64 .bf16) (v54 : Vec F S1024x1 .f32) (v58 : Vec F S1024x64 .f32) :
    k1_pay26 (k1_pay23 v4 v6 v51 v54 v58) = chA v4 v6 v51 v54 v58 := by unfold k1_pay26; rw [shapeCast_self]; rfl
theorem pay33_eq (v4 : FVec F S64x512 .bf16) (v92 : Vec F S1x1024x64 .bf16) (v95 : Vec F S1024x1 .f32) :
    k1_pay33 v4 v92 v95 = chM v4 v92 v95 := by unfold k1_pay33; rw [shapeCast_self]; rfl
theorem pay34_31 (v4 : FVec F S64x512 .bf16) (v92 : Vec F S1x1024x64 .bf16) (v95 v97 : Vec F S1024x1 .f32) :
    k1_pay34 (k1_pay31 v4 v92 v95 v97) = chL v4 v92 v95 v97 := by unfold k1_pay34; rw [shapeCast_self]; rfl
theorem pay35_32 (v4 : FVec F S64x512 .bf16) (v6 : FVec F S512x64 .bf16) (v92 : Vec F S1x1024x64 .bf16) (v95 : Vec F S1024x1 .f32) (v99 : Vec F S1024x64 .f32) :
    k1_pay35 (k1_pay32 v4 v6 v92 v95 v99) = chA v4 v6 v92 v95 v99 := by unfold k1_pay35; rw [shapeCast_self]; rfl
theorem pay42_eq (v4 : FVec F S64x512 .bf16) (v133 : Vec F S1x1024x64 .bf16) (v136 : Vec F S1024x1 .f32) :
    k1_pay42 v4 v133 v136 = chM v4 v133 v136 := by unfold k1_pay42; rw [shapeCast_self]; rfl
theorem pay1_40 (v4 : FVec F S64x512 .bf16) (v133 : Vec F S1x1024x64 .bf16) (v136 v138 : Vec F S1024x1 .f32) :
    k1_pay1 (k1_pay40 v4 v133 v136 v138) = chL v4 v133 v136 v138 := by unfold k1_pay1; rw [shapeCast_self]; rfl
theorem pay2_41 (v4 : FVec F S64x512 .bf16) (v6 : FVec F S512x64 .bf16) (v133 : Vec F S1x1024x64 .bf16) (v136 : Vec F S1024x1 .f32) (v140 : Vec F S1024x64 .f32) :
    k1_pay2 (k1_pay41 v4 v6 v133 v136 v140) = chA v4 v6 v133 v136 v140 := by unfold k1_pay2; rw [shapeCast_self]; rfl

end PayIds

/-! ## A slice's payload is the point's update at the slice's rows -/

/-- The key tile with its leading unit axis dropped, at an index. -/
theorem pay7_apply (x1 : Vec Ideal S1x64x512 .bf16) (e : Fin 64) (u : Fin 512) : k1_pay7 x1 (ix2 e u) = x1 (ix3 (0 : Fin 1) e u) := by
  unfold k1_pay7
  exact shapeCast_apply x1 shapeCasts_S1x64x512_S64x512 (ix2 e u) (ix3 (0 : Fin 1) e u) (by
    rw [Shape.rowMajor_val_two, Shape.rowMajor_val_three]
    show (0 * 64 + e.val) * 512 + u.val = e.val * 512 + u.val
    omega)
/-- The value tile with its leading unit axis dropped, at an index. -/
theorem pay8_apply (x2 : Vec Ideal S1x512x64 .bf16) (u : Fin 512) (e : Fin 64) : k1_pay8 x2 (ix2 u e) = x2 (ix3 (0 : Fin 1) u e) := by
  unfold k1_pay8
  exact shapeCast_apply x2 shapeCasts_S1x512x64_S512x64 (ix2 u e) (ix3 (0 : Fin 1) u e) (by
    rw [Shape.rowMajor_val_two, Shape.rowMajor_val_three]
    show (0 * 512 + u.val) * 64 + e.val = u.val * 64 + e.val
    omega)

/-- The point's update read at a row and a feature. -/
theorem ptM_at (x0 : Vec Ideal S1x4096x64 .bf16) (x1 : Vec Ideal S1x64x512 .bf16) (m : Vec Ideal S4096x1 .f32) (r : Fin 4096) (z : Fin 1) :
    ptM x0 x1 m (ix2 r z) = max (m (ix2 r (0 : Fin 1))) (Finset.univ.sup fun u : Fin 512 => ptS x0 x1 r u) := rfl
theorem ptL_at (x0 : Vec Ideal S1x4096x64 .bf16) (x1 : Vec Ideal S1x64x512 .bf16) (m l : Vec Ideal S4096x1 .f32) (r : Fin 4096) (z : Fin 1) :
    ptL x0 x1 m l (ix2 r z) = Ideal.exp (m (ix2 r (0 : Fin 1)) - ptM x0 x1 m (ix2 r (0 : Fin 1))) * l (ix2 r (0 : Fin 1))
      + ∑ u : Fin 512, Ideal.exp (ptS x0 x1 r u - ptM x0 x1 m (ix2 r (0 : Fin 1))) := rfl
theorem ptA_at (x0 : Vec Ideal S1x4096x64 .bf16) (x1 : Vec Ideal S1x64x512 .bf16) (x2 : Vec Ideal S1x512x64 .bf16)
    (m : Vec Ideal S4096x1 .f32) (a : Vec Ideal S4096x64 .f32) (r : Fin 4096) (e : Fin 64) :
    ptA x0 x1 x2 m a (ix2 r e) = Ideal.exp (m (ix2 r (0 : Fin 1)) - ptM x0 x1 m (ix2 r (0 : Fin 1))) * a (ix2 r e)
      + ∑ u : Fin 512, Ideal.exp (ptS x0 x1 r u - ptM x0 x1 m (ix2 r (0 : Fin 1))) * x2 (ix3 (0 : Fin 1) u e) := rfl

/-- The zero offsets of a whole three-axis block. -/
theorem hz3 : (![0, 0, 0] : Fin 3 → ℕ) = fun _ => 0 := by
  funext b; match b with
  | ⟨0, _⟩ => rfl
  | ⟨1, _⟩ => rfl
  | ⟨2, _⟩ => rfl
/-- The zero offsets of a whole two-axis block. -/
theorem hz2 : (![0, 0] : Fin 2 → ℕ) = fun _ => 0 := by
  funext b; match b with
  | ⟨0, _⟩ => rfl
  | ⟨1, _⟩ => rfl

section Pieces
variable (x0 : Vec Ideal S1x4096x64 .bf16) (x1 : Vec Ideal S1x64x512 .bf16) (x2 : Vec Ideal S1x512x64 .bf16)
  (m l : Vec Ideal S4096x1 .f32) (a : Vec Ideal S4096x64 .f32) (o : ℕ) (ho : o + 1024 ≤ 4096)
  (hQ : ∀ b, (![0, o, 0] : Fin 3 → ℕ) b + (![1, 1024, 64] : Fin 3 → ℕ) b ≤ S1x4096x64.size b)
  (hM : ∀ b, (![o, 0] : Fin 2 → ℕ) b + (![1024, 1] : Fin 2 → ℕ) b ≤ S4096x1.size b)
  (hA : ∀ b, (![o, 0] : Fin 2 → ℕ) b + (![1024, 64] : Fin 2 → ℕ) b ≤ S4096x64.size b)

/-- Row `ρ` of the slice at offset `o` is row `o + ρ` of the buffer. -/
def rowAt (ρ : Fin 1024) : Fin 4096 := ⟨o + ρ.val, by have := ρ.isLt; omega⟩

theorem embQ (ρ : Fin 1024) (e : Fin 64) :
    (Rect.unit (s := S1x4096x64) ![0, o, 0] ![1, 1024, 64] hQ).emb (ix3 (0 : Fin 1) ρ e) = ix3 (0 : Fin 1) (rowAt o ho ρ) e := by
  funext b; apply Fin.ext
  match b with
  | ⟨0, _⟩ => rfl
  | ⟨1, _⟩ => show o + 1 * ρ.val = o + ρ.val; omega
  | ⟨2, _⟩ => show 0 + 1 * e.val = e.val; omega
theorem embM (ρ : Fin 1024) (z : Fin 1) :
    (Rect.unit (s := S4096x1) ![o, 0] ![1024, 1] hM).emb (ix2 ρ z) = ix2 (rowAt o ho ρ) (0 : Fin 1) := by
  funext b; apply Fin.ext
  match b with
  | ⟨0, _⟩ => show o + 1 * ρ.val = o + ρ.val; omega
  | ⟨1, _⟩ => show 0 + 1 * z.val = 0; omega
theorem embA (ρ : Fin 1024) (e : Fin 64) :
    (Rect.unit (s := S4096x64) ![o, 0] ![1024, 64] hA).emb (ix2 ρ e) = ix2 (rowAt o ho ρ) e := by
  funext b; apply Fin.ext
  match b with
  | ⟨0, _⟩ => show o + 1 * ρ.val = o + ρ.val; omega
  | ⟨1, _⟩ => show 0 + 1 * e.val = e.val; omega

/-- A chunk's score is the point's score at the chunk's row. -/
theorem sliceS (ρ : Fin 1024) (u : Fin 512) :
    chS (k1_pay7 x1) (View.ld x0 (Rect.unit (s := S1x4096x64) ![0, o, 0] ![1, 1024, 64] hQ)) (ix2 ρ u) = ptS x0 x1 (rowAt o ho ρ) u := by
  rw [chS_apply]; unfold ptS
  refine Finset.sum_congr rfl fun e _ => ?_
  congr 1
  · show x0 ((Rect.unit (s := S1x4096x64) ![0, o, 0] ![1, 1024, 64] hQ).emb (ix3 (0 : Fin 1) ρ e)) = _
    rw [embQ o ho hQ ρ e]
  · exact pay7_apply x1 e u

/-- The chunk's old column entry is the buffer's at the chunk's row. -/
theorem sliceOld (ρ : Fin 1024) :
    View.ld m (Rect.unit (s := S4096x1) ![o, 0] ![1024, 1] hM) (ix2 ρ (0 : Fin 1)) = m (ix2 (rowAt o ho ρ) (0 : Fin 1)) := by
  show m ((Rect.unit (s := S4096x1) ![o, 0] ![1024, 1] hM).emb (ix2 ρ (0 : Fin 1))) = _
  rw [embM o ho hM ρ 0]

theorem sliceM (ρ : Fin 1024) :
    chM (k1_pay7 x1) (View.ld x0 (Rect.unit (s := S1x4096x64) ![0, o, 0] ![1, 1024, 64] hQ))
        (View.ld m (Rect.unit (s := S4096x1) ![o, 0] ![1024, 1] hM)) (ix2 ρ (0 : Fin 1))
      = ptM x0 x1 m (ix2 (rowAt o ho ρ) (0 : Fin 1)) := by
  rw [chM_apply, sliceOld m o ho hM ρ, ptM_at]
  congr 1
  refine congrArg _ (funext fun u => ?_)
  exact sliceS x0 x1 o ho hQ ρ u

include ho in
/-- A slice of the maxima buffer is the point's update there. -/
theorem pieceM (x : (Rect.unit (s := S4096x1) ![o, 0] ![1024, 1] hM).shape.Idx) :
    chM (k1_pay7 x1) (View.ld x0 (Rect.unit (s := S1x4096x64) ![0, o, 0] ![1, 1024, 64] hQ))
        (View.ld m (Rect.unit (s := S4096x1) ![o, 0] ![1024, 1] hM)) x
      = ptM x0 x1 m ((Rect.unit (s := S4096x1) ![o, 0] ![1024, 1] hM).emb x) := by
  obtain ⟨ρ, z, rfl⟩ : ∃ (ρ : Fin 1024) (z : Fin 1), x = ix2 ρ z := ⟨x 0, x 1, eq_ix2 x⟩
  obtain rfl : z = 0 := Subsingleton.elim _ _
  rw [embM o ho hM ρ 0]
  exact sliceM x0 x1 m o ho hQ hM ρ

include ho in
/-- A slice of the sums buffer is the point's update there. -/
theorem pieceL (x : (Rect.unit (s := S4096x1) ![o, 0] ![1024, 1] hM).shape.Idx) :
    chL (k1_pay7 x1) (View.ld x0 (Rect.unit (s := S1x4096x64) ![0, o, 0] ![1, 1024, 64] hQ))
        (View.ld m (Rect.unit (s := S4096x1) ![o, 0] ![1024, 1] hM)) (View.ld l (Rect.unit (s := S4096x1) ![o, 0] ![1024, 1] hM)) x
      = ptL x0 x1 m l ((Rect.unit (s := S4096x1) ![o, 0] ![1024, 1] hM).emb x) := by
  obtain ⟨ρ, z, rfl⟩ : ∃ (ρ : Fin 1024) (z : Fin 1), x = ix2 ρ z := ⟨x 0, x 1, eq_ix2 x⟩
  obtain rfl : z = 0 := Subsingleton.elim _ _
  rw [embM o ho hM ρ 0, chL_apply, sliceM x0 x1 m o ho hQ hM ρ, sliceOld m o ho hM ρ, sliceOld l o ho hM ρ, ptL_at]
  simp only [sliceS x0 x1 o ho hQ ρ]

include ho in
/-- A slice of the weighted-sums buffer is the point's update there. -/
theorem pieceA (x : (Rect.unit (s := S4096x64) ![o, 0] ![1024, 64] hA).shape.Idx) :
    chA (k1_pay7 x1) (k1_pay8 x2) (View.ld x0 (Rect.unit (s := S1x4096x64) ![0, o, 0] ![1, 1024, 64] hQ))
        (View.ld m (Rect.unit (s := S4096x1) ![o, 0] ![1024, 1] hM)) (View.ld a (Rect.unit (s := S4096x64) ![o, 0] ![1024, 64] hA)) x
      = ptA x0 x1 x2 m a ((Rect.unit (s := S4096x64) ![o, 0] ![1024, 64] hA).emb x) := by
  obtain ⟨ρ, e, rfl⟩ : ∃ (ρ : Fin 1024) (e : Fin 64), x = ix2 ρ e := ⟨x 0, x 1, eq_ix2 x⟩
  rw [embA o ho hA ρ e, chA_apply, sliceM x0 x1 m o ho hQ hM ρ, sliceOld m o ho hM ρ, ptA_at]
  simp only [sliceS x0 x1 o ho hQ ρ, pay8_apply]
  congr 1
  show _ * a ((Rect.unit (s := S4096x64) ![o, 0] ![1024, 64] hA).emb (ix2 ρ e)) = _
  rw [embA o ho hA ρ e]

end Pieces

/-! ## The middle case -/

section CaseB
variable (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : ¬cond1_1 i)
  (x0 : Vec Ideal S1x4096x64 .bf16) (x1 : Vec Ideal S1x64x512 .bf16) (x2 : Vec Ideal S1x512x64 .bf16)
  (xs0 xs1 : Vec Ideal S4096x1 .f32) (xs2 : Vec Ideal S4096x64 .f32)

set_option maxHeartbeats 2000000 in
theorem sout1_B_0_eq : sout1_B_0 c i arg2 harg2 arg3 harg3 arg4 harg4 arg5 harg5 arg6 harg6 arg7 harg7 arg8 harg8 hc0 hc1 x0 x1 x2 xs0 xs1 xs2 = ptM x0 x1 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  funext y
  refine View.canon_apply_of_pieces (ptM x0 x1 xs0) _ ?_ y (scover1_B_0 c i arg2 harg2 arg3 harg3 arg4 harg4 arg5 harg5 arg6 harg6 arg7 harg7 arg8 harg8 hc0 hc1 x0 x1 x2 xs0 xs1 xs2 y)
  unfold kernelRun1_B
  dsimp only
  sl_unfold_words
  refine List.forall_mem_cons.2 ⟨?_, List.forall_mem_cons.2 ⟨?_, List.forall_mem_cons.2 ⟨?_, List.forall_mem_cons.2 ⟨?_, fun _ h => absurd h (List.not_mem_nil)⟩⟩⟩⟩
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay42_eq]
    exact pieceM x0 x1 xs0 3072 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay33_eq]
    exact pieceM x0 x1 xs0 2048 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay24_19]
    exact pieceM x0 x1 xs0 1024 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay15_10]
    exact pieceM x0 x1 xs0 0 (by omega) (by decide) (by decide) x

set_option maxHeartbeats 2000000 in
theorem sout1_B_1_eq : sout1_B_1 c i arg2 harg2 arg3 harg3 arg4 harg4 arg5 harg5 arg6 harg6 arg7 harg7 arg8 harg8 hc0 hc1 x0 x1 x2 xs0 xs1 xs2 = ptL x0 x1 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  funext y
  refine View.canon_apply_of_pieces (ptL x0 x1 xs0 xs1) _ ?_ y (scover1_B_1 c i arg2 harg2 arg3 harg3 arg4 harg4 arg5 harg5 arg6 harg6 arg7 harg7 arg8 harg8 hc0 hc1 x0 x1 x2 xs0 xs1 xs2 y)
  unfold kernelRun1_B
  dsimp only
  sl_unfold_words
  refine List.forall_mem_cons.2 ⟨?_, List.forall_mem_cons.2 ⟨?_, List.forall_mem_cons.2 ⟨?_, List.forall_mem_cons.2 ⟨?_, fun _ h => absurd h (List.not_mem_nil)⟩⟩⟩⟩
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay1_40]
    exact pieceL x0 x1 xs0 xs1 3072 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay34_31]
    exact pieceL x0 x1 xs0 xs1 2048 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay25_22]
    exact pieceL x0 x1 xs0 xs1 1024 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay16_13]
    exact pieceL x0 x1 xs0 xs1 0 (by omega) (by decide) (by decide) x

set_option maxHeartbeats 2000000 in
theorem sout1_B_2_eq : sout1_B_2 c i arg2 harg2 arg3 harg3 arg4 harg4 arg5 harg5 arg6 harg6 arg7 harg7 arg8 harg8 hc0 hc1 x0 x1 x2 xs0 xs1 xs2 = ptA x0 x1 x2 xs0 xs2 := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  funext y
  refine View.canon_apply_of_pieces (ptA x0 x1 x2 xs0 xs2) _ ?_ y (scover1_B_2 c i arg2 harg2 arg3 harg3 arg4 harg4 arg5 harg5 arg6 harg6 arg7 harg7 arg8 harg8 hc0 hc1 x0 x1 x2 xs0 xs1 xs2 y)
  unfold kernelRun1_B
  dsimp only
  sl_unfold_words
  refine List.forall_mem_cons.2 ⟨?_, List.forall_mem_cons.2 ⟨?_, List.forall_mem_cons.2 ⟨?_, List.forall_mem_cons.2 ⟨?_, fun _ h => absurd h (List.not_mem_nil)⟩⟩⟩⟩
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay2_41]
    exact pieceA x0 x1 x2 xs0 xs2 3072 (by omega) (by decide) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay35_32]
    exact pieceA x0 x1 x2 xs0 xs2 2048 (by omega) (by decide) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay26_23]
    exact pieceA x0 x1 x2 xs0 xs2 1024 (by omega) (by decide) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay17_14]
    exact pieceA x0 x1 x2 xs0 xs2 0 (by omega) (by decide) (by decide) (by decide) x

end CaseB

end Cert.KernelIdeal.Hand

end
-- ==== Proof.IValR1PointA.lean ====
/-
  A head's first grid point of the attention kernel, on the extended reals.

  At a head's first key/value tile the body first fills its three scratch buffers — the running maxima with −∞, the running
  sums and the running weighted sums with 0 — and then updates them in four chunks of 1024 rows, as at every other point.
  So what the point leaves in the buffers is the point's update of the constant buffers −∞, 0 and 0.

  Two things differ from a middle point. The first store, of the whole buffer, is overwritten by the four slices, which
  tile the buffer: what is left is read off the four slices alone. And a chunk's old rows are read from what has been
  stored so far, the earlier chunks' slices over the first fill: the rows of chunk q lie below none of the earlier slices
  (those hold the rows before 1024 q), so they still hold the fill's constant.
-/
import proofs.«126686_j77318001263092_2_alg».proof.Proof.IValR1Point
import Idealize.ShloMosaic.Lib.Pipeline.CanonAppend

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-! ## A load of rows that only a constant fill has reached -/

section Fill
variable {sig' : RefSig} {κ' : Kind} {sp' : Space} {S : Shape} {e : EltTy} {Val : EltTy → Type} [∀ e, Nonempty (Val e)]

/-- Every index of every store of the list lies before position o on axis a0. -/
def Before (a0 : Fin S.rank) (o : ℕ) (L : List (View.Piece Val S e)) : Prop :=
  ∀ p ∈ L, ∀ y ∈ p.1.set, (y a0).val < o

/-- No store: nothing to check. -/
theorem before_nil (a0 : Fin S.rank) (o : ℕ) : Before (Val := Val) (e := e) a0 o [] :=
  fun _ h => absurd h List.not_mem_nil

/-- A store through a unit-stride rectangle that ends at or before o on axis a0, ahead of stores that lie before o. -/
theorem before_cons {a0 : Fin S.rank} {o : ℕ} {off size : Fin S.rank → ℕ} {inb : ∀ a, off a + size a ≤ S.size a}
    {w : (Rect.unit off size inb).shape.Idx → Val e} {L : List (View.Piece Val S e)}
    (h : off a0 + size a0 ≤ o) (hL : Before a0 o L) :
    Before a0 o ((⟨Rect.unit off size inb, w⟩ : View.Piece Val S e) :: L) :=
  List.forall_mem_cons.2 ⟨fun y hy => by
    have hy' : y ∈ (Rect.unit off size inb).set := hy
    exact lt_of_lt_of_le ((Rect.mem_set_unit.mp hy') a0).2 h, hL⟩

/-- After a fill of the whole buffer with a constant and then stores that all lie before position o on one axis, an
    index at or after o still holds the constant. -/
theorem canon_fill_of_before (k : Val e) (w : S.Idx → Val e) (hw : ∀ y, w y = k) {off0 : Fin S.rank → ℕ}
    (hz : off0 = fun _ => 0) (inb0 : ∀ a, off0 a + S.size a ≤ S.size a) (a0 : Fin S.rank) (o : ℕ) :
    ∀ (L : List (View.Piece Val S e)), Before a0 o L → ∀ y : S.Idx, o ≤ (y a0).val →
      View.canon (L ++ [(⟨Rect.unit off0 S.size inb0, w⟩ : View.Piece Val S e)]) y = k
  | [], _, y, _ => by
    rw [List.nil_append, View.canon_unit_zero hz inb0 w]; exact hw y
  | p :: L, hL, y, hy => by
    have hm : y ∉ p.1.set := fun hm => absurd (hL p List.mem_cons_self y hm) (by omega)
    rw [List.cons_append, View.canon_cons_of_not_mem p _ hm]
    exact canon_fill_of_before k w hw hz inb0 a0 o L (fun q hq => hL q (List.mem_cons_of_mem _ hq)) y hy

/-- So a load of a unit-stride box that starts at o on that axis reads the constant everywhere. -/
theorem readCov_fill_of_before (v : View sig' κ' sp' S e) (k : Val e) (w : S.Idx → Val e) (hw : ∀ y, w y = k)
    {off0 : Fin S.rank → ℕ} (hz : off0 = fun _ => 0) (inb0 : ∀ a, off0 a + S.size a ≤ S.size a) (a0 : Fin S.rank)
    (L : List (View.Piece Val S e)) (offB sizeB : Fin S.rank → ℕ) (inbB : ∀ a, offB a + sizeB a ≤ S.size a)
    (hL : Before a0 (offB a0) L) :
    v.readCov (L ++ [(⟨Rect.unit off0 S.size inb0, w⟩ : View.Piece Val S e)]) (Rect.unit offB sizeB inbB).toLoadRect
      = fun _ => k := by
  rw [View.readCov_eq_canon']
  funext j
  refine canon_fill_of_before k w hw hz inb0 a0 (offB a0) L hL _ ?_
  show offB a0 ≤ offB a0 + 1 * (j a0).val
  omega

end Fill

/-! ## The three fills -/

/-- The first fill of the maxima buffer is −∞ everywhere. -/
theorem pay4_at (y : S4096x1.Idx) : k1_pay4 (F := Ideal) y = (⊥ : EReal) := by
  unfold k1_pay4; rw [shapeCast_self]; exact ofBits_negInf
/-- The first fill of the sums buffer is 0 everywhere. -/
theorem pay5_at (y : S4096x1.Idx) : k1_pay5 (F := Ideal) y = (0 : EReal) := by
  unfold k1_pay5; rw [shapeCast_self]; exact Ideal.ofBits_zero_f32
/-- The first fill of the weighted-sums buffer is 0 everywhere. -/
theorem pay6_at (y : S4096x64.Idx) : k1_pay6 (F := Ideal) y = (0 : EReal) := by
  unfold k1_pay6; rw [shapeCast_self]; exact Ideal.ofBits_zero_f32

/-! ## A slice's payload over any old rows that are the buffer's -/

section PiecesOf
variable (x0 : Vec Ideal S1x4096x64 .bf16) (x1 : Vec Ideal S1x64x512 .bf16) (x2 : Vec Ideal S1x512x64 .bf16)
  (m l : Vec Ideal S4096x1 .f32) (a : Vec Ideal S4096x64 .f32) (o : ℕ) (ho : o + 1024 ≤ 4096)
  (hQ : ∀ b, (![0, o, 0] : Fin 3 → ℕ) b + (![1, 1024, 64] : Fin 3 → ℕ) b ≤ S1x4096x64.size b)
  (hM : ∀ b, (![o, 0] : Fin 2 → ℕ) b + (![1024, 1] : Fin 2 → ℕ) b ≤ S4096x1.size b)
  (hA : ∀ b, (![o, 0] : Fin 2 → ℕ) b + (![1024, 64] : Fin 2 → ℕ) b ≤ S4096x64.size b)

include ho in
/-- A slice of the maxima buffer, its old rows given as any column equal to the buffer's rows. -/
theorem pieceM_of (mo : Vec Ideal S1024x1 .f32) (hmo : mo = View.ld m (Rect.unit (s := S4096x1) ![o, 0] ![1024, 1] hM))
    (x : (Rect.unit (s := S4096x1) ![o, 0] ![1024, 1] hM).shape.Idx) :
    chM (k1_pay7 x1) (View.ld x0 (Rect.unit (s := S1x4096x64) ![0, o, 0] ![1, 1024, 64] hQ)) mo x
      = ptM x0 x1 m ((Rect.unit (s := S4096x1) ![o, 0] ![1024, 1] hM).emb x) := by
  subst hmo; exact pieceM x0 x1 m o ho hQ hM x

include ho in
/-- A slice of the sums buffer, its old rows given as any columns equal to the buffers' rows. -/
theorem pieceL_of (mo lo : Vec Ideal S1024x1 .f32) (hmo : mo = View.ld m (Rect.unit (s := S4096x1) ![o, 0] ![1024, 1] hM))
    (hlo : lo = View.ld l (Rect.unit (s := S4096x1) ![o, 0] ![1024, 1] hM))
    (x : (Rect.unit (s := S4096x1) ![o, 0] ![1024, 1] hM).shape.Idx) :
    chL (k1_pay7 x1) (View.ld x0 (Rect.unit (s := S1x4096x64) ![0, o, 0] ![1, 1024, 64] hQ)) mo lo x
      = ptL x0 x1 m l ((Rect.unit (s := S4096x1) ![o, 0] ![1024, 1] hM).emb x) := by
  subst hmo; subst hlo; exact pieceL x0 x1 m l o ho hQ hM x

include ho in
/-- A slice of the weighted-sums buffer, its old rows given as any blocks equal to the buffers' rows. -/
theorem pieceA_of (mo : Vec Ideal S1024x1 .f32) (ao : Vec Ideal S1024x64 .f32)
    (hmo : mo = View.ld m (Rect.unit (s := S4096x1) ![o, 0] ![1024, 1] hM))
    (hao : ao = View.ld a (Rect.unit (s := S4096x64) ![o, 0] ![1024, 64] hA))
    (x : (Rect.unit (s := S4096x64) ![o, 0] ![1024, 64] hA).shape.Idx) :
    chA (k1_pay7 x1) (k1_pay8 x2) (View.ld x0 (Rect.unit (s := S1x4096x64) ![0, o, 0] ![1, 1024, 64] hQ)) mo ao x
      = ptA x0 x1 x2 m a ((Rect.unit (s := S4096x64) ![o, 0] ![1024, 64] hA).emb x) := by
  subst hmo; subst hao; exact pieceA x0 x1 x2 m a o ho hQ hM hA x

end PiecesOf

/-! ## The first-tile case -/

section CaseA
variable (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : cond1_0 i) (hc1 : ¬cond1_1 i)
  (x0 : Vec Ideal S1x4096x64 .bf16) (x1 : Vec Ideal S1x64x512 .bf16) (x2 : Vec Ideal S1x512x64 .bf16)

set_option maxHeartbeats 1000000 in
/-- After a head's first point the maxima buffer holds the point's update of −∞. -/
theorem sout1_A_0_eq : sout1_A_0 c i arg2 harg2 arg3 harg3 arg4 harg4 arg5 harg5 arg6 harg6 arg7 harg7 arg8 harg8 hc0 hc1 x0 x1 x2 = ptM x0 x1 (fun _ => (⊥ : EReal)) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  funext y
  unfold kernelRun1_A
  dsimp only
  sl_unfold_words
  refine View.canon_append_of_pieces (Val := Elt Ideal) (e := .f32) (ptM x0 x1 (fun _ => (⊥ : EReal))) [_] [_, _, _, _] ?_ y ?_
  · refine List.forall_mem_cons.2 ⟨?_, List.forall_mem_cons.2 ⟨?_, List.forall_mem_cons.2 ⟨?_, List.forall_mem_cons.2 ⟨?_, fun _ h => absurd h (List.not_mem_nil)⟩⟩⟩⟩
    · intro x
      simp only [View.readAt_eq_ld, harg2.read_unread, harg3.read_unread, harg4.read_unread, View.ld_unit_zero (S := S1x64x512) hz3, View.ld_unit_zero (S := S1x512x64) hz3, pay42_eq]
      refine pieceM_of x0 x1 (fun _ => (⊥ : EReal)) 3072 (by omega) (by decide) (by decide) _ ?_ x
      exact readCov_fill_of_before (Val := Elt Ideal) (e := .f32) arg6.view (⊥ : EReal) (k1_pay4 (F := Ideal)) pay4_at hz2 _ (0 : Fin 2) [_, _, _] _ _ _ (before_cons (by decide) (before_cons (by decide) (before_cons (by decide) (before_nil _ _))))
    · intro x
      simp only [View.readAt_eq_ld, harg2.read_unread, harg3.read_unread, harg4.read_unread, View.ld_unit_zero (S := S1x64x512) hz3, View.ld_unit_zero (S := S1x512x64) hz3, pay33_eq]
      refine pieceM_of x0 x1 (fun _ => (⊥ : EReal)) 2048 (by omega) (by decide) (by decide) _ ?_ x
      exact readCov_fill_of_before (Val := Elt Ideal) (e := .f32) arg6.view (⊥ : EReal) (k1_pay4 (F := Ideal)) pay4_at hz2 _ (0 : Fin 2) [_, _] _ _ _ (before_cons (by decide) (before_cons (by decide) (before_nil _ _)))
    · intro x
      simp only [View.readAt_eq_ld, harg2.read_unread, harg3.read_unread, harg4.read_unread, View.ld_unit_zero (S := S1x64x512) hz3, View.ld_unit_zero (S := S1x512x64) hz3, pay24_19]
      refine pieceM_of x0 x1 (fun _ => (⊥ : EReal)) 1024 (by omega) (by decide) (by decide) _ ?_ x
      exact readCov_fill_of_before (Val := Elt Ideal) (e := .f32) arg6.view (⊥ : EReal) (k1_pay4 (F := Ideal)) pay4_at hz2 _ (0 : Fin 2) [_] _ _ _ (before_cons (by decide) (before_nil _ _))
    · intro x
      simp only [View.readAt_eq_ld, harg2.read_unread, harg3.read_unread, harg4.read_unread, View.ld_unit_zero (S := S1x64x512) hz3, View.ld_unit_zero (S := S1x512x64) hz3, pay15_10]
      refine pieceM_of x0 x1 (fun _ => (⊥ : EReal)) 0 (by omega) (by decide) (by decide) _ ?_ x
      exact readCov_fill_of_before (Val := Elt Ideal) (e := .f32) arg6.view (⊥ : EReal) (k1_pay4 (F := Ideal)) pay4_at hz2 _ (0 : Fin 2) [] _ _ _ (before_nil _ _)
  · exact View.cover_of_tiledL (s := S4096x1) _ S1024x1.size (by sl_kernel_rfl) y

set_option maxHeartbeats 1000000 in
/-- After a head's first point the sums buffer holds the point's update of −∞ and 0. -/
theorem sout1_A_1_eq : sout1_A_1 c i arg2 harg2 arg3 harg3 arg4 harg4 arg5 harg5 arg6 harg6 arg7 harg7 arg8 harg8 hc0 hc1 x0 x1 x2 = ptL x0 x1 (fun _ => (⊥ : EReal)) (fun _ => (0 : EReal)) := by
  unfold sout1_A_1
  rw [View.read_writes_eq_canon _ _ _ (scover1_A_1 c i arg2 harg2 arg3 harg3 arg4 harg4 arg5 harg5 arg6 harg6 arg7 harg7 arg8 harg8 hc0 hc1 x0 x1 x2)]
  funext y
  unfold kernelRun1_A
  dsimp only
  sl_unfold_words
  refine View.canon_append_of_pieces (Val := Elt Ideal) (e := .f32) (ptL x0 x1 (fun _ => (⊥ : EReal)) (fun _ => (0 : EReal))) [_] [_, _, _, _] ?_ y ?_
  · refine List.forall_mem_cons.2 ⟨?_, List.forall_mem_cons.2 ⟨?_, List.forall_mem_cons.2 ⟨?_, List.forall_mem_cons.2 ⟨?_, fun _ h => absurd h (List.not_mem_nil)⟩⟩⟩⟩
    · intro x
      simp only [View.readAt_eq_ld, harg2.read_unread, harg3.read_unread, harg4.read_unread, View.ld_unit_zero (S := S1x64x512) hz3, View.ld_unit_zero (S := S1x512x64) hz3, pay1_40]
      refine pieceL_of x0 x1 (fun _ => (⊥ : EReal)) (fun _ => (0 : EReal)) 3072 (by omega) (by decide) (by decide) _ _ ?_ ?_ x
      · exact readCov_fill_of_before (Val := Elt Ideal) (e := .f32) arg6.view (⊥ : EReal) (k1_pay4 (F := Ideal)) pay4_at hz2 _ (0 : Fin 2) [_, _, _] _ _ _ (before_cons (by decide) (before_cons (by decide) (before_cons (by decide) (before_nil _ _))))
      · exact readCov_fill_of_before (Val := Elt Ideal) (e := .f32) arg7.view (0 : EReal) (k1_pay5 (F := Ideal)) pay5_at hz2 _ (0 : Fin 2) [_, _, _] _ _ _ (before_cons (by decide) (before_cons (by decide) (before_cons (by decide) (before_nil _ _))))
    · intro x
      simp only [View.readAt_eq_ld, harg2.read_unread, harg3.read_unread, harg4.read_unread, View.ld_unit_zero (S := S1x64x512) hz3, View.ld_unit_zero (S := S1x512x64) hz3, pay34_31]
      refine pieceL_of x0 x1 (fun _ => (⊥ : EReal)) (fun _ => (0 : EReal)) 2048 (by omega) (by decide) (by decide) _ _ ?_ ?_ x
      · exact readCov_fill_of_before (Val := Elt Ideal) (e := .f32) arg6.view (⊥ : EReal) (k1_pay4 (F := Ideal)) pay4_at hz2 _ (0 : Fin 2) [_, _] _ _ _ (before_cons (by decide) (before_cons (by decide) (before_nil _ _)))
      · exact readCov_fill_of_before (Val := Elt Ideal) (e := .f32) arg7.view (0 : EReal) (k1_pay5 (F := Ideal)) pay5_at hz2 _ (0 : Fin 2) [_, _] _ _ _ (before_cons (by decide) (before_cons (by decide) (before_nil _ _)))
    · intro x
      simp only [View.readAt_eq_ld, harg2.read_unread, harg3.read_unread, harg4.read_unread, View.ld_unit_zero (S := S1x64x512) hz3, View.ld_unit_zero (S := S1x512x64) hz3, pay25_22]
      refine pieceL_of x0 x1 (fun _ => (⊥ : EReal)) (fun _ => (0 : EReal)) 1024 (by omega) (by decide) (by decide) _ _ ?_ ?_ x
      · exact readCov_fill_of_before (Val := Elt Ideal) (e := .f32) arg6.view (⊥ : EReal) (k1_pay4 (F := Ideal)) pay4_at hz2 _ (0 : Fin 2) [_] _ _ _ (before_cons (by decide) (before_nil _ _))
      · exact readCov_fill_of_before (Val := Elt Ideal) (e := .f32) arg7.view (0 : EReal) (k1_pay5 (F := Ideal)) pay5_at hz2 _ (0 : Fin 2) [_] _ _ _ (before_cons (by decide) (before_nil _ _))
    · intro x
      simp only [View.readAt_eq_ld, harg2.read_unread, harg3.read_unread, harg4.read_unread, View.ld_unit_zero (S := S1x64x512) hz3, View.ld_unit_zero (S := S1x512x64) hz3, pay16_13]
      refine pieceL_of x0 x1 (fun _ => (⊥ : EReal)) (fun _ => (0 : EReal)) 0 (by omega) (by decide) (by decide) _ _ ?_ ?_ x
      · exact readCov_fill_of_before (Val := Elt Ideal) (e := .f32) arg6.view (⊥ : EReal) (k1_pay4 (F := Ideal)) pay4_at hz2 _ (0 : Fin 2) [] _ _ _ (before_nil _ _)
      · exact readCov_fill_of_before (Val := Elt Ideal) (e := .f32) arg7.view (0 : EReal) (k1_pay5 (F := Ideal)) pay5_at hz2 _ (0 : Fin 2) [] _ _ _ (before_nil _ _)
  · exact View.cover_of_tiledL (s := S4096x1) _ S1024x1.size (by sl_kernel_rfl) y

set_option maxHeartbeats 1000000 in
/-- After a head's first point the weighted-sums buffer holds the point's update of −∞ and 0. -/
theorem sout1_A_2_eq : sout1_A_2 c i arg2 harg2 arg3 harg3 arg4 harg4 arg5 harg5 arg6 harg6 arg7 harg7 arg8 harg8 hc0 hc1 x0 x1 x2 = ptA x0 x1 x2 (fun _ => (⊥ : EReal)) (fun _ => (0 : EReal)) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  funext y
  unfold kernelRun1_A
  dsimp only
  sl_unfold_words
  refine View.canon_append_of_pieces (Val := Elt Ideal) (e := .f32) (ptA x0 x1 x2 (fun _ => (⊥ : EReal)) (fun _ => (0 : EReal))) [_] [_, _, _, _] ?_ y ?_
  · refine List.forall_mem_cons.2 ⟨?_, List.forall_mem_cons.2 ⟨?_, List.forall_mem_cons.2 ⟨?_, List.forall_mem_cons.2 ⟨?_, fun _ h => absurd h (List.not_mem_nil)⟩⟩⟩⟩
    · intro x
      simp only [View.readAt_eq_ld, harg2.read_unread, harg3.read_unread, harg4.read_unread, View.ld_unit_zero (S := S1x64x512) hz3, View.ld_unit_zero (S := S1x512x64) hz3, pay2_41]
      refine pieceA_of x0 x1 x2 (fun _ => (⊥ : EReal)) (fun _ => (0 : EReal)) 3072 (by omega) (by decide) (by decide) (by decide) _ _ ?_ ?_ x
      · exact readCov_fill_of_before (Val := Elt Ideal) (e := .f32) arg6.view (⊥ : EReal) (k1_pay4 (F := Ideal)) pay4_at hz2 _ (0 : Fin 2) [_, _, _] _ _ _ (before_cons (by decide) (before_cons (by decide) (before_cons (by decide) (before_nil _ _))))
      · exact readCov_fill_of_before (Val := Elt Ideal) (e := .f32) arg8.view (0 : EReal) (k1_pay6 (F := Ideal)) pay6_at hz2 _ (0 : Fin 2) [_, _, _] _ _ _ (before_cons (by decide) (before_cons (by decide) (before_cons (by decide) (before_nil _ _))))
    · intro x
      simp only [View.readAt_eq_ld, harg2.read_unread, harg3.read_unread, harg4.read_unread, View.ld_unit_zero (S := S1x64x512) hz3, View.ld_unit_zero (S := S1x512x64) hz3, pay35_32]
      refine pieceA_of x0 x1 x2 (fun _ => (⊥ : EReal)) (fun _ => (0 : EReal)) 2048 (by omega) (by decide) (by decide) (by decide) _ _ ?_ ?_ x
      · exact readCov_fill_of_before (Val := Elt Ideal) (e := .f32) arg6.view (⊥ : EReal) (k1_pay4 (F := Ideal)) pay4_at hz2 _ (0 : Fin 2) [_, _] _ _ _ (before_cons (by decide) (before_cons (by decide) (before_nil _ _)))
      · exact readCov_fill_of_before (Val := Elt Ideal) (e := .f32) arg8.view (0 : EReal) (k1_pay6 (F := Ideal)) pay6_at hz2 _ (0 : Fin 2) [_, _] _ _ _ (before_cons (by decide) (before_cons (by decide) (before_nil _ _)))
    · intro x
      simp only [View.readAt_eq_ld, harg2.read_unread, harg3.read_unread, harg4.read_unread, View.ld_unit_zero (S := S1x64x512) hz3, View.ld_unit_zero (S := S1x512x64) hz3, pay26_23]
      refine pieceA_of x0 x1 x2 (fun _ => (⊥ : EReal)) (fun _ => (0 : EReal)) 1024 (by omega) (by decide) (by decide) (by decide) _ _ ?_ ?_ x
      · exact readCov_fill_of_before (Val := Elt Ideal) (e := .f32) arg6.view (⊥ : EReal) (k1_pay4 (F := Ideal)) pay4_at hz2 _ (0 : Fin 2) [_] _ _ _ (before_cons (by decide) (before_nil _ _))
      · exact readCov_fill_of_before (Val := Elt Ideal) (e := .f32) arg8.view (0 : EReal) (k1_pay6 (F := Ideal)) pay6_at hz2 _ (0 : Fin 2) [_] _ _ _ (before_cons (by decide) (before_nil _ _))
    · intro x
      simp only [View.readAt_eq_ld, harg2.read_unread, harg3.read_unread, harg4.read_unread, View.ld_unit_zero (S := S1x64x512) hz3, View.ld_unit_zero (S := S1x512x64) hz3, pay17_14]
      refine pieceA_of x0 x1 x2 (fun _ => (⊥ : EReal)) (fun _ => (0 : EReal)) 0 (by omega) (by decide) (by decide) (by decide) _ _ ?_ ?_ x
      · exact readCov_fill_of_before (Val := Elt Ideal) (e := .f32) arg6.view (⊥ : EReal) (k1_pay4 (F := Ideal)) pay4_at hz2 _ (0 : Fin 2) [] _ _ _ (before_nil _ _)
      · exact readCov_fill_of_before (Val := Elt Ideal) (e := .f32) arg8.view (0 : EReal) (k1_pay6 (F := Ideal)) pay6_at hz2 _ (0 : Fin 2) [] _ _ _ (before_nil _ _)
  · exact View.cover_of_tiledL (s := S4096x64) _ S1024x64.size (by sl_kernel_rfl) y

end CaseA

end Cert.KernelIdeal.Hand

end
-- ==== Proof.IValR1PointC.lean ====
/-
  The attention kernel's last point of a head: the three scratch buffers are updated as at any point, and the stored output
  block is, entry by entry, the updated weighted sum divided by the updated sum of weights.
-/
import proofs.«126686_j77318001263092_2_alg».proof.Proof.IValR1Point

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-- The stored block's payload at an index: the weighted sums' entry over the sums' entry of its row. -/
theorem pay3_apply (v174 : Vec Ideal S4096x64 .f32) (v175 : Vec Ideal S4096x1 .f32) (r : Fin 4096) (e : Fin 64) :
    k1_pay3 v174 v175 (ix3 (0 : Fin 1) r e) = Ideal.div (v174 (ix2 r e)) (v175 (ix2 r (0 : Fin 1))) := by
  unfold k1_pay3
  refine (shapeCast_apply _ shapeCasts_S4096x64_S1x4096x64 (ix3 (0 : Fin 1) r e) (ix2 r e) (by
    rw [Shape.rowMajor_val_two, Shape.rowMajor_val_three]
    show r.val * 64 + e.val = (0 * 4096 + r.val) * 64 + e.val
    omega)).trans ?_
  rw [divf_apply, Cert.LibColumn.broadcastTo_a1_ab_apply v175 broadcasts_S4096x1_S4096x64 r e]

/-- A whole-block store of the quotient's operations over covered loads of two buffers leaves, entry by entry, the quotient
    of what the two lists of stores leave. -/
theorem out_abs {sig' : RefSig} {κ : Kind} {sp : Space} (v8 : View sig' κ sp S4096x64 .f32) (v7 : View sig' κ sp S4096x1 .f32)
    (LA : List (View.Piece (Elt Ideal) S4096x64 .f32)) (LL : List (View.Piece (Elt Ideal) S4096x1 .f32))
    (inbO : ∀ b, (![0, 0, 0] : Fin 3 → ℕ) b + (![1, 4096, 64] : Fin 3 → ℕ) b ≤ S1x4096x64.size b)
    (inb8 : ∀ b, (![0, 0] : Fin 2 → ℕ) b + (![4096, 64] : Fin 2 → ℕ) b ≤ S4096x64.size b)
    (inb7 : ∀ b, (![0, 0] : Fin 2 → ℕ) b + (![4096, 1] : Fin 2 → ℕ) b ≤ S4096x1.size b)
    (r : Fin 4096) (e : Fin 64) :
    View.canon [(⟨Rect.unit (s := S1x4096x64) ![0, 0, 0] ![1, 4096, 64] inbO,
        k1_pay3 (v8.readCov LA (Rect.unit (s := S4096x64) ![0, 0] ![4096, 64] inb8).toLoadRect)
          (v7.readCov LL (Rect.unit (s := S4096x1) ![0, 0] ![4096, 1] inb7).toLoadRect)⟩ : View.Piece (Elt Ideal) S1x4096x64 .f32)]
        (ix3 (0 : Fin 1) r e)
      = Ideal.div (View.canon LA (ix2 r e)) (View.canon LL (ix2 r (0 : Fin 1))) := by
  refine (congrFun (View.canon_unit_zero (S := S1x4096x64) hz3 inbO _) _).trans ?_
  rw [pay3_apply, View.readCov_eq_canon', View.readCov_eq_canon']
  beta_reduce
  congr 2
  · funext b; apply Fin.ext
    match b with
    | ⟨0, _⟩ => show 0 + 1 * r.val = r.val; omega
    | ⟨1, _⟩ => show 0 + 1 * e.val = e.val; omega
  · funext b; apply Fin.ext
    match b with
    | ⟨0, _⟩ => show 0 + 1 * r.val = r.val; omega
    | ⟨1, _⟩ => show 0 + 1 * 0 = 0; omega

section CaseC
variable (c : Dev nD) (i : grid1.Coords) (arg2 : Memref sig .tc .vmem S1x4096x64 .bf16) (harg2 : arg2.IsWhole) (arg3 : Memref sig .tc .vmem S1x64x512 .bf16) (harg3 : arg3.IsWhole) (arg4 : Memref sig .tc .vmem S1x512x64 .bf16) (harg4 : arg4.IsWhole) (arg5 : Memref sig .tc .vmem S1x4096x64 .f32) (harg5 : arg5.IsWhole) (arg6 : Memref sig .tc .vmem S4096x1 .f32) (harg6 : arg6.IsWhole) (arg7 : Memref sig .tc .vmem S4096x1 .f32) (harg7 : arg7.IsWhole) (arg8 : Memref sig .tc .vmem S4096x64 .f32) (harg8 : arg8.IsWhole) (hc0 : ¬cond1_0 i) (hc1 : cond1_1 i)
  (x0 : Vec Ideal S1x4096x64 .bf16) (x1 : Vec Ideal S1x64x512 .bf16) (x2 : Vec Ideal S1x512x64 .bf16)
  (xs0 xs1 : Vec Ideal S4096x1 .f32) (xs2 : Vec Ideal S4096x64 .f32)

set_option maxHeartbeats 2000000 in
theorem sout1_C_0_eq : sout1_C_0 c i arg2 harg2 arg3 harg3 arg4 harg4 arg5 harg5 arg6 harg6 arg7 harg7 arg8 harg8 hc0 hc1 x0 x1 x2 xs0 xs1 xs2 = ptM x0 x1 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  funext y
  refine View.canon_apply_of_pieces (ptM x0 x1 xs0) _ ?_ y (scover1_C_0 c i arg2 harg2 arg3 harg3 arg4 harg4 arg5 harg5 arg6 harg6 arg7 harg7 arg8 harg8 hc0 hc1 x0 x1 x2 xs0 xs1 xs2 y)
  unfold kernelRun1_C
  dsimp only
  sl_unfold_words
  refine List.forall_mem_cons.2 ⟨?_, List.forall_mem_cons.2 ⟨?_, List.forall_mem_cons.2 ⟨?_, List.forall_mem_cons.2 ⟨?_, fun _ h => absurd h (List.not_mem_nil)⟩⟩⟩⟩
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay42_eq]
    exact pieceM x0 x1 xs0 3072 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay33_eq]
    exact pieceM x0 x1 xs0 2048 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay24_19]
    exact pieceM x0 x1 xs0 1024 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay15_10]
    exact pieceM x0 x1 xs0 0 (by omega) (by decide) (by decide) x

set_option maxHeartbeats 2000000 in
theorem sout1_C_1_eq : sout1_C_1 c i arg2 harg2 arg3 harg3 arg4 harg4 arg5 harg5 arg6 harg6 arg7 harg7 arg8 harg8 hc0 hc1 x0 x1 x2 xs0 xs1 xs2 = ptL x0 x1 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  funext y
  refine View.canon_apply_of_pieces (ptL x0 x1 xs0 xs1) _ ?_ y (scover1_C_1 c i arg2 harg2 arg3 harg3 arg4 harg4 arg5 harg5 arg6 harg6 arg7 harg7 arg8 harg8 hc0 hc1 x0 x1 x2 xs0 xs1 xs2 y)
  unfold kernelRun1_C
  dsimp only
  sl_unfold_words
  refine List.forall_mem_cons.2 ⟨?_, List.forall_mem_cons.2 ⟨?_, List.forall_mem_cons.2 ⟨?_, List.forall_mem_cons.2 ⟨?_, fun _ h => absurd h (List.not_mem_nil)⟩⟩⟩⟩
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay1_40]
    exact pieceL x0 x1 xs0 xs1 3072 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay34_31]
    exact pieceL x0 x1 xs0 xs1 2048 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay25_22]
    exact pieceL x0 x1 xs0 xs1 1024 (by omega) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay16_13]
    exact pieceL x0 x1 xs0 xs1 0 (by omega) (by decide) (by decide) x

set_option maxHeartbeats 2000000 in
theorem sout1_C_2_eq : sout1_C_2 c i arg2 harg2 arg3 harg3 arg4 harg4 arg5 harg5 arg6 harg6 arg7 harg7 arg8 harg8 hc0 hc1 x0 x1 x2 xs0 xs1 xs2 = ptA x0 x1 x2 xs0 xs2 := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  funext y
  refine View.canon_apply_of_pieces (ptA x0 x1 x2 xs0 xs2) _ ?_ y (scover1_C_2 c i arg2 harg2 arg3 harg3 arg4 harg4 arg5 harg5 arg6 harg6 arg7 harg7 arg8 harg8 hc0 hc1 x0 x1 x2 xs0 xs1 xs2 y)
  unfold kernelRun1_C
  dsimp only
  sl_unfold_words
  refine List.forall_mem_cons.2 ⟨?_, List.forall_mem_cons.2 ⟨?_, List.forall_mem_cons.2 ⟨?_, List.forall_mem_cons.2 ⟨?_, fun _ h => absurd h (List.not_mem_nil)⟩⟩⟩⟩
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay2_41]
    exact pieceA x0 x1 x2 xs0 xs2 3072 (by omega) (by decide) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay35_32]
    exact pieceA x0 x1 x2 xs0 xs2 2048 (by omega) (by decide) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay26_23]
    exact pieceA x0 x1 x2 xs0 xs2 1024 (by omega) (by decide) (by decide) (by decide) x
  · intro x
    simp only [View.readAt_eq_ld, harg2.read_unread, harg3.read_unread, harg4.read_unread, harg6.read_unread, harg7.read_unread, harg8.read_unread, View.ld_unit_zero (S := S1x64x512) hz3, View.ld_unit_zero (S := S1x512x64) hz3, pay17_14]
    exact pieceA x0 x1 x2 xs0 xs2 0 (by omega) (by decide) (by decide) (by decide) x

/-- The run's one output piece: the whole block, its payload the quotient's operations over covered loads of the two scratch
    buffers as this point's slice stores left them. -/
theorem L3_C_eq :
    (kernelRun1_C c i arg2 harg2 arg3 harg3 arg4 harg4 arg5 harg5 arg6 harg6 arg7 harg7 arg8 harg8 hc0 hc1 x0 x1 x2 xs0 xs1 xs2).1
      = [⟨Rect.unit (s := S1x4096x64) ![0, 0, 0] ![1, 4096, 64] inb_S1x4096x64_S1x4096x64_0_0_0,
          k1_pay3
            (arg8.view.readCov (kernelRun1_C c i arg2 harg2 arg3 harg3 arg4 harg4 arg5 harg5 arg6 harg6 arg7 harg7 arg8 harg8 hc0 hc1 x0 x1 x2 xs0 xs1 xs2).2.2.2.1
              (Rect.unit (s := S4096x64) ![0, 0] ![4096, 64] inb_S4096x64_S4096x64_0_0).toLoadRect)
            (arg7.view.readCov (kernelRun1_C c i arg2 harg2 arg3 harg3 arg4 harg4 arg5 harg5 arg6 harg6 arg7 harg7 arg8 harg8 hc0 hc1 x0 x1 x2 xs0 xs1 xs2).2.2.1
              (Rect.unit (s := S4096x1) ![0, 0] ![4096, 1] inb_S4096x1_S4096x1_0_0).toLoadRect)⟩] := rfl

/-- The output block at the head's last point: the quotient of the two updated buffers. -/
theorem out1_C_3_souts (r : Fin 4096) (e : Fin 64) :
    out1_C_3 c i arg2 harg2 arg3 harg3 arg4 harg4 arg5 harg5 arg6 harg6 arg7 harg7 arg8 harg8 hc0 hc1 x0 x1 x2 xs0 xs1 xs2 (ix3 (0 : Fin 1) r e)
      = Ideal.div (sout1_C_2 c i arg2 harg2 arg3 harg3 arg4 harg4 arg5 harg5 arg6 harg6 arg7 harg7 arg8 harg8 hc0 hc1 x0 x1 x2 xs0 xs1 xs2 (ix2 r e)) (sout1_C_1 c i arg2 harg2 arg3 harg3 arg4 harg4 arg5 harg5 arg6 harg6 arg7 harg7 arg8 harg8 hc0 hc1 x0 x1 x2 xs0 xs1 xs2 (ix2 r (0 : Fin 1))) :=
  have e3 : out1_C_3 c i arg2 harg2 arg3 harg3 arg4 harg4 arg5 harg5 arg6 harg6 arg7 harg7 arg8 harg8 hc0 hc1 x0 x1 x2 xs0 xs1 xs2 = View.canon (kernelRun1_C c i arg2 harg2 arg3 harg3 arg4 harg4 arg5 harg5 arg6 harg6 arg7 harg7 arg8 harg8 hc0 hc1 x0 x1 x2 xs0 xs1 xs2).1 :=
    View.read_writes_eq_canon VO1_3 VO1_3.junk _ (cover1_C_3 c i arg2 harg2 arg3 harg3 arg4 harg4 arg5 harg5 arg6 harg6 arg7 harg7 arg8 harg8 hc0 hc1 x0 x1 x2 xs0 xs1 xs2)
  have e2 : sout1_C_2 c i arg2 harg2 arg3 harg3 arg4 harg4 arg5 harg5 arg6 harg6 arg7 harg7 arg8 harg8 hc0 hc1 x0 x1 x2 xs0 xs1 xs2 = View.canon (kernelRun1_C c i arg2 harg2 arg3 harg3 arg4 harg4 arg5 harg5 arg6 harg6 arg7 harg7 arg8 harg8 hc0 hc1 x0 x1 x2 xs0 xs1 xs2).2.2.2.1 :=
    View.read_writes_eq_canon VS1_2 VS1_2.junk _ (scover1_C_2 c i arg2 harg2 arg3 harg3 arg4 harg4 arg5 harg5 arg6 harg6 arg7 harg7 arg8 harg8 hc0 hc1 x0 x1 x2 xs0 xs1 xs2)
  have e1 : sout1_C_1 c i arg2 harg2 arg3 harg3 arg4 harg4 arg5 harg5 arg6 harg6 arg7 harg7 arg8 harg8 hc0 hc1 x0 x1 x2 xs0 xs1 xs2 = View.canon (kernelRun1_C c i arg2 harg2 arg3 harg3 arg4 harg4 arg5 harg5 arg6 harg6 arg7 harg7 arg8 harg8 hc0 hc1 x0 x1 x2 xs0 xs1 xs2).2.2.1 :=
    View.read_writes_eq_canon VS1_1 VS1_1.junk _ (scover1_C_1 c i arg2 harg2 arg3 harg3 arg4 harg4 arg5 harg5 arg6 harg6 arg7 harg7 arg8 harg8 hc0 hc1 x0 x1 x2 xs0 xs1 xs2)
  (congrFun e3 _).trans <|
    (congrArg (fun L => View.canon L (ix3 (0 : Fin 1) r e)) (L3_C_eq c i arg2 harg2 arg3 harg3 arg4 harg4 arg5 harg5 arg6 harg6 arg7 harg7 arg8 harg8 hc0 hc1 x0 x1 x2 xs0 xs1 xs2)).trans <|
      (out_abs arg8.view arg7.view _ _ _ _ _ r e).trans <|
        (congrArg₂ Ideal.div (congrFun e2 _) (congrFun e1 _)).symm

theorem out1_C_3_at (r : Fin 4096) (e : Fin 64) :
    out1_C_3 c i arg2 harg2 arg3 harg3 arg4 harg4 arg5 harg5 arg6 harg6 arg7 harg7 arg8 harg8 hc0 hc1 x0 x1 x2 xs0 xs1 xs2 (ix3 (0 : Fin 1) r e)
      = Ideal.div (ptA x0 x1 x2 xs0 xs2 (ix2 r e)) (ptL x0 x1 xs0 xs1 (ix2 r (0 : Fin 1))) := by
  rw [out1_C_3_souts, sout1_C_2_eq, sout1_C_1_eq]

end CaseC

end Cert.KernelIdeal.Hand

end
-- ==== Proof.IValR1.lean ====
/-
  The attention region's output array after the region is the online recurrence's quotient, entry by entry.

  The three scratch buffers carry, row by row, the state of the recurrence: after the point of head h and tile k the
  maxima, the sums and the weighted sums of row r (and feature e) are the state after k + 1 tiles of the scores of row r
  of head h and of feature e of the head's value rows. At a head's first tile the buffers are first reset to (−∞, 0, 0),
  the state before any tile; at every other tile the point updates what the point before left, and the point before is
  the same head's previous tile. At a head's last tile the output block is the quotient of the weighted sums by the
  sums, which is the quotient after the eight tiles; the ten heads' blocks fill the array.
-/
import proofs.«126686_j77318001263092_2_alg».proof.Proof.IValR1Spec
import proofs.«126686_j77318001263092_2_alg».proof.Proof.IValR1Blocks
import proofs.«126686_j77318001263092_2_alg».proof.Proof.IValR1Point
import proofs.«126686_j77318001263092_2_alg».proof.Proof.IValR1PointA
import proofs.«126686_j77318001263092_2_alg».proof.Proof.IValR1PointC

noncomputable section

namespace Cert.KernelIdeal.Hand

open Cert.KernelIdeal Cert.KernelIdeal.Gen
open Idealize.ShloMosaic Idealize.ShloMosaic.TcCoe Idealize.ShloMosaic.ValueIdx
open Cert.LibOnlineSoftmax (state state_succ_m state_succ_l state_succ_a)

/-! ## One tile of the recurrence -/

/-- If the point's scores of row `r` are tile `k` of `s`, its values at feature `e` are tile `k` of `v`, and the three
    buffers hold at row `r` (and feature `e`) the state after `k` tiles, the point's update holds the state after
    `k + 1` tiles. -/
theorem step_state (s v : ℕ → Fin 512 → EReal) (k : ℕ)
    (x0 : Vec Ideal S1x4096x64 .bf16) (x1 : Vec Ideal S1x64x512 .bf16) (x2 : Vec Ideal S1x512x64 .bf16)
    (m l : Vec Ideal S4096x1 .f32) (a : Vec Ideal S4096x64 .f32) (r : Fin 4096) (e : Fin 64)
    (hS : ∀ u : Fin 512, ptS x0 x1 r u = s k u) (hV : ∀ u : Fin 512, x2 (ix3 (0 : Fin 1) u e) = v k u)
    (hm : m (ix2 r (0 : Fin 1)) = (state s v k).m) (hl : l (ix2 r (0 : Fin 1)) = (state s v k).l)
    (ha : a (ix2 r e) = (state s v k).a) :
    ptM x0 x1 m (ix2 r (0 : Fin 1)) = (state s v (k + 1)).m
      ∧ ptL x0 x1 m l (ix2 r (0 : Fin 1)) = (state s v (k + 1)).l
      ∧ ptA x0 x1 x2 m a (ix2 r e) = (state s v (k + 1)).a := by
  have hM : ptM x0 x1 m (ix2 r (0 : Fin 1)) = (state s v (k + 1)).m := by
    rw [ptM_at, hm, state_succ_m]
    exact congrArg (fun f => max (state s v k).m (Finset.univ.sup f)) (funext hS)
  refine ⟨hM, ?_, ?_⟩
  · rw [ptL_at, hM, hm, hl, state_succ_l]
    simp only [hS]
  · rw [ptA_at, hM, hm, ha, state_succ_a]
    simp only [hS, hV]

-- the TensorCore's buffer contents when the region is entered
variable (V : (c : Dev nD) → (b : Ref sig .tc) → Buf (Elt Ideal) ((c : Thread nD τ).loc b)) (c : Dev nD)

/-! ## The point's blocks are a tile of the head's rows -/

/-- Column 512 · k + u of a tile below 8, either way round. -/
theorem tileIdx_eq (t : Fin cfg1.N) (u : Fin 512) :
    (⟨512 * (t.val % 8) + u.val, tile_lt t u⟩ : Fin 4096)
      = ⟨(u.val + 512 * (t.val % 8)) % 4096, Nat.mod_lt _ (by norm_num)⟩ :=
  Fin.ext (by
    show 512 * (t.val % 8) + u.val = (u.val + 512 * (t.val % 8)) % 4096
    have := u.isLt
    omega)

/-- The point's scores of row `r` are tile `t % 8` of the scores of row `r` of head `t / 8`. -/
theorem ptS_tile (t : Fin cfg1.N) (h : Fin 10) (k : ℕ) (hh : h.val = t.val / 8) (hk : k = t.val % 8) (r : Fin 4096) (u : Fin 512) :
    ptS (iblk1 V c 0 t) (iblk1 V c 1 t) r u = sT (V c main_v1) (V c main_v3) h r k u := by
  obtain rfl : h = ⟨t.val / 8, head_lt t⟩ := Fin.ext hh
  subst hk
  unfold ptS sT
  refine Finset.sum_congr rfl fun e _ => ?_
  rw [blk1_0 V c t r e, blk1_1 V c t e u, tileIdx_eq t u]

/-- The point's value tile at feature `e` is tile `t % 8` of feature `e` of the value rows of head `t / 8`. -/
theorem x2_tile (t : Fin cfg1.N) (h : Fin 10) (k : ℕ) (hh : h.val = t.val / 8) (hk : k = t.val % 8) (u : Fin 512) (e : Fin 64) :
    iblk1 V c 2 t (ix3 (0 : Fin 1) u e) = vT (V c main_v4) h e k u := by
  obtain rfl : h = ⟨t.val / 8, head_lt t⟩ := Fin.ext hh
  subst hk
  unfold vT
  rw [blk1_2 V c t u e, tileIdx_eq t u]

/-- One point pushes the state of row `r`, feature `e` of its head one tile on. -/
theorem pt_inv (t : Fin cfg1.N) (h : Fin 10) (k : ℕ) (hh : h.val = t.val / 8) (hk : k = t.val % 8)
    (m l : Vec Ideal S4096x1 .f32) (a : Vec Ideal S4096x64 .f32) (r : Fin 4096) (e : Fin 64)
    (hm : m (ix2 r (0 : Fin 1)) = (state (sT (V c main_v1) (V c main_v3) h r) (vT (V c main_v4) h e) k).m) (hl : l (ix2 r (0 : Fin 1)) = (state (sT (V c main_v1) (V c main_v3) h r) (vT (V c main_v4) h e) k).l)
    (ha : a (ix2 r e) = (state (sT (V c main_v1) (V c main_v3) h r) (vT (V c main_v4) h e) k).a) :
    ptM (iblk1 V c 0 t) (iblk1 V c 1 t) m (ix2 r (0 : Fin 1)) = (state (sT (V c main_v1) (V c main_v3) h r) (vT (V c main_v4) h e) (k + 1)).m
      ∧ ptL (iblk1 V c 0 t) (iblk1 V c 1 t) m l (ix2 r (0 : Fin 1)) = (state (sT (V c main_v1) (V c main_v3) h r) (vT (V c main_v4) h e) (k + 1)).l
      ∧ ptA (iblk1 V c 0 t) (iblk1 V c 1 t) (iblk1 V c 2 t) m a (ix2 r e) = (state (sT (V c main_v1) (V c main_v3) h r) (vT (V c main_v4) h e) (k + 1)).a :=
  step_state (sT (V c main_v1) (V c main_v3) h r) (vT (V c main_v4) h e) k (iblk1 V c 0 t) (iblk1 V c 1 t) (iblk1 V c 2 t) m l a r e
    (fun u => ptS_tile V c t h k hh hk r u) (fun u => x2_tile V c t h k hh hk u e) hm hl ha

/-! ## What the buffers hold after a point, in terms of the point's update -/

/-- At a head's first tile the three scratch buffers hold the update of the reset contents (−∞, 0, 0). -/
theorem stepA (t : Fin cfg1.N) (h0 : t.val % 8 = 0) :
    (outsAt1 V c t.val t.isLt).2.1 = ptM (iblk1 V c 0 t) (iblk1 V c 1 t) (fun _ => (⊥ : EReal))
      ∧ (outsAt1 V c t.val t.isLt).2.2.1 = ptL (iblk1 V c 0 t) (iblk1 V c 1 t) (fun _ => (⊥ : EReal)) (fun _ => (0 : EReal))
      ∧ (outsAt1 V c t.val t.isLt).2.2.2 = ptA (iblk1 V c 0 t) (iblk1 V c 1 t) (iblk1 V c 2 t) (fun _ => (⊥ : EReal)) (fun _ => (0 : EReal)) := by
  have h1 : ¬t.val % 8 = 7 := by omega
  rw [outsAt1_A V c t h0 h1]
  dsimp only
  exact ⟨sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)⟩

/-- At every other tile they hold the update of what the point before left. -/
theorem stepBC (t : Fin cfg1.N) (h0 : ¬t.val % 8 = 0) :
    (outsAt1 V c t.val t.isLt).2.1 = ptM (iblk1 V c 0 t) (iblk1 V c 1 t) (outsAt1 V c (t.val - 1) (Nat.lt_of_le_of_lt (Nat.sub_le _ _) t.isLt)).2.1
      ∧ (outsAt1 V c t.val t.isLt).2.2.1 = ptL (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1
      ∧ (outsAt1 V c t.val t.isLt).2.2.2
          = ptA (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2 := by
  by_cases h1 : t.val % 8 = 7
  · rw [outsAt1_C V c t h0 h1]
    dsimp only
    exact ⟨sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2⟩
  · rw [outsAt1_B V c t h0 h1]
    dsimp only
    exact ⟨sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2⟩

/-- At a head's last tile the output block is the quotient of the updated weighted sums by the updated sums. -/
theorem stepOut (t : Fin cfg1.N) (h7 : t.val % 8 = 7) (r : Fin 4096) (e : Fin 64) :
    (outsAt1 V c t.val t.isLt).1 (ix3 (0 : Fin 1) r e)
      = Ideal.div (ptA (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2 (ix2 r e))
          (ptL (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1 (ix2 r (0 : Fin 1))) := by
  have h0 : ¬t.val % 8 = 0 := by omega
  have h1 : t.val % 8 = 7 := h7
  rw [outsAt1_C V c t h0 h1]
  dsimp only
  exact out1_C_3_at c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 r e

/-! ## The invariant -/

/-- After the point at position `n` — head `h = n / 8`, tile `k = n % 8` — the scratch buffers hold, at row `r` and feature
    `e`, the state after `k + 1` tiles of the head's recurrence for that row and feature. -/
theorem inv : ∀ (n : ℕ) (hn : n < cfg1.N) (h : Fin 10) (k : ℕ), h.val = n / 8 → k = n % 8 → ∀ (r : Fin 4096) (e : Fin 64),
    (outsAt1 V c n hn).2.1 (ix2 r (0 : Fin 1)) = (state (sT (V c main_v1) (V c main_v3) h r) (vT (V c main_v4) h e) (k + 1)).m
      ∧ (outsAt1 V c n hn).2.2.1 (ix2 r (0 : Fin 1)) = (state (sT (V c main_v1) (V c main_v3) h r) (vT (V c main_v4) h e) (k + 1)).l
      ∧ (outsAt1 V c n hn).2.2.2 (ix2 r e) = (state (sT (V c main_v1) (V c main_v3) h r) (vT (V c main_v4) h e) (k + 1)).a
  | 0, hn, h, k, hh, hk, r, e => by
    have hk0 : k = 0 := hk
    subst hk0
    obtain ⟨e0, e1, e2⟩ := stepA V c ⟨0, hn⟩ rfl
    have hp := pt_inv V c ⟨0, hn⟩ h 0 hh rfl (fun _ => (⊥ : EReal)) (fun _ => (0 : EReal)) (fun _ => (0 : EReal)) r e rfl rfl rfl
    exact ⟨(congrFun e0 _).trans hp.1, (congrFun e1 _).trans hp.2.1, (congrFun e2 _).trans hp.2.2⟩
  | n + 1, hn, h, k, hh, hk, r, e => by
    by_cases h0 : (n + 1) % 8 = 0
    · have hk0 : k = 0 := hk.trans h0
      subst hk0
      obtain ⟨e0, e1, e2⟩ := stepA V c ⟨n + 1, hn⟩ h0
      have hp := pt_inv V c ⟨n + 1, hn⟩ h 0 hh h0.symm (fun _ => (⊥ : EReal)) (fun _ => (0 : EReal)) (fun _ => (0 : EReal)) r e rfl rfl rfl
      exact ⟨(congrFun e0 _).trans hp.1, (congrFun e1 _).trans hp.2.1, (congrFun e2 _).trans hp.2.2⟩
    · obtain ⟨k', rfl⟩ : ∃ k', k = k' + 1 := ⟨k - 1, by omega⟩
      obtain ⟨e0, e1, e2⟩ := stepBC V c ⟨n + 1, hn⟩ h0
      have ih := inv n (Nat.lt_of_succ_lt hn) h k' (by omega) (by omega) r e
      have hp := pt_inv V c ⟨n + 1, hn⟩ h (k' + 1) hh hk _ _ _ r e ih.1 ih.2.1 ih.2.2
      exact ⟨(congrFun e0 _).trans hp.1, (congrFun e1 _).trans hp.2.1, (congrFun e2 _).trans hp.2.2⟩

/-! ## The array -/

theorem arr1_3 (V : (c : Dev nD) → (b : Ref sig .tc) → Buf (Elt Ideal) ((c : Thread nD τ).loc b)) (c : Dev nD) :
    (dat1 V c).arrAt 3 cfg1.N = onlineOut (V c main_v1) (V c main_v3) (V c main_v4) :=
  arr1_3_of V c (onlineOut (V c main_v1) (V c main_v3) (V c main_v4)) fun t h7 r e => by
    have h0 : ¬t.val % 8 = 0 := by omega
    obtain ⟨-, e1, e2⟩ := stepBC V c t h0
    obtain ⟨-, i1, i2⟩ := inv V c t.val t.isLt ⟨t.val / 8, head_lt t⟩ 7 rfl h7.symm r e
    refine (congrFun (after1_3 V c t) (ix3 (0 : Fin 1) r e)).trans ?_
    refine (stepOut V c t h7 r e).trans ?_
    exact congrArg₂ Ideal.div ((congrFun e2 (ix2 r e)).symm.trans i2) ((congrFun e1 (ix2 r (0 : Fin 1))).symm.trans i1)

end Cert.KernelIdeal.Hand

end
-- ==== Proof.IValR2.lean ====
/-
  The normalisation kernel's result array, as one function of the arrays the region finds.

  At each of its four grid points the kernel reads 1024 rows of the attention output and the same rows of the input, adds
  them, and normalises each row of the sum: it subtracts the row's mean (the row sum divided by 640), multiplies by the
  reciprocal square root of the row's variance (the sum of the squared deviations divided by 640) plus ε, scales by gamma
  and shifts by beta. The four blocks of 1024 rows tile the 4096 rows, so after the region the result array holds, at
  (n, d), the normalisation of row n of the sum of the two arrays, at column d.

  First the arithmetic of one block read at an index (the row sums as finite sums over the 640 columns, the per-row
  columns of means and reciprocal square roots read at their row, the scale and shift vectors read at their column); then
  each block of the two row-blocked arrays read at its place in the array; then the blocks put together.
-/
import proofs.«126686_j77318001263092_2_alg».proof.Proof.IFrameR2
import proofs.«126686_j77318001263092_2_alg».proof.Proof.Spec
import proofs.«126686_j77318001263092_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.Attn (c640 cEps layerNorm A1)

/-! ## One block's arithmetic, read at an index -/

/-- The normalisation of one row r of 640 entries, at column d. -/
def normRow (r : Fin 640 → EReal) (gamma beta : A1 640) (d : Fin 640) : EReal :=
  (r d - Ideal.div (∑ k : Fin 640, r k) c640)
      * Ideal.rsqrt (Ideal.div (∑ k : Fin 640, (r k - Ideal.div (∑ k' : Fin 640, r k') c640)
          * (r k - Ideal.div (∑ k' : Fin 640, r k') c640)) c640 + cEps)
      * gamma (ix1 d)
    + beta (ix1 d)

/-- The row normalisation of an array is the normalisation of each of its rows. -/
theorem layerNorm_eq_normRow (v : Fin 4096 → Fin 640 → EReal) (gamma beta : A1 640) (n : Fin 4096) (d : Fin 640) :
    layerNorm v gamma beta n d = normRow (fun k => v n k) gamma beta d := rfl

/-- A sum along the rows of a block of 1024 rows of 640 entries, from the zero word, is at row p the sum of the row's 640
    entries. -/
theorem rowSum_at (src : FVec Ideal S1024x640 .f32) (h : S1024x640.Reduces [1] S1024) (hφ : FKind.Formats .f32)
    (hacc : (0x00000000#32 : BitVec 32) = 0x00000000#32) (p : Fin 1024) :
    multiReduction .add [1] S1024 src 0x00000000#32 h hφ hacc (ix1 p) = ∑ k : Fin 640, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The column of row means of a block: each row's sum divided by 640. -/
def meanCol (s : FVec Ideal S1024x640 .f32) : FVec Ideal S1024x1 .f32 :=
  divf (shapeCast S1024x1 (multiReduction .add [1] S1024 s 0x00000000#32 reduces_S1024x640_S1024 (.inl rfl) rfl) shapeCasts_S1024_S1024x1)
    (broadcast S1024x1 (Scalar.ofBits .f32 0x44200000#32))

/-- The mean of row p. -/
theorem meanCol_at (s : FVec Ideal S1024x640 .f32) (p : Fin 1024) (z : Fin 1) :
    meanCol s (ix2 p z) = Ideal.div (∑ k : Fin 640, s (ix2 p k)) c640 := by
  unfold meanCol
  rw [divf_apply, Cert.LibColumn.shapeCast_a_a1_apply, rowSum_at, broadcast_apply]
  rfl

/-- The deviations of a block from its row means. -/
def dev (s : FVec Ideal S1024x640 .f32) : FVec Ideal S1024x640 .f32 :=
  subf s (broadcastTo S1024x640 (meanCol s) broadcasts_S1024x1_S1024x640)

/-- The deviation at (p, q): the entry minus the mean of row p. -/
theorem dev_at (s : FVec Ideal S1024x640 .f32) (p : Fin 1024) (q : Fin 640) :
    dev s (ix2 p q) = s (ix2 p q) - Ideal.div (∑ k : Fin 640, s (ix2 p k)) c640 := by
  unfold dev
  rw [subf_apply, Cert.LibColumn.broadcastTo_a1_ab_apply, meanCol_at]

/-- The column of reciprocal square roots of a block's row variances plus ε. -/
def rstdCol (s : FVec Ideal S1024x640 .f32) : FVec Ideal S1024x1 .f32 :=
  rsqrt (addf
    (divf (shapeCast S1024x1 (multiReduction .add [1] S1024 (mulf (dev s) (dev s)) 0x00000000#32 reduces_S1024x640_S1024 (.inl rfl) rfl)
        shapeCasts_S1024_S1024x1)
      (broadcast S1024x1 (Scalar.ofBits .f32 0x44200000#32)))
    (broadcast S1024x1 (Scalar.ofBits .f32 0x3727C5AC#32)))

/-- The reciprocal square root of the variance of row p plus ε. -/
theorem rstdCol_at (s : FVec Ideal S1024x640 .f32) (p : Fin 1024) (z : Fin 1) :
    rstdCol s (ix2 p z)
      = Ideal.rsqrt (Ideal.div (∑ k : Fin 640, (s (ix2 p k) - Ideal.div (∑ k' : Fin 640, s (ix2 p k')) c640)
          * (s (ix2 p k) - Ideal.div (∑ k' : Fin 640, s (ix2 p k')) c640)) c640 + cEps) := by
  unfold rstdCol
  show Ideal.rsqrt (Ideal.div (shapeCast S1024x1 _ shapeCasts_S1024_S1024x1 (ix2 p z)) c640 + cEps) = _
  rw [Cert.LibColumn.shapeCast_a_a1_apply, rowSum_at]
  simp only [mulf_apply, dev_at]

/-- The body's arithmetic is: the two blocks added, the deviations of the sum times the reciprocal square roots, times the
    scale laid along every row, plus the shift laid along every row. -/
theorem pay_eq (x0 x1 : Vec Ideal S1024x640 .f32) (g b : Vec Ideal S640 .f32) :
    k2_pay1 x0 x1 g b
      = addf (mulf (mulf (dev (addf (shapeCast S1024x640 x0 shapeCasts_S1024x640_S1024x640) x1))
            (broadcastTo S1024x640 (rstdCol (addf (shapeCast S1024x640 x0 shapeCasts_S1024x640_S1024x640) x1)) broadcasts_S1024x1_S1024x640))
          (broadcastTo S1024x640 (shapeCast S1x640 g shapeCasts_S640_S1x640) broadcasts_S1x640_S1024x640))
        (broadcastTo S1024x640 (shapeCast S1x640 b shapeCasts_S640_S1x640) broadcasts_S1x640_S1024x640) := rfl

/-- The body's arithmetic at (p, q): row p of the sum of the two blocks, normalised, at column q. -/
theorem pay_at (x0 x1 : Vec Ideal S1024x640 .f32) (g b : Vec Ideal S640 .f32) (p : Fin 1024) (q : Fin 640) :
    k2_pay1 x0 x1 g b (ix2 p q) = normRow (fun k => x0 (ix2 p k) + x1 (ix2 p k)) g b q := by
  rw [pay_eq]
  rw [addf_apply, mulf_apply, mulf_apply, dev_at, Cert.LibColumn.broadcastTo_a1_ab_apply, rstdCol_at,
    broadcastTo_1b_ab_apply, broadcastTo_1b_ab_apply, shapeCast_a_1a_apply, shapeCast_a_1a_apply]
  simp only [addf_apply, shapeCast_self]
  rfl

/-- One block's arithmetic against the arrays: when rows p of the two blocks are rows n of two arrays and the block's scale
    and shift vectors are the arrays' own, the body's value at (p, q) is the arrays' row normalisation at (n, q). -/
theorem pay_at_rows (x0 x1 : Vec Ideal S1024x640 .f32) (g b : Vec Ideal S640 .f32)
    (a0 a1 : S4096x640.Idx → EReal) (G B : S640.Idx → EReal) (p : Fin 1024) (q : Fin 640) (n : Fin 4096)
    (h0 : ∀ k : Fin 640, x0 (ix2 p k) = a0 (ix2 n k)) (h1 : ∀ k : Fin 640, x1 (ix2 p k) = a1 (ix2 n k))
    (hg : g = G) (hb : b = B) :
    k2_pay1 x0 x1 g b (ix2 p q) = layerNorm (fun n d => a0 (ix2 n d) + a1 (ix2 n d)) G B n q := by
  rw [pay_at, layerNorm_eq_normRow, hg, hb]
  simp only [h0, h1]

/-! ## The blocks at their place in the arrays -/

/-- The offsets (0, 0) of a whole two-axis block are zero on every axis. -/
theorem zero2 : (![0, 0] : Fin 2 → Nat) = fun _ => 0 := funext fun a => by fin_cases a <;> rfl
/-- The offset (0) of a whole one-axis block is zero on its axis. -/
theorem zero1 : (![0] : Fin 1 → Nat) = fun _ => 0 := funext fun a => by fin_cases a <;> rfl

/-- The region's index maps at every grid point: the two row-blocked inputs move with the output, block t at rows
    1024 t, all 640 columns; the scale and shift vectors are read whole. -/
theorem blockIndex2 : ∀ t : Fin cfg2.N,
    win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 1) = 0 ∧ win2_3.index t (0 : Fin 1) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- The row normalisation of the sum of two arrays of 4096 rows of 640 entries, with scale G and shift B, as an array:
    at (n, d), row n of the sum, normalised, at column d. -/
abbrev normedSum (a0 a1 : S4096x640.Idx → EReal) (G B : S640.Idx → EReal) : S4096x640.Idx → EReal :=
  fun y => layerNorm (fun n d => a0 (ix2 n d) + a1 (ix2 n d)) G B (y 0) (y 1)

/-- The result array: the row normalisation of the sum of the attention output and the input, as the region finds them,
    with the scale and shift vectors as the region finds them. -/
abbrev normed (c : Dev nD) : S4096x640.Idx → EReal :=
  normedSum (V c main_v6) (V c main_arg0) (V c main_arg4) (V c main_arg5)

/-- What grid point t writes back is block t of the result array. -/
theorem flushed2_4_eq (c : Dev nD) (t : Fin cfg2.N) :
    (dat2 V c).flushed 4 t = ((cfg2.win 4).blk t).view.read (Elt Ideal) (normed V c) := by
  show (cfg2.win 4).cut (grid2.coords t) ((dat2 V c).after 4 t) = _
  rw [after2_4]
  unfold out2_4
  rw [View.canon_unit_zero zero2]
  simp only [View.ld_unit_zero (S := S1024x640) zero2, View.ld_unit_zero (S := S640) zero1]
  obtain ⟨e00, e01, e10, e11, e2, e3, e40, e41⟩ := blockIndex2 t
  funext j
  obtain ⟨p, q, rfl⟩ : ∃ (p : Fin 1024) (q : Fin 640), j = ix2 p q := ⟨j 0, j 1, eq_ix2 j⟩
  show k2_pay1 (iblk2 V c 0 t) (iblk2 V c 1 t) (iblk2 V c 2 t) (iblk2 V c 3 t) (ix2 p q)
    = normedSum (V c main_v6) (V c main_arg0) (V c main_arg4) (V c main_arg5) (((cfg2.win 4).blk t).view.emb (ix2 p q))
  refine (pay_at_rows (iblk2 V c 0 t) (iblk2 V c 1 t) (iblk2 V c 2 t) (iblk2 V c 3 t) (V c main_v6) (V c main_arg0)
    (V c main_arg4) (V c main_arg5) p q ((((cfg2.win 4).blk t).view.emb (ix2 p q)) 0) (fun k => ?_) (fun k => ?_) ?_ ?_).trans ?_
  · show V c main_v6 (((cfg2.win 0).blk t).view.emb (ix2 p k)) = V c main_v6 (ix2 ((((cfg2.win 4).blk t).view.emb (ix2 p q)) 0) k)
    refine congrArg (V c main_v6) (funext fun a => Fin.ext ?_)
    match a with
    | ⟨0, _⟩ => show win2_0.index t (0 : Fin 2) * 1024 + 1 * p.val = win2_4.index t (0 : Fin 2) * 1024 + 1 * p.val; omega
    | ⟨1, _⟩ => show win2_0.index t (1 : Fin 2) * 640 + 1 * k.val = k.val; omega
  · show V c main_arg0 (((cfg2.win 1).blk t).view.emb (ix2 p k)) = V c main_arg0 (ix2 ((((cfg2.win 4).blk t).view.emb (ix2 p q)) 0) k)
    refine congrArg (V c main_arg0) (funext fun a => Fin.ext ?_)
    match a with
    | ⟨0, _⟩ => show win2_1.index t (0 : Fin 2) * 1024 + 1 * p.val = win2_4.index t (0 : Fin 2) * 1024 + 1 * p.val; omega
    | ⟨1, _⟩ => show win2_1.index t (1 : Fin 2) * 640 + 1 * k.val = k.val; omega
  · funext y
    show V c main_arg4 (((cfg2.win 2).blk t).view.emb y) = V c main_arg4 y
    refine congrArg (V c main_arg4) (funext fun a => Fin.ext ?_)
    match a with
    | ⟨0, _⟩ => show win2_2.index t (0 : Fin 1) * 640 + 1 * (y 0).val = (y 0).val; omega
  · funext y
    show V c main_arg5 (((cfg2.win 3).blk t).view.emb y) = V c main_arg5 y
    refine congrArg (V c main_arg5) (funext fun a => Fin.ext ?_)
    match a with
    | ⟨0, _⟩ => show win2_3.index t (0 : Fin 1) * 640 + 1 * (y 0).val = (y 0).val; omega
  · refine congrArg (layerNorm _ _ _ _) (Fin.ext ?_)
    show q.val = win2_4.index t (1 : Fin 2) * 640 + 1 * q.val
    omega

/-- An index of the result array is in point t's block iff each coordinate is in the block's range on its axis. -/
theorem mem_blk2_4 (t : Fin cfg2.N) (i : S4096x640.Idx) :
    i ∈ ((cfg2.win 4).blk t).view.set
      ↔ ∀ a : Fin 2, win2_4.index t a * S1024x640.size a ≤ (i a).val
          ∧ (i a).val < win2_4.index t a * S1024x640.size a + S1024x640.size a := by
  show i ∈ ((View.whole main_v7).slice (win2_4.rect t)).set ↔ _
  rw [View.set_slice_whole, Rect.mem_set_unit]
  exact Iff.rfl

/-- Every row of the result array is in the block of the point that holds it: row r in block r / 1024. -/
theorem cover2_4 (i : S4096x640.Idx) :
    ∃ t : Fin cfg2.N, (cfg2.win 4).flush t = true ∧ i ∈ ((cfg2.win 4).blk t).view.set := by
  have hi0 : (i 0).val < 4096 := (i 0).isLt
  have hi1 : (i 1).val < 640 := (i 1).isLt
  have hN : cfg2.N = 4 := N_2
  obtain ⟨-, -, -, -, -, -, e40, e41⟩ := blockIndex2 ⟨(i 0).val / 1024, by rw [hN]; omega⟩
  refine ⟨⟨(i 0).val / 1024, by rw [hN]; omega⟩, flush2_4 _, ?_⟩
  rw [mem_blk2_4]
  intro a
  match a with
  | ⟨0, _⟩ =>
    show win2_4.index ⟨(i 0).val / 1024, _⟩ (0 : Fin 2) * 1024 ≤ (i 0).val
      ∧ (i 0).val < win2_4.index ⟨(i 0).val / 1024, _⟩ (0 : Fin 2) * 1024 + 1024
    rw [e40]; show (i 0).val / 1024 * 1024 ≤ (i 0).val ∧ (i 0).val < (i 0).val / 1024 * 1024 + 1024; omega
  | ⟨1, _⟩ =>
    show win2_4.index ⟨(i 0).val / 1024, _⟩ (1 : Fin 2) * 640 ≤ (i 1).val
      ∧ (i 1).val < win2_4.index ⟨(i 0).val / 1024, _⟩ (1 : Fin 2) * 640 + 640
    rw [e41]; omega

/-- The result array after the region: the row normalisation of the sum of the attention output and the input, as the
    region finds them, with the scale and shift vectors as the region finds them. -/
theorem arr2_4 (c : Dev nD) :
    (dat2 V c).arrAt 4 cfg2.N = normedSum (V c main_v6) (V c main_arg0) (V c main_arg4) (V c main_arg5) :=
  (dat2 V c).arrAt_eq_of_cover 4 (normed V c) (fun t _ => flushed2_4_eq V c t) cover2_4

end Cert.KernelIdeal.Hand

end
-- ==== Proof.IBridge.lean ====
/-
  Attention in the arrangement the kernel computes it, and why it is the specification's attention.

  The kernel scales the query projection by 1/64 before the scores are taken, where the specification divides each score
  by 64; and it divides the weighted sum of the value rows by the sum of the weights, where the specification sums the
  normalised weights. On real numbers the two scores agree, Σ_e (q_e · (1/64)) · k_e = (Σ_e q_e · k_e) / 64, so the two
  softmax rows agree term by term; and the running (tile by tile) computation of the quotient over the 8 tiles of 512
  key columns of a row of 4096 is the two-pass softmax of that row against the value column.

  The two float words, 1/64 and 64, are read as real numbers once, here.
-/
import proofs.«126686_j77318001263092_2_alg».proof.Proof.Spec
import proofs.«126686_j77318001263092_2_alg».proof.Proof.LibOnlineSoftmax

noncomputable section

namespace Cert.Attn

open Idealize.ShloMosaic Idealize.ShloMosaic.ValueIdx
open Cert.LibOnlineSoftmax (coe_finset_sum state quot_eq_flat state_flat)

/-! ## The two words -/

/-- The factor 1/64 the query projection is scaled by, as its printed word denotes it. -/
def cInv64 : EReal := Ideal.ofBits .f32 0x3C800000#32

/-- The word for 1/64 denotes the real number 1/64. -/
theorem cInv64_eq : cInv64 = ((1 / 64 : ℝ) : EReal) := by
  unfold cInv64
  simp [Ideal.ofBits, Ideal.ieee, -EReal.coe_mul]; norm_num

/-- The word for 64 denotes the real number 64. -/
theorem c64_eq : c64 = ((64 : ℝ) : EReal) := by
  unfold c64
  simp [Ideal.ofBits, Ideal.ieee, -EReal.coe_mul]; norm_num

/-! ## The kernel's arrangement -/

/-- The score as the kernel takes it: the query projection scaled by 1/64, then multiplied into the key projection. -/
def kscore (x : A2 4096 640) (Wq Wk : A2 640 640) (h : Fin 10) (i j : Fin 4096) : EReal :=
  ∑ e : Fin 64, (asHeads (proj x Wq) h i e * cInv64) * asKeys (proj x Wk) h e j

/-- The attention output over the kernel's scores: the softmax weights of row i against the value column e. -/
def kattn (x : A2 4096 640) (Wq Wk Wv : A2 640 640) (h : Fin 10) (i : Fin 4096) (e : Fin 64) : EReal :=
  ∑ j : Fin 4096,
    Ideal.div (Ideal.exp (kscore x Wq Wk h i j - Finset.univ.sup fun j' : Fin 4096 => kscore x Wq Wk h i j'))
        (∑ j' : Fin 4096, Ideal.exp (kscore x Wq Wk h i j' - Finset.univ.sup fun j'' : Fin 4096 => kscore x Wq Wk h i j''))
      * asHeads (proj x Wv) h j e

/-! ## Real arrays give real projections and scores -/

/-- A finite sum of products of real numbers is a real number. -/
theorem sum_mul_isReal {ι : Type*} [Fintype ι] (a b : ι → EReal) (ha : ∀ i, ∃ r : ℝ, a i = (r : EReal))
    (hb : ∀ i, ∃ r : ℝ, b i = (r : EReal)) : ∃ r : ℝ, ∑ i, a i * b i = (r : EReal) := by
  refine ⟨∑ i, (a i).toReal * (b i).toReal, ?_⟩
  rw [coe_finset_sum]
  refine Finset.sum_congr rfl fun i _ => ?_
  obtain ⟨r, hr⟩ := ha i
  obtain ⟨q, hq⟩ := hb i
  rw [hr, hq, EReal.toReal_coe, EReal.toReal_coe, EReal.coe_mul]

/-- A projection of a real array against a real weight is real at every entry. -/
theorem proj_isReal {x : A2 4096 640} {W : A2 640 640} (hx : ∀ y, ∃ r : ℝ, x y = (r : EReal))
    (hW : ∀ y, ∃ r : ℝ, W y = (r : EReal)) (n : Fin 4096) (d : Fin 640) : ∃ r : ℝ, proj x W n d = (r : EReal) :=
  sum_mul_isReal _ _ (fun k => hx (ix2 n k)) (fun k => hW (ix2 d k))

/-- A real [4096, 640] array re-read as [10, 4096, 64] is real at every entry. -/
theorem asHeads_isReal {P : Fin 4096 → Fin 640 → EReal} (hP : ∀ n d, ∃ r : ℝ, P n d = (r : EReal)) (h : Fin 10)
    (r : Fin 4096) (e : Fin 64) : ∃ r' : ℝ, asHeads P h r e = (r' : EReal) := hP _ _

/-- A real [4096, 640] array re-read as [10, 64, 4096] is real at every entry. -/
theorem asKeys_isReal {P : Fin 4096 → Fin 640 → EReal} (hP : ∀ n d, ∃ r : ℝ, P n d = (r : EReal)) (h : Fin 10)
    (e : Fin 64) (j : Fin 4096) : ∃ r' : ℝ, asKeys P h e j = (r' : EReal) := hP _ _

section Real

variable {x : A2 4096 640} {Wq Wk Wv : A2 640 640}
variable (hx : ∀ y, ∃ r : ℝ, x y = (r : EReal)) (hq : ∀ y, ∃ r : ℝ, Wq y = (r : EReal))
  (hk : ∀ y, ∃ r : ℝ, Wk y = (r : EReal)) (hv : ∀ y, ∃ r : ℝ, Wv y = (r : EReal))

include hx hq in
/-- The query projection, re-read by heads, is real. -/
theorem queries_isReal (h : Fin 10) (i : Fin 4096) (e : Fin 64) : ∃ r : ℝ, asHeads (proj x Wq) h i e = (r : EReal) :=
  asHeads_isReal (proj_isReal hx hq) h i e

include hx hk in
/-- The key projection, re-read by heads, is real. -/
theorem keys_isReal (h : Fin 10) (e : Fin 64) (j : Fin 4096) : ∃ r : ℝ, asKeys (proj x Wk) h e j = (r : EReal) :=
  asKeys_isReal (proj_isReal hx hk) h e j

include hx hv in
/-- The value projection, re-read by heads, is real. -/
theorem values_isReal (h : Fin 10) (j : Fin 4096) (e : Fin 64) : ∃ r : ℝ, asHeads (proj x Wv) h j e = (r : EReal) :=
  asHeads_isReal (proj_isReal hx hv) h j e

include hx hq hk in
/-- The kernel's score is a real number. -/
theorem kscore_isReal (h : Fin 10) (i j : Fin 4096) : ∃ r : ℝ, kscore x Wq Wk h i j = (r : EReal) :=
  sum_mul_isReal _ _ (fun e => by
    obtain ⟨r, hr⟩ := queries_isReal hx hq h i e
    exact ⟨r * (1 / 64), by rw [hr, cInv64_eq, EReal.coe_mul]⟩) (fun e => keys_isReal hx hk h e j)

include hx hq hk in
/-- The unscaled score is a real number. -/
theorem rawScore_isReal (h : Fin 10) (i j : Fin 4096) : ∃ r : ℝ, rawScore x Wq Wk h i j = (r : EReal) :=
  sum_mul_isReal _ _ (fun e => queries_isReal hx hq h i e) (fun e => keys_isReal hx hk h e j)

include hx hq hk in
/-- The specification's score is a real number. -/
theorem score_isReal (h : Fin 10) (i j : Fin 4096) : ∃ r : ℝ, score x Wq Wk h i j = (r : EReal) := by
  obtain ⟨r, hr⟩ := rawScore_isReal hx hq hk h i j
  exact ⟨r * (1 / 64), by
    rw [score, hr, c64_eq, Ideal.div_coe (by norm_num : (64 : ℝ) ≠ 0), EReal.coe_mul]⟩

/-! ## The two scores agree -/

include hx hq hk in
/-- Scaling the queries by 1/64 before the product is dividing the product by 64:
    Σ_e (q_e · (1/64)) · k_e = (Σ_e q_e · k_e) / 64 for real q, k. -/
theorem kscore_eq_score (h : Fin 10) (i j : Fin 4096) : kscore x Wq Wk h i j = score x Wq Wk h i j := by
  choose qr hqr using fun e => queries_isReal hx hq h i e
  choose kr hkr using fun e => keys_isReal hx hk h e j
  unfold kscore score rawScore
  rw [cInv64_eq, c64_eq, Ideal.div_coe (by norm_num : (64 : ℝ) ≠ 0)]
  simp only [hqr, hkr, ← EReal.coe_mul, ← coe_finset_sum]
  rw [EReal.coe_eq_coe_iff, Finset.sum_mul]
  exact Finset.sum_congr rfl fun e _ => by ring

include hx hq hk in
/-- So the attention over the kernel's scores is the specification's attention. -/
theorem kattn_eq_attn (h : Fin 10) (i : Fin 4096) (e : Fin 64) : kattn x Wq Wk Wv h i e = attn x Wq Wk Wv h i e := by
  unfold kattn attn expw rowMax
  simp only [kscore_eq_score hx hq hk]

/-! ## The running computation over 8 tiles of 512 key columns -/

/-- The online softmax over a row of 4096 = 8 · 512 entries: when tile t, lane u of the scores s and values v reads entry
    512 · t + u of the real rows f and g, the quotient of the running numerator by the running denominator after the 8
    tiles is the two-pass softmax of f against g. -/
theorem quot_eq_4096 {s v : ℕ → Fin 512 → EReal} {f g : Fin 4096 → EReal}
    (hf : ∀ j, ∃ r : ℝ, f j = (r : EReal)) (hg : ∀ j, ∃ r : ℝ, g j = (r : EReal))
    (hs : ∀ (t : ℕ) (ht : t < 8) (u : Fin 512), s t u = f ⟨u.val + 512 * t, by have := u.isLt; omega⟩)
    (hv' : ∀ (t : ℕ) (ht : t < 8) (u : Fin 512), v t u = g ⟨u.val + 512 * t, by have := u.isLt; omega⟩) :
    Ideal.div (state s v 8).a (state s v 8).l
      = ∑ j : Fin 4096, Ideal.div (Ideal.exp (f j - Finset.univ.sup f)) (∑ j' : Fin 4096, Ideal.exp (f j' - Finset.univ.sup f)) * g j :=
  quot_eq_flat (B := 512) (T := 8) (f := f) (g := g) (by norm_num) (by norm_num) hf hg hs hv'

/-- The running state itself after the 8 tiles: the maximum of f, the sum of exp (f j − max f), and the sum of
    exp (f j − max f) · g j. -/
theorem state_4096 {s v : ℕ → Fin 512 → EReal} {f g : Fin 4096 → EReal}
    (hf : ∀ j, ∃ r : ℝ, f j = (r : EReal)) (hg : ∀ j, ∃ r : ℝ, g j = (r : EReal))
    (hs : ∀ (t : ℕ) (ht : t < 8) (u : Fin 512), s t u = f ⟨u.val + 512 * t, by have := u.isLt; omega⟩)
    (hv' : ∀ (t : ℕ) (ht : t < 8) (u : Fin 512), v t u = g ⟨u.val + 512 * t, by have := u.isLt; omega⟩) :
    state s v 8 = ⟨Finset.univ.sup f, ∑ j : Fin 4096, Ideal.exp (f j - Finset.univ.sup f),
                   ∑ j : Fin 4096, Ideal.exp (f j - Finset.univ.sup f) * g j⟩ :=
  state_flat (B := 512) (T := 8) (f := f) (g := g) (by norm_num) hf hg hs hv'

include hx hq hk hv in
/-- The kernel's row recurrence computes the specification's attention: when tile t, lane u reads the kernel's score of
    row i against key column 512 · t + u, and the value row 512 · t + u at feature e, the quotient after the 8 tiles is
    the attention output of head h, row i, feature e. -/
theorem online_eq_attn (h : Fin 10) (i : Fin 4096) (e : Fin 64) {s v : ℕ → Fin 512 → EReal}
    (hs : ∀ (t : ℕ) (ht : t < 8) (u : Fin 512),
      s t u = kscore x Wq Wk h i ⟨u.val + 512 * t, by have := u.isLt; omega⟩)
    (hv' : ∀ (t : ℕ) (ht : t < 8) (u : Fin 512),
      v t u = asHeads (proj x Wv) h ⟨u.val + 512 * t, by have := u.isLt; omega⟩ e) :
    Ideal.div (state s v 8).a (state s v 8).l = attn x Wq Wk Wv h i e :=
  (quot_eq_4096 (f := fun j => kscore x Wq Wk h i j) (g := fun j => asHeads (proj x Wv) h j e)
    (fun j => kscore_isReal hx hq hk h i j) (fun j => values_isReal hx hv h j e) hs hv').trans
    (kattn_eq_attn hx hq hk h i e)

end Real

end Cert.Attn

end
-- ==== Proof.IPre.lean ====
/-
  The precondition, read: every entry of the six argument arrays is a real number.

  The precondition is the conjunction, over the six arrays, of "every entry a has |a| < +∞", each taken as one
  and-reduction of the entrywise comparisons. A conjunction that holds gives each of its parts; an and-reduction that
  holds gives every entry's comparison; the word the entries are compared with denotes +∞; and an extended real x with
  max (x, −x) < +∞ is neither −∞ nor +∞, so it is a real number.
-/
import proofs.«126686_j77318001263092_2_alg».proof.Defs
import proofs.«126686_j77318001263092_2_alg».proof.Proof.Gen.Pre_finite_inputs
import Idealize.ShloMosaic.Lib.ReduceAll
import Idealize.ShloMosaic.Lib.ValueIdx

noncomputable section

namespace Cert.PreReal

open Idealize.ShloMosaic Idealize.ShloMosaic.TcCoe
open Cert.Pre_finite_inputs (S_)

/-- The word the entries are compared with denotes +∞. -/
theorem inf_eq : Ideal.ofBits .f32 0x7F800000#32 = (⊤ : EReal) := by
  simp [Ideal.ofBits, Ideal.ieee]

/-- The shape with no axes has one index. -/
instance : Subsingleton S_.Idx := ⟨fun a b => funext fun d => d.elim0⟩

/-- An extended real whose absolute value max (x, −x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An entry whose comparison |x| < +∞ came out true is a real number. -/
theorem real_of_cmp (x : EReal) (h : Ideal.cmp .olt (max x (-x)) (Ideal.ofBits .f32 0x7F800000#32) = 1#1) :
    ∃ r : ℝ, x = (r : EReal) := by
  rw [inf_eq] at h
  refine real_of_abs_lt_top x ?_
  change BitVec.ofBool (decide (max x (-x) < ⊤)) = 1#1 at h
  by_contra hn
  rw [decide_eq_false hn] at h
  exact absurd h (by decide)

/-- One array: when the and-reduction of its entrywise comparisons |a| < +∞ is true, every entry is a real number. -/
theorem real_of_all {s : Shape} {axes : List (Fin s.rank)} (a : FVec Ideal s .f32)
    (hb : S_.BroadcastsInDim s (![] : Fin 0 → Fin s.rank)) (h : s.ReducesTo axes S_) (hu : 0 < S_.numel)
    (e : Host.reduce IntOp.andi
          (cmpf .olt (Host.absf a) (broadcastInDim s ![] hb (constant (F := Ideal) S_ .f32 0x7F800000#32)))
          (constantI S_ 1 1#1) h hu ValueIdx.ix0 = 1#1)
    (y : s.Idx) : ∃ r : ℝ, a y = (r : EReal) :=
  real_of_cmp (a y) (Host.reduce_andi_all _ _ h hu ValueIdx.ix0 e y)

/-- Under the precondition every entry of each of the six argument arrays is a real number, on every device. -/
theorem real_of_pre [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ y, ∃ r : ℝ, m ((c.tc : Thread Cert.KernelIdeal.nD Cert.KernelIdeal.τ).loc Cert.KernelIdeal.main_arg0) y = (r : EReal))
    ∧ (∀ y, ∃ r : ℝ, m ((c.tc : Thread Cert.KernelIdeal.nD Cert.KernelIdeal.τ).loc Cert.KernelIdeal.main_arg1) y = (r : EReal))
    ∧ (∀ y, ∃ r : ℝ, m ((c.tc : Thread Cert.KernelIdeal.nD Cert.KernelIdeal.τ).loc Cert.KernelIdeal.main_arg2) y = (r : EReal))
    ∧ (∀ y, ∃ r : ℝ, m ((c.tc : Thread Cert.KernelIdeal.nD Cert.KernelIdeal.τ).loc Cert.KernelIdeal.main_arg3) y = (r : EReal))
    ∧ (∀ y, ∃ r : ℝ, m ((c.tc : Thread Cert.KernelIdeal.nD Cert.KernelIdeal.τ).loc Cert.KernelIdeal.main_arg4) y = (r : EReal))
    ∧ (∀ y, ∃ r : ℝ, m ((c.tc : Thread Cert.KernelIdeal.nD Cert.KernelIdeal.τ).loc Cert.KernelIdeal.main_arg5) y = (r : EReal)) := by
  have h := congrFun (hpre c) ValueIdx.ix0
  dsimp only [Cert.Pre_finite_inputs.fn, Cert.Pre_finite_inputs.fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ _ _ h0, real_of_all _ _ _ _ h1, real_of_all _ _ _ _ h2, real_of_all _ _ _ _ h3,
    real_of_all _ _ _ _ h4, real_of_all _ _ _ _ h5⟩

end Cert.PreReal

end
-- ==== Proof.IValAll.lean ====
/-
  The idealized kernel program's result array, end to end, as the specification's function of the six argument arrays.

  Read from the last region backwards: the normalisation region leaves the row normalisation of the sum of the attention
  output (re-read as [4096, 640]) and the input, with the scale and the shift; the re-read attention output at (n, d) is
  the attention region's output at the head, row and feature that the row-major position n · 640 + d names; that output
  is, entry by entry, the quotient the running recurrence leaves after the eight tiles, over the scores and values the
  region finds; those are the first region's three projection arrays re-read by heads — the queries scaled by the value
  of the word for 1/64 —, and the projections are the specification's, of the input and the weights as launched. Under
  the precondition every argument entry is a real number, so the running quotient is the two-pass softmax attention.
-/
import proofs.«126686_j77318001263092_2_alg».proof.Proof.IFrameRun
import proofs.«126686_j77318001263092_2_alg».proof.Proof.IValR0
import proofs.«126686_j77318001263092_2_alg».proof.Proof.IValHost
import proofs.«126686_j77318001263092_2_alg».proof.Proof.IValR1
import proofs.«126686_j77318001263092_2_alg».proof.Proof.IValR2
import proofs.«126686_j77318001263092_2_alg».proof.Proof.IBridge
import proofs.«126686_j77318001263092_2_alg».proof.Proof.IPre

noncomputable section

namespace Cert.KernelIdeal.Hand

open Cert.KernelIdeal Cert.KernelIdeal.Gen
open Idealize.ShloMosaic Idealize.ShloMosaic.TcCoe Idealize.ShloMosaic.ValueIdx Idealize.SL.Sem
open Cert.Attn (A1 A2 proj asHeads asKeys rowOf colOf flatQ flatK flatQ_lt flatK_lt attn resid layerNorm cInv64 kscore online_eq_attn)
open Cert.LibOnlineSoftmax (state)

/-! ## The last step, over any arrays: the normalised sum is the specification -/

/-- If an array holds, at (n, d), the attention output at the head, row and feature of row-major position n · 640 + d,
    the row normalisation of its sum with the input is the specification's result. -/
theorem normedSum_eq_G (x : A2 4096 640) (Wq Wk Wv : A2 640 640) (gamma beta : A1 640) (a0 : S4096x640.Idx → EReal)
    (h0 : ∀ (n : Fin 4096) (d : Fin 640), a0 (ix2 n d)
      = attn x Wq Wk Wv (⟨(n.val * 640 + d.val) / 262144, by omega⟩ : Fin 10) (⟨(n.val * 640 + d.val) % 262144 / 64, by omega⟩ : Fin 4096)
          (⟨(n.val * 640 + d.val) % 64, Nat.mod_lt _ (by norm_num)⟩ : Fin 64)) :
    normedSum a0 x gamma beta = Cert.Attn.G x Wq Wk Wv gamma beta := by
  funext y
  obtain ⟨n, d, rfl⟩ : ∃ (n : Fin 4096) (d : Fin 640), y = ix2 n d := ⟨y 0, y 1, eq_ix2 y⟩
  show layerNorm (fun n d => a0 (ix2 n d) + x (ix2 n d)) gamma beta n d = layerNorm (resid x Wq Wk Wv) gamma beta n d
  exact congrArg (fun v => layerNorm v gamma beta n d) (funext fun n' => funext fun d' => by rw [h0]; rfl)

variable (m : (ℓ : Loc nD τ sig) → Buf (Elt Ideal) ℓ) (ρ : Dev nD → PrngReg) (c : Dev nD)

/-! ## The arguments at the last region's entry -/

/-- Argument 0, read at the last region's entry, is as launched: the first region stages it through an input window
    and writes nothing back to it, no reshape writes it, and the second region does not touch it. -/
theorem VC_main_arg0 : VC m ρ c main_arg0 = m ((c.tc : Thread nD τ).loc main_arg0) :=
  calc U4 m ρ c (Proc.devRef .tc main_arg0)
    _ = U3 m ρ c (Proc.devRef .tc main_arg0) := StableHlo.after_of_writes_sub hostOps2 _ hostOps2_writes (by decide : main_arg0 ∉ hostOps2_W)
    _ = U2 m ρ c (Proc.devRef .tc main_arg0) := U3_of_ne m ρ c main_arg0 (by decide)
    _ = U1 m ρ c (Proc.devRef .tc main_arg0) := StableHlo.after_of_writes_sub hostOps1 _ hostOps1_writes (by decide : main_arg0 ∉ hostOps1_W)
    _ = U0 m ρ c (Proc.devRef .tc main_arg0) := (U1_arr m ρ c 0).trans (((dat0 (VA m ρ) c).arrAt_in 0 rfl _).trans (A_eq0 (VA m ρ) c 0))
    _ = m ((c.tc : Thread nD τ).loc main_arg0) := rfl

/-- Argument 4, read at the last region's entry, is as launched: no earlier region has it as an array and no reshape
    writes it. -/
theorem VC_main_arg4 : VC m ρ c main_arg4 = m ((c.tc : Thread nD τ).loc main_arg4) :=
  calc U4 m ρ c (Proc.devRef .tc main_arg4)
    _ = U3 m ρ c (Proc.devRef .tc main_arg4) := StableHlo.after_of_writes_sub hostOps2 _ hostOps2_writes (by decide : main_arg4 ∉ hostOps2_W)
    _ = U2 m ρ c (Proc.devRef .tc main_arg4) := U3_of_ne m ρ c main_arg4 (by decide)
    _ = U1 m ρ c (Proc.devRef .tc main_arg4) := StableHlo.after_of_writes_sub hostOps1 _ hostOps1_writes (by decide : main_arg4 ∉ hostOps1_W)
    _ = U0 m ρ c (Proc.devRef .tc main_arg4) := U1_of_ne m ρ c main_arg4 (by decide)
    _ = m ((c.tc : Thread nD τ).loc main_arg4) := rfl

/-- Argument 5, read at the last region's entry, is as launched: no earlier region has it as an array and no reshape
    writes it. -/
theorem VC_main_arg5 : VC m ρ c main_arg5 = m ((c.tc : Thread nD τ).loc main_arg5) :=
  calc U4 m ρ c (Proc.devRef .tc main_arg5)
    _ = U3 m ρ c (Proc.devRef .tc main_arg5) := StableHlo.after_of_writes_sub hostOps2 _ hostOps2_writes (by decide : main_arg5 ∉ hostOps2_W)
    _ = U2 m ρ c (Proc.devRef .tc main_arg5) := U3_of_ne m ρ c main_arg5 (by decide)
    _ = U1 m ρ c (Proc.devRef .tc main_arg5) := StableHlo.after_of_writes_sub hostOps1 _ hostOps1_writes (by decide : main_arg5 ∉ hostOps1_W)
    _ = U0 m ρ c (Proc.devRef .tc main_arg5) := U1_of_ne m ρ c main_arg5 (by decide)
    _ = m ((c.tc : Thread nD τ).loc main_arg5) := rfl

/-! ## The first region's arrays, and their re-readings by heads -/

/-- After the first region the query array holds the scaled projection of the launched input against the launched
    query weight. -/
theorem U1_queries (y : S4096x640.Idx) :
    U1 m ρ c (Proc.devRef .tc main_v0_0) y = proj (m ((c.tc : Thread nD τ).loc main_arg0)) (m ((c.tc : Thread nD τ).loc main_arg1)) (y 0) (y 1) * cInv64 :=
  congrFun ((U1_arr m ρ c 4).trans (arr0_4 (VA m ρ) c)) y

/-- After the first region the key array holds the projection against the launched key weight. -/
theorem U1_keys (y : S4096x640.Idx) :
    U1 m ρ c (Proc.devRef .tc main_v0_1) y = proj (m ((c.tc : Thread nD τ).loc main_arg0)) (m ((c.tc : Thread nD τ).loc main_arg2)) (y 0) (y 1) :=
  congrFun ((U1_arr m ρ c 5).trans (arr0_5 (VA m ρ) c)) y

/-- After the first region the value array holds the projection against the launched value weight. -/
theorem U1_values (y : S4096x640.Idx) :
    U1 m ρ c (Proc.devRef .tc main_v0_2) y = proj (m ((c.tc : Thread nD τ).loc main_arg0)) (m ((c.tc : Thread nD τ).loc main_arg3)) (y 0) (y 1) :=
  congrFun ((U1_arr m ρ c 6).trans (arr0_6 (VA m ρ) c)) y

/-- The queries the attention region finds: the projection re-read by heads, scaled. -/
theorem VB_queries (h : Fin 10) (r : Fin 4096) (e : Fin 64) :
    VB m ρ c main_v1 (ix3 h r e) = asHeads (proj (m ((c.tc : Thread nD τ).loc main_arg0)) (m ((c.tc : Thread nD τ).loc main_arg1))) h r e * cInv64 :=
  (host1_v1 (U1 m ρ c) h r e).trans (U1_queries m ρ c _)

/-- The keys the attention region finds: the projection re-read as [10, 64, 4096]. -/
theorem VB_keys (h : Fin 10) (e : Fin 64) (j : Fin 4096) :
    VB m ρ c main_v3 (ix3 h e j) = asKeys (proj (m ((c.tc : Thread nD τ).loc main_arg0)) (m ((c.tc : Thread nD τ).loc main_arg2))) h e j :=
  (host1_v3 (U1 m ρ c) h e j).trans (U1_keys m ρ c _)

/-- The values the attention region finds: the projection re-read by heads. -/
theorem VB_values (h : Fin 10) (r : Fin 4096) (e : Fin 64) :
    VB m ρ c main_v4 (ix3 h r e) = asHeads (proj (m ((c.tc : Thread nD τ).loc main_arg0)) (m ((c.tc : Thread nD τ).loc main_arg3))) h r e :=
  (host1_v4 (U1 m ρ c) h r e).trans (U1_values m ρ c _)

/-! ## The attention region's scores and values, tile by tile -/

/-- Below 8 tiles the key column 512 · t + u is below 4096, so reducing it modulo 4096 changes nothing. -/
theorem tileCol_eq (t : ℕ) (ht : t < 8) (u : Fin 512) :
    (⟨(u.val + 512 * t) % 4096, Nat.mod_lt _ (by norm_num)⟩ : Fin 4096) = ⟨u.val + 512 * t, by have := u.isLt; omega⟩ :=
  Fin.ext (Nat.mod_eq_of_lt (by have := u.isLt; omega))

/-- Tile `t`, lane `u` of the scores of row `r` of head `h` is the kernel-arranged score against key column 512 · t + u. -/
theorem sT_eq (h : Fin 10) (r : Fin 4096) (t : ℕ) (ht : t < 8) (u : Fin 512) :
    sT (VB m ρ c main_v1) (VB m ρ c main_v3) h r t u
      = kscore (m ((c.tc : Thread nD τ).loc main_arg0)) (m ((c.tc : Thread nD τ).loc main_arg1)) (m ((c.tc : Thread nD τ).loc main_arg2)) h r ⟨u.val + 512 * t, by have := u.isLt; omega⟩ := by
  unfold sT kscore
  refine Finset.sum_congr rfl fun e' _ => ?_
  rw [VB_queries, VB_keys, tileCol_eq t ht u]

/-- Tile `t`, lane `u` of feature `e` of the values of head `h` is the value row 512 · t + u at feature `e`. -/
theorem vT_eq (h : Fin 10) (e : Fin 64) (t : ℕ) (ht : t < 8) (u : Fin 512) :
    vT (VB m ρ c main_v4) h e t u
      = asHeads (proj (m ((c.tc : Thread nD τ).loc main_arg0)) (m ((c.tc : Thread nD τ).loc main_arg3))) h ⟨u.val + 512 * t, by have := u.isLt; omega⟩ e := by
  unfold vT
  rw [VB_values, tileCol_eq t ht u]

section Real

variable (hx : ∀ y, ∃ r : ℝ, m ((c.tc : Thread nD τ).loc main_arg0) y = (r : EReal)) (hq : ∀ y, ∃ r : ℝ, m ((c.tc : Thread nD τ).loc main_arg1) y = (r : EReal))
  (hk : ∀ y, ∃ r : ℝ, m ((c.tc : Thread nD τ).loc main_arg2) y = (r : EReal)) (hv : ∀ y, ∃ r : ℝ, m ((c.tc : Thread nD τ).loc main_arg3) y = (r : EReal))

include hx hq hk hv in
/-- After the attention region its output array holds the specification's attention, for real argument arrays. -/
theorem U3_attn (h : Fin 10) (r : Fin 4096) (e : Fin 64) :
    U3 m ρ c (Proc.devRef .tc main_v5) (ix3 h r e) = attn (m ((c.tc : Thread nD τ).loc main_arg0)) (m ((c.tc : Thread nD τ).loc main_arg1)) (m ((c.tc : Thread nD τ).loc main_arg2)) (m ((c.tc : Thread nD τ).loc main_arg3)) h r e :=
  (congrFun ((U3_arr m ρ c 3).trans (arr1_3 (VB m ρ) c)) (ix3 h r e)).trans
    (online_eq_attn hx hq hk hv h r e (sT_eq m ρ c h r) (vT_eq m ρ c h e))

include hx hq hk hv in
/-- The re-read attention output the last region finds, at (n, d). -/
theorem VC_main_v6 (n : Fin 4096) (d : Fin 640) :
    VC m ρ c main_v6 (ix2 n d)
      = attn (m ((c.tc : Thread nD τ).loc main_arg0)) (m ((c.tc : Thread nD τ).loc main_arg1)) (m ((c.tc : Thread nD τ).loc main_arg2)) (m ((c.tc : Thread nD τ).loc main_arg3)) (⟨(n.val * 640 + d.val) / 262144, by omega⟩ : Fin 10)
          (⟨(n.val * 640 + d.val) % 262144 / 64, by omega⟩ : Fin 4096) (⟨(n.val * 640 + d.val) % 64, Nat.mod_lt _ (by norm_num)⟩ : Fin 64) :=
  (host2_v6 (U3 m ρ c) n d).trans (U3_attn m ρ c hx hq hk hv _ _ _)

end Real

/-! ## The result -/

/-- Under the precondition the result array the last region leaves is the specification's function of the six argument
    arrays as launched. -/
theorem kernel_val [hPre : Cert.Pre_finite_inputs.Facts] (m : (ℓ : Loc nD τ sig) → Buf (Elt Ideal) ℓ) (ρ : Dev nD → PrngReg)
    (hpre : Cert.Pre_KernelIdeal m) (c : Dev nD) :
    (dat2 (VC m ρ) c).arrAt 4 cfg2.N
      = Cert.Attn.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨hx, hq, hk, hv, -, -⟩ := Cert.PreReal.real_of_pre m hpre c
  refine (arr2_4 (VC m ρ) c).trans ?_
  rw [VC_main_arg0 m ρ c, VC_main_arg4 m ρ c, VC_main_arg5 m ρ c]
  exact normedSum_eq_G _ _ _ _ _ _ _ (VC_main_v6 m ρ c hx hq hk hv)

end Cert.KernelIdeal.Hand

end
-- ==== Proof.lean ====
/-
  Three programs and one function.

  All three take an input x of 4096 rows of 640 entries, three 640 × 640 weights, a scale and a shift of 640 entries, and
  return 4096 rows of 640 entries: ten-head attention over the rows of x, the input added back, and each row normalised.
  * The projections: x against each weight transposed.
  * The attention of each head: for a query row, its scores against the 4096 key rows, the softmax of those scores, and
    the sum of the value rows weighted by it.
  * The residual and the row normalisation: subtract the row mean, multiply by the reciprocal square root of the row
    variance plus ε, scale and shift.

  The kernel, read on its own floats and read on the extended reals with exact operations, runs to the end without fault
  and leaves its six arguments as it found them; so does the reference. Nothing of the kernel was rewritten to read it on
  the extended reals, so there is nothing to preserve between its two readings.

  On the extended reals the kernel and the reference end with the same result array whenever every input entry is a real
  number, which the precondition says: both end at one function of the six arguments, stated once, index by index.
  Three things differ between how the kernel arrives there and how the reference does.
  * The kernel multiplies the query projection by 1/64 before taking the scores; the reference divides each score by 64.
    On real numbers Σ_e (q_e · (1/64)) · k_e = (Σ_e q_e · k_e) / 64.
  * The kernel never holds a whole row of scores. It reads the keys in 8 tiles of 512, keeps the largest score met so far
    and two sums scaled to it, and rescales both by exp (old maximum − new maximum) at each tile; at the end it divides
    one sum by the other. The reference takes the row maximum, exponentiates, normalises, and sums. With real scores and
    values the running sums after the last tile are the sums taken against the row maximum, the denominator is a positive
    real number, and the quotient of the sums is the sum of the quotients.
  * Both normalise the rows of the same sum, attention output plus input, by the same operations in the same order; the
    kernel does it in four blocks of 1024 rows, which tile the array.
-/
import proofs.«126686_j77318001263092_2_alg».proof.Defs
import proofs.«126686_j77318001263092_2_alg».proof.Proof.Gen.Kernel
import proofs.«126686_j77318001263092_2_alg».proof.Proof.Gen.KernelIdeal
import proofs.«126686_j77318001263092_2_alg».proof.Proof.Gen.ReferenceIdeal
import proofs.«126686_j77318001263092_2_alg».proof.Proof.Gen.Pre_finite_inputs
import proofs.«126686_j77318001263092_2_alg».proof.Proof.BFrameRun
import proofs.«126686_j77318001263092_2_alg».proof.Proof.IFrameRun
import proofs.«126686_j77318001263092_2_alg».proof.Proof.RefIsG
import proofs.«126686_j77318001263092_2_alg».proof.Proof.IValAll

noncomputable section

namespace Cert.Proof

open Idealize.ShloMosaic Idealize.SL.Sem

/-- The kernel on its own floats runs to the end and leaves its arguments as they were. -/
theorem frame_kernel : Cert.frame_Kernel := fun m ρ _ => Cert.Kernel.Hand.frameH (F := Bits) m ρ

/-- The kernel on the extended reals runs to the end and leaves its arguments as they were. -/
theorem frame_kernelIdeal : Cert.frame_KernelIdeal := fun m ρ _ => Cert.KernelIdeal.Hand.frameH (F := Ideal) m ρ

/-- The reference on the extended reals runs to the end and leaves its arguments as they were. -/
theorem frame_reference : Cert.frame_ReferenceIdeal := fun m ρ _ =>
  (θ_run Cert.ReferenceIdeal.defs _ _).mono (fun _ h c => (h c).2) (Cert.RefIsG.ref_run m ρ)

/-- Reading the kernel on the extended reals rewrote none of its operations. -/
theorem preserves : Cert.preserves_Kernel_KernelIdeal := trivial

/-- On the extended reals, from real inputs, the kernel and the reference end with the same result array: the
    specification's function of the six arguments. -/
theorem algebraic : Cert.algebraic_KernelIdeal_ReferenceIdeal := by
  intro m g m' g' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.kernel_val m g hpre c), (h c).2⟩)
      (Cert.KernelIdeal.Hand.run_main (F := Ideal) m g)
  · refine (θ_run Cert.ReferenceIdeal.defs _ _).mono (fun r h c => ⟨(h c).1.trans ?_, (h c).2⟩)
      (Cert.RefIsG.ref_run m' g')
    rw [(hagree c).1, (hagree c).2.1, (hagree c).2.2.1, (hagree c).2.2.2.1, (hagree c).2.2.2.2.1, (hagree c).2.2.2.2.2]

/-- Everything claimed of the three programs. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
